-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1 : Shape := ⟨2, ![2048, 1]⟩
abbrev S2048x40960 : Shape := ⟨2, ![2048, 40960]⟩
abbrev S288x40960 : Shape := ⟨2, ![288, 40960]⟩
abbrev S288 : Shape := ⟨1, ![288]⟩
abbrev S32x576 : Shape := ⟨2, ![32, 576]⟩
abbrev S32 : Shape := ⟨1, ![32]⟩
abbrev S32x32 : Shape := ⟨2, ![32, 32]⟩
abbrev S1x32 : Shape := ⟨2, ![1, 32]⟩
abbrev S1 : Shape := ⟨1, ![1]⟩
abbrev S144x576 : Shape := ⟨2, ![144, 576]⟩
abbrev S144 : Shape := ⟨1, ![144]⟩
abbrev S4096x144 : Shape := ⟨2, ![4096, 144]⟩
abbrev S4096 : Shape := ⟨1, ![4096]⟩
abbrev S1x576 : Shape := ⟨2, ![1, 576]⟩
abbrev S4096x576 : Shape := ⟨2, ![4096, 576]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel
  bcast_S_S2048x40960 : S_.BroadcastsInDim S2048x40960 (![] : Fin 0 → Fin S2048x40960.rank)
  reducesTo_S2048x40960_S_d0_1 : S2048x40960.ReducesTo [0, 1] S_
  bcast_S_S288x40960 : S_.BroadcastsInDim S288x40960 (![] : Fin 0 → Fin S288x40960.rank)
  reducesTo_S288x40960_S_d0_1 : S288x40960.ReducesTo [0, 1] S_
  bcast_S_S288 : S_.BroadcastsInDim S288 (![] : Fin 0 → Fin S288.rank)
  reducesTo_S288_S_d0 : S288.ReducesTo [0] S_
  bcast_S_S32x576 : S_.BroadcastsInDim S32x576 (![] : Fin 0 → Fin S32x576.rank)
  reducesTo_S32x576_S_d0_1 : S32x576.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S144x576 : S_.BroadcastsInDim S144x576 (![] : Fin 0 → Fin S144x576.rank)
  reducesTo_S144x576_S_d0_1 : S144x576.ReducesTo [0, 1] S_
  bcast_S_S144 : S_.BroadcastsInDim S144 (![] : Fin 0 → Fin S144.rank)
  reducesTo_S144_S_d0 : S144.ReducesTo [0] S_
  bcast_S_S4096x144 : S_.BroadcastsInDim S4096x144 (![] : Fin 0 → Fin S4096x144.rank)
  reducesTo_S4096x144_S_d0_1 : S4096x144.ReducesTo [0, 1] S_
  bcast_S_S4096 : S_.BroadcastsInDim S4096 (![] : Fin 0 → Fin S4096.rank)
  reducesTo_S4096_S_d0 : S4096.ReducesTo [0] S_
  bcast_S_S1x576 : S_.BroadcastsInDim S1x576 (![] : Fin 0 → Fin S1x576.rank)
  reducesTo_S1x576_S_d0_1 : S1x576.ReducesTo [0, 1] S_
  bcast_S_S4096x576 : S_.BroadcastsInDim S4096x576 (![] : Fin 0 → Fin S4096x576.rank)
  reducesTo_S4096x576_S_d0_1 : S4096x576.ReducesTo [0, 1] S_

variable [Facts]

def fn_part6 {F : FTy → Type} [FloatOps F] (main_v98 : IVec S_ 1) (main_v101 : IVec S4096 1) (main_c_39 : IVec S_ 1) : IVec S_ 1 :=
  let main_v102 : IVec S_ 1 := (fun x v => Host.reduce IntOp.andi x v reducesTo_S4096_S_d0 h_S_) main_v101 main_c_39
  let main_v103 : IVec S_ 1 := andi main_v98 main_v102
  main_v103

def fn_part5 {F : FTy → Type} [FloatOps F] (main_arg18 : FVec F S1 .f32) (main_arg19 : FVec F S4096x576 .f32) (main_arg20 : FVec F S4096 .f32) (main_v83 : IVec S_ 1) (main_v84 : FVec F S1x576 .f32) (main_cst_32 : FVec F S_ .f32) : IVec S_ 1 :=
  let main_v85 : FVec F S1x576 .f32 := broadcastInDim S1x576 ![] bcast_S_S1x576 main_cst_32
  let main_v86 : IVec S1x576 1 := cmpf .olt main_v84 main_v85
  let main_c_33 : IVec S_ 1 := constantI S_ 1 1#1
  let main_v87 : IVec S_ 1 := (fun x v => Host.reduce IntOp.andi x v reducesTo_S1x576_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S4096x576 .f32 := Host.absf main_arg19
  let main_cst_36 : FVec F S_ .f32 := constant S_ .f32 0x7F800000#32
  let main_v95 : FVec F S4096x576 .f32 := broadcastInDim S4096x576 ![] bcast_S_S4096x576 main_cst_36
  let main_v96 : IVec S4096x576 1 := cmpf .olt main_v94 main_v95
  let main_c_37 : IVec S_ 1 := constantI S_ 1 1#1
  let main_v97 : IVec S_ 1 := (fun x v => Host.reduce IntOp.andi x v reducesTo_S4096x576_S_d0_1 h_S_) main_v96 main_c_37
  let main_v98 : IVec S_ 1 := andi main_v93 main_v97
  let main_v99 : FVec F S4096 .f32 := Host.absf main_arg20
  let main_cst_38 : FVec F S_ .f32 := constant S_ .f32 0x7F800000#32
  let main_v100 : FVec F S4096 .f32 := broadcastInDim S4096 ![] bcast_S_S4096 main_cst_38
  let main_v101 : IVec S4096 1 := cmpf .olt main_v99 main_v100
  let main_c_39 : IVec S_ 1 := constantI S_ 1 1#1
  fn_part6 (F := F) main_v98 main_v101 main_c_39

def fn_part4 {F : FTy → Type} [FloatOps F] (main_arg14 : FVec F S144 .f32) (main_arg15 : FVec F S4096x144 .f32) (main_arg16 : FVec F S4096 .f32) (main_arg17 : FVec F S1x576 .f32) (main_arg18 : FVec F S1 .f32) (main_arg19 : FVec F S4096x576 .f32) (main_arg20 : FVec F S4096 .f32) (main_v63 : IVec S_ 1) (main_v67 : IVec S_ 1) : IVec S_ 1 :=
  let main_v68 : IVec S_ 1 := andi main_v63 main_v67
  let main_v69 : FVec F S144 .f32 := Host.absf main_arg14
  let main_cst_26 : FVec F S_ .f32 := constant S_ .f32 0x7F800000#32
  let main_v70 : FVec F S144 .f32 := broadcastInDim S144 ![] bcast_S_S144 main_cst_26
  let main_v71 : IVec S144 1 := cmpf .olt main_v69 main_v70
  let main_c_27 : IVec S_ 1 := constantI S_ 1 1#1
  let main_v72 : IVec S_ 1 := (fun x v => Host.reduce IntOp.andi x v reducesTo_S144_S_d0 h_S_) main_v71 main_c_27
  let main_v73 : IVec S_ 1 := andi main_v68 main_v72
  let main_v74 : FVec F S4096x144 .f32 := Host.absf main_arg15
  let main_cst_28 : FVec F S_ .f32 := constant S_ .f32 0x7F800000#32
  let main_v75 : FVec F S4096x144 .f32 := broadcastInDim S4096x144 ![] bcast_S_S4096x144 main_cst_28
  let main_v76 : IVec S4096x144 1 := cmpf .olt main_v74 main_v75
  let main_c_29 : IVec S_ 1 := constantI S_ 1 1#1
  let main_v77 : IVec S_ 1 := (fun x v => Host.reduce IntOp.andi x v reducesTo_S4096x144_S_d0_1 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S1x576 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1x32 .f32) (main_arg12 : FVec F S1 .f32) (main_arg13 : FVec F S144x576 .f32) (main_arg14 : FVec F S144 .f32) (main_arg15 : FVec F S4096x144 .f32) (main_arg16 : FVec F S4096 .f32) (main_arg17 : FVec F S1x576 .f32) (main_arg18 : FVec F S1 .f32) (main_arg19 : FVec F S4096x576 .f32) (main_arg20 : FVec F S4096 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S144x576 .f32 := Host.absf main_arg13
  let main_cst_24 : FVec F S_ .f32 := constant S_ .f32 0x7F800000#32
  let main_v65 : FVec F S144x576 .f32 := broadcastInDim S144x576 ![] bcast_S_S144x576 main_cst_24
  let main_v66 : IVec S144x576 1 := cmpf .olt main_v64 main_v65
  let main_c_25 : IVec S_ 1 := constantI S_ 1 1#1
  let main_v67 : IVec S_ 1 := (fun x v => Host.reduce IntOp.andi x v reducesTo_S144x576_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S32x576 .f32) (main_arg8 : FVec F S32 .f32) (main_arg9 : FVec F S32x32 .f32) (main_arg10 : FVec F S32 .f32) (main_arg11 : FVec F S1x32 .f32) (main_arg12 : FVec F S1 .f32) (main_arg13 : FVec F S144x576 .f32) (main_arg14 : FVec F S144 .f32) (main_arg15 : FVec F S4096x144 .f32) (main_arg16 : FVec F S4096 .f32) (main_arg17 : FVec F S1x576 .f32) (main_arg18 : FVec F S1 .f32) (main_arg19 : FVec F S4096x576 .f32) (main_arg20 : FVec F S4096 .f32) (main_v33 : IVec S_ 1) : IVec S_ 1 :=
  let main_v34 : FVec F S32x576 .f32 := Host.absf main_arg7
  let main_cst_12 : FVec F S_ .f32 := constant S_ .f32 0x7F800000#32
  let main_v35 : FVec F S32x576 .f32 := broadcastInDim S32x576 ![] bcast_S_S32x576 main_cst_12
  let main_v36 : IVec S32x576 1 := cmpf .olt main_v34 main_v35
  let main_c_13 : IVec S_ 1 := constantI S_ 1 1#1
  let main_v37 : IVec S_ 1 := (fun x v => Host.reduce IntOp.andi x v reducesTo_S32x576_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S288 .f32) (main_arg5 : FVec F S288x40960 .f32) (main_arg6 : FVec F S288 .f32) (main_arg7 : FVec F S32x576 .f32) (main_arg8 : FVec F S32 .f32) (main_arg9 : FVec F S32x32 .f32) (main_arg10 : FVec F S32 .f32) (main_arg11 : FVec F S1x32 .f32) (main_arg12 : FVec F S1 .f32) (main_arg13 : FVec F S144x576 .f32) (main_arg14 : FVec F S144 .f32) (main_arg15 : FVec F S4096x144 .f32) (main_arg16 : FVec F S4096 .f32) (main_arg17 : FVec F S1x576 .f32) (main_arg18 : FVec F S1 .f32) (main_arg19 : FVec F S4096x576 .f32) (main_arg20 : FVec F S4096 .f32) (main_v13 : IVec S_ 1) (main_v16 : IVec S288x40960 1) : IVec S_ 1 :=
  let main_c_5 : IVec S_ 1 := constantI S_ 1 1#1
  let main_v17 : IVec S_ 1 := (fun x v => Host.reduce IntOp.andi x v reducesTo_S288x40960_S_d0_1 h_S_) main_v16 main_c_5
  let main_v18 : IVec S_ 1 := andi main_v13 main_v17
  let main_v19 : FVec F S288 .f32 := Host.absf main_arg4
  let main_cst_6 : FVec F S_ .f32 := constant S_ .f32 0x7F800000#32
  let main_v20 : FVec F S288 .f32 := broadcastInDim S288 ![] bcast_S_S288 main_cst_6
  let main_v21 : IVec S288 1 := cmpf .olt main_v19 main_v20
  let main_c_7 : IVec S_ 1 := constantI S_ 1 1#1
  let main_v22 : IVec S_ 1 := (fun x v => Host.reduce IntOp.andi x v reducesTo_S288_S_d0 h_S_) main_v21 main_c_7
  let main_v23 : IVec S_ 1 := andi main_v18 main_v22
  let main_v24 : FVec F S288x40960 .f32 := Host.absf main_arg5
  let main_cst_8 : FVec F S_ .f32 := constant S_ .f32 0x7F800000#32
  let main_v25 : FVec F S288x40960 .f32 := broadcastInDim S288x40960 ![] bcast_S_S288x40960 main_cst_8
  let main_v26 : IVec S288x40960 1 := cmpf .olt main_v24 main_v25
  let main_c_9 : IVec S_ 1 := constantI S_ 1 1#1
  let main_v27 : IVec S_ 1 := (fun x v => Host.reduce IntOp.andi x v reducesTo_S288x40960_S_d0_1 h_S_) main_v26 main_c_9
  let main_v28 : IVec S_ 1 := andi main_v23 main_v27
  let main_v29 : FVec F S288 .f32 := Host.absf main_arg6
  let main_cst_10 : FVec F S_ .f32 := constant S_ .f32 0x7F800000#32
  let main_v30 : FVec F S288 .f32 := broadcastInDim S288 ![] bcast_S_S288 main_cst_10
  let main_v31 : IVec S288 1 := cmpf .olt main_v29 main_v30
  let main_c_11 : IVec S_ 1 := constantI S_ 1 1#1
  let main_v32 : IVec S_ 1 := (fun x v => Host.reduce IntOp.andi x v reducesTo_S288_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S2048x1 .f32) (main_arg1 : FVec F S2048x40960 .f32) (main_arg2 : FVec F S2048x40960 .f32) (main_arg3 : FVec F S288x40960 .f32) (main_arg4 : FVec F S288 .f32) (main_arg5 : FVec F S288x40960 .f32) (main_arg6 : FVec F S288 .f32) (main_arg7 : FVec F S32x576 .f32) (main_arg8 : FVec F S32 .f32) (main_arg9 : FVec F S32x32 .f32) (main_arg10 : FVec F S32 .f32) (main_arg11 : FVec F S1x32 .f32) (main_arg12 : FVec F S1 .f32) (main_arg13 : FVec F S144x576 .f32) (main_arg14 : FVec F S144 .f32) (main_arg15 : FVec F S4096x144 .f32) (main_arg16 : FVec F S4096 .f32) (main_arg17 : FVec F S1x576 .f32) (main_arg18 : FVec F S1 .f32) (main_arg19 : FVec F S4096x576 .f32) (main_arg20 : FVec F S4096 .f32) : IVec S_ 1 :=
  let main_v0 : FVec F S2048x1 .f32 := Host.absf main_arg0
  let main_cst : FVec F S_ .f32 := constant S_ .f32 0x7F800000#32
  let main_v1 : FVec F S2048x1 .f32 := broadcastInDim S2048x1 ![] bcast_S_S2048x1 main_cst
  let main_v2 : IVec S2048x1 1 := cmpf .olt main_v0 main_v1
  let main_c : IVec S_ 1 := constantI S_ 1 1#1
  let main_v3 : IVec S_ 1 := (fun x v => Host.reduce IntOp.andi x v reducesTo_S2048x1_S_d0_1 h_S_) main_v2 main_c
  let main_v4 : FVec F S2048x40960 .f32 := Host.absf main_arg1
  let main_cst_0 : FVec F S_ .f32 := constant S_ .f32 0x7F800000#32
  let main_v5 : FVec F S2048x40960 .f32 := broadcastInDim S2048x40960 ![] bcast_S_S2048x40960 main_cst_0
  let main_v6 : IVec S2048x40960 1 := cmpf .olt main_v4 main_v5
  let main_c_1 : IVec S_ 1 := constantI S_ 1 1#1
  let main_v7 : IVec S_ 1 := (fun x v => Host.reduce IntOp.andi x v reducesTo_S2048x40960_S_d0_1 h_S_) main_v6 main_c_1
  let main_v8 : IVec S_ 1 := andi main_v3 main_v7
  let main_v9 : FVec F S2048x40960 .f32 := Host.absf main_arg2
  let main_cst_2 : FVec F S_ .f32 := constant S_ .f32 0x7F800000#32
  let main_v10 : FVec F S2048x40960 .f32 := broadcastInDim S2048x40960 ![] bcast_S_S2048x40960 main_cst_2
  let main_v11 : IVec S2048x40960 1 := cmpf .olt main_v9 main_v10
  let main_c_3 : IVec S_ 1 := constantI S_ 1 1#1
  let main_v12 : IVec S_ 1 := (fun x v => Host.reduce IntOp.andi x v reducesTo_S2048x40960_S_d0_1 h_S_) main_v11 main_c_3
  let main_v13 : IVec S_ 1 := andi main_v8 main_v12
  let main_v14 : FVec F S288x40960 .f32 := Host.absf main_arg3
  let main_cst_4 : FVec F S_ .f32 := constant S_ .f32 0x7F800000#32
  let main_v15 : FVec F S288x40960 .f32 := broadcastInDim S288x40960 ![] bcast_S_S288x40960 main_cst_4
  let main_v16 : IVec S288x40960 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S2048x1 : Shape := ⟨2, ![2048, 1]⟩
abbrev S2048x40960 : Shape := ⟨2, ![2048, 40960]⟩
abbrev S288x40960 : Shape := ⟨2, ![288, 40960]⟩
abbrev S288 : Shape := ⟨1, ![288]⟩
abbrev S32x576 : Shape := ⟨2, ![32, 576]⟩
abbrev S32 : Shape := ⟨1, ![32]⟩
abbrev S32x32 : Shape := ⟨2, ![32, 32]⟩
abbrev S1x32 : Shape := ⟨2, ![1, 32]⟩
abbrev S1 : Shape := ⟨1, ![1]⟩
abbrev S144x576 : Shape := ⟨2, ![144, 576]⟩
abbrev S144 : Shape := ⟨1, ![144]⟩
abbrev S4096x144 : Shape := ⟨2, ![4096, 144]⟩
abbrev S4096 : Shape := ⟨1, ![4096]⟩
abbrev S1x576 : Shape := ⟨2, ![1, 576]⟩
abbrev S4096x576 : Shape := ⟨2, ![4096, 576]⟩
abbrev S1x288 : Shape := ⟨2, ![1, 288]⟩
abbrev S2048x288 : Shape := ⟨2, ![2048, 288]⟩
abbrev S2048x512 : Shape := ⟨2, ![2048, 512]⟩
abbrev S288x512 : Shape := ⟨2, ![288, 512]⟩
abbrev S1x1 : Shape := ⟨2, ![1, 1]⟩
abbrev S1x144 : Shape := ⟨2, ![1, 144]⟩
abbrev S1x4096 : Shape := ⟨2, ![1, 4096]⟩
abbrev S2048x4096 : Shape := ⟨2, ![2048, 4096]⟩
abbrev S256x288 : Shape := ⟨2, ![256, 288]⟩
abbrev S256x1 : Shape := ⟨2, ![256, 1]⟩
abbrev S256x4096 : Shape := ⟨2, ![256, 4096]⟩
abbrev S256x576 : Shape := ⟨2, ![256, 576]⟩
abbrev S256x32 : Shape := ⟨2, ![256, 32]⟩
abbrev S256 : Shape := ⟨1, ![256]⟩
abbrev S256x144 : Shape := ⟨2, ![256, 144]⟩
abbrev S2048x64x64 : Shape := ⟨3, ![2048, 64, 64]⟩

abbrev nBuf : Space → Nat
  | .hbm => 35
  | .vmem => 38
  | .smem => 0
  | _ => 0

abbrev bufTy : (tb : Table) → Fin (tcTables nBuf tb) → BufTy
  | .hbm, ⟨0, _⟩ => ⟨S2048x1, .f32⟩
  | .hbm, ⟨1, _⟩ => ⟨S2048x40960, .f32⟩
  | .hbm, ⟨2, _⟩ => ⟨S2048x40960, .f32⟩
  | .hbm, ⟨3, _⟩ => ⟨S288x40960, .f32⟩
  | .hbm, ⟨4, _⟩ => ⟨S288, .f32⟩
  | .hbm, ⟨5, _⟩ => ⟨S288x40960, .f32⟩
  | .hbm, ⟨6, _⟩ => ⟨S288, .f32⟩
  | .hbm, ⟨7, _⟩ => ⟨S32x576, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S144x576, .f32⟩
  | .hbm, ⟨14, _⟩ => ⟨S144, .f32⟩
  | .hbm, ⟨15, _⟩ => ⟨S4096x144, .f32⟩
  | .hbm, ⟨16, _⟩ => ⟨S4096, .f32⟩
  | .hbm, ⟨17, _⟩ => ⟨S1x576, .f32⟩
  | .hbm, ⟨18, _⟩ => ⟨S1, .f32⟩
  | .hbm, ⟨19, _⟩ => ⟨S4096x576, .f32⟩
  | .hbm, ⟨20, _⟩ => ⟨S4096, .f32⟩
  | .hbm, ⟨21, _⟩ => ⟨S1x288, .f32⟩
  | .hbm, ⟨22, _⟩ => ⟨S1x288, .f32⟩
  | .hbm, ⟨23, _⟩ => ⟨S2048x288, .f32⟩
  | .hbm, ⟨24, _⟩ => ⟨S2048x288, .f32⟩
  | .hbm, ⟨25, _⟩ => ⟨S1x32, .f32⟩
  | .hbm, ⟨26, _⟩ => ⟨S1x32, .f32⟩
  | .hbm, ⟨27, _⟩ => ⟨S1x1, .f32⟩
  | .hbm, ⟨28, _⟩ => ⟨S1x144, .f32⟩
  | .hbm, ⟨29, _⟩ => ⟨S1x4096, .f32⟩
  | .hbm, ⟨30, _⟩ => ⟨S1x1, .f32⟩
  | .hbm, ⟨31, _⟩ => ⟨S1x4096, .f32⟩
  | .hbm, ⟨32, _⟩ => ⟨S2048x1, .f32⟩
  | .hbm, ⟨33, _⟩ => ⟨S2048x4096, .f32⟩
  | .hbm, ⟨34, _⟩ => ⟨S2048x64x64, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S288x512, .f32⟩
  | .local _ .vmem, ⟨5, _⟩ => ⟨S288x512, .f32⟩
  | .local _ .vmem, ⟨6, _⟩ => ⟨S288x512, .f32⟩
  | .local _ .vmem, ⟨7, _⟩ => ⟨S288x512, .f32⟩
  | .local _ .vmem, ⟨8, _⟩ => ⟨S1x288, .f32⟩
  | .local _ .vmem, ⟨9, _⟩ => ⟨S1x288, .f32⟩
  | .local _ .vmem, ⟨10, _⟩ => ⟨S2048x288, .f32⟩
  | .local _ .vmem, ⟨11, _⟩ => ⟨S2048x288, .f32⟩
  | .local _ .vmem, ⟨12, _⟩ => ⟨S2048x288, .f32⟩
  | .local _ .vmem, ⟨13, _⟩ => ⟨S2048x288, .f32⟩
  | .local _ .vmem, ⟨14, _⟩ => ⟨S256x288, .f32⟩
  | .local _ .vmem, ⟨15, _⟩ => ⟨S256x288, .f32⟩
  | .local _ .vmem, ⟨16, _⟩ => ⟨S256x288, .f32⟩
  | .local _ .vmem, ⟨17, _⟩ => ⟨S256x288, .f32⟩
  | .local _ .vmem, ⟨18, _⟩ => ⟨S256x1, .f32⟩
  | .local _ .vmem, ⟨19, _⟩ => ⟨S256x1, .f32⟩
  | .local _ .vmem, ⟨20, _⟩ => ⟨S32x576, .f32⟩
  | .local _ .vmem, ⟨21, _⟩ => ⟨S1x32, .f32⟩
  | .local _ .vmem, ⟨22, _⟩ => ⟨S32x32, .f32⟩
  | .local _ .vmem, ⟨23, _⟩ => ⟨S1x32, .f32⟩
  | .local _ .vmem, ⟨24, _⟩ => ⟨S1x32, .f32⟩
  | .local _ .vmem, ⟨25, _⟩ => ⟨S1x1, .f32⟩
  | .local _ .vmem, ⟨26, _⟩ => ⟨S144x576, .f32⟩
  | .local _ .vmem, ⟨27, _⟩ => ⟨S1x144, .f32⟩
  | .local _ .vmem, ⟨28, _⟩ => ⟨S4096x144, .f32⟩
  | .local _ .vmem, ⟨29, _⟩ => ⟨S1x4096, .f32⟩
  | .local _ .vmem, ⟨30, _⟩ => ⟨S1x576, .f32⟩
  | .local _ .vmem, ⟨31, _⟩ => ⟨S1x1, .f32⟩
  | .local _ .vmem, ⟨32, _⟩ => ⟨S4096x576, .f32⟩
  | .local _ .vmem, ⟨33, _⟩ => ⟨S1x4096, .f32⟩
  | .local _ .vmem, ⟨34, _⟩ => ⟨S256x1, .f32⟩
  | .local _ .vmem, ⟨35, _⟩ => ⟨S256x1, .f32⟩
  | .local _ .vmem, ⟨36, _⟩ => ⟨S256x4096, .f32⟩
  | .local _ .vmem, ⟨37, _⟩ => ⟨S256x4096, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2_0 : Ref sig .tc := ⟨.hbm, 23, rfl⟩
abbrev main_v2_1 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10_0 : Ref sig .tc := ⟨.hbm, 32, rfl⟩
abbrev main_v10_1 : Ref sig .tc := ⟨.hbm, 33, rfl⟩
abbrev main_v11 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg15_0 : Ref sig .tc := ⟨.vmem, 32, rfl⟩
abbrev cc1_stg16_0 : Ref sig .tc := ⟨.vmem, 33, rfl⟩
abbrev cc1_stg17_0 : Ref sig .tc := ⟨.vmem, 34, rfl⟩
abbrev cc1_stg17_1 : Ref sig .tc := ⟨.vmem, 35, rfl⟩
abbrev cc1_stg18_0 : Ref sig .tc := ⟨.vmem, 36, rfl⟩
abbrev cc1_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc1_sem16_0 : DmaSem sig := 31
abbrev cc1_sem17_0 : DmaSem sig := 32
abbrev cc1_sem17_1 : DmaSem sig := 33
abbrev cc1_sem18_0 : DmaSem sig := 34
abbrev cc1_sem18_1 : DmaSem sig := 35

abbrev nD : Nat := 1
abbrev τ : Topo := Topo.v7x

variable {F : FTy → Type} [FloatOps F]

abbrev grid0 : Pipeline.Grid := ⟨1, ![80], ![false]⟩

def k0_cond2 (i : grid0.Coords) : BitVec 1 :=
  let arg0 : BitVec 32 := BitVec.ofNat 32 (i 0).val
  let c79_i32 : BitVec 32 := 79#32
  let v23 : BitVec 1 := Scalar.cmpi .eq arg0 c79_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S288x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S288x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x288 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x576 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S144x576 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x144 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4096x144 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x4096 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x576 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S4096x576 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x4096 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S256x1 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S256x4096 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

class Facts₀ : Prop where
  shapeCasts_S288_S1x288 : S288.ShapeCasts S1x288
  inb_S2048x288_S2048x288_0_0 : ∀ a, (![0, 0] : Fin 2 → Nat) a + S2048x288.size a ≤ S2048x288.size a
  h_S2048x288 : 0 < S2048x288.numel
  shapeCasts_S2048x288_S2048x288 : S2048x288.ShapeCasts S2048x288
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S288x512_S288x512_0_0 : ∀ a, (![0, 0] : Fin 2 → Nat) a + S288x512.size a ≤ S288x512.size a
  h_S288x512 : 0 < S288x512.numel
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S2048x288 : S1x288.Broadcasts S2048x288
  shapeCasts_S32_S1x32 : S32.ShapeCasts S1x32
  shapeCasts_S1_S1x1 : S1.ShapeCasts S1x1
  shapeCasts_S144_S1x144 : S144.ShapeCasts S1x144
  shapeCasts_S4096_S1x4096 : S4096.ShapeCasts S1x4096
  inb_S256x1_S256x1_0_0 : ∀ a, (![0, 0] : Fin 2 → Nat) a + S256x1.size a ≤ S256x1.size a
  h_S256x1 : 0 < S256x1.numel
  inb_S256x288_S256x288_0_0 : ∀ a, (![0, 0] : Fin 2 → Nat) a + S256x288.size a ≤ S256x288.size a
  h_S256x288 : 0 < S256x288.numel
  shapeCasts_S256x288_S256x288 : S256x288.ShapeCasts S256x288
  concatenates_S256x288_S256x288_S256x576_d1 : Shape.Concatenates [S256x288, S256x288] S256x576 1
  broadcasts_S256x1_S256x576 : S256x1.Broadcasts S256x576
  inb_S32x576_S32x576_0_0 : ∀ a, (![0, 0] : Fin 2 → Nat) a + S32x576.size a ≤ S32x576.size a
  h_S32x576 : 0 < S32x576.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x32_S32x32_0_0 : ∀ a, (![0, 0] : Fin 2 → Nat) a + S32x32.size a ≤ S32x32.size a
  h_S32x32 : 0 < S32x32.numel
  reduces_S256x32_S256 : S256x32.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S1x576_S1x576_0_0 : ∀ a, (![0, 0] : Fin 2 → Nat) a + S1x576.size a ≤ S1x576.size a
  h_S1x576 : 0 < S1x576.numel
  broadcasts_S1x576_S256x576 : S1x576.Broadcasts S256x576
  reduces_S256x576_S256 : S256x576.Reduces [1] S256
  inb_S144x576_S144x576_0_0 : ∀ a, (![0, 0] : Fin 2 → Nat) a + S144x576.size a ≤ S144x576.size a
  h_S144x576 : 0 < S144x576.numel
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S256x144 : S1x144.Broadcasts S256x144
  inb_S4096x144_S4096x144_0_0 : ∀ a, (![0, 0] : Fin 2 → Nat) a + S4096x144.size a ≤ S4096x144.size a
  h_S4096x144 : 0 < S4096x144.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x576_S4096x576_0_0 : ∀ a, (![0, 0] : Fin 2 → Nat) a + S4096x576.size a ≤ S4096x576.size a
  h_S4096x576 : 0 < S4096x576.numel
  inb_S256x4096_S256x4096_0_0 : ∀ a, (![0, 0] : Fin 2 → Nat) a + S256x4096.size a ≤ S256x4096.size a
  h_S256x4096 : 0 < S256x4096.numel
  shapeCasts_S2048x4096_S2048x64x64 : S2048x4096.ShapeCasts S2048x64x64
  dot_S2048x512_S288x512_S2048x288_1_1_0_0_n_n_wf : DotDims.WF S2048x512 S288x512 S2048x288 [1] [1] [0] [0] [] []
  dot_S256x576_S32x576_S256x32_1_1_0_0_n_n_wf : DotDims.WF S256x576 S32x576 S256x32 [1] [1] [0] [0] [] []
  dot_S256x32_S32x32_S256x32_1_1_0_0_n_n_wf : DotDims.WF S256x32 S32x32 S256x32 [1] [1] [0] [0] [] []
  dot_S256x576_S144x576_S256x144_1_1_0_0_n_n_wf : DotDims.WF S256x576 S144x576 S256x144 [1] [1] [0] [0] [] []
  dot_S256x144_S4096x144_S256x4096_1_1_0_0_n_n_wf : DotDims.WF S256x144 S4096x144 S256x4096 [1] [1] [0] [0] [] []
  dot_S256x576_S4096x576_S256x4096_1_1_0_0_n_n_wf : DotDims.WF S256x576 S4096x576 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x40960.size a
  hwx0_0 : ∀ i : grid0.Coords, EltTy.bits .f32 = 32 ∨ (Rect.block (s := S2048x40960) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x40960.size a
  hwx0_1 : ∀ i : grid0.Coords, EltTy.bits .f32 = 32 ∨ (Rect.block (s := S2048x40960) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S288x512.size a ≤ S288x40960.size a
  hwx0_2 : ∀ i : grid0.Coords, EltTy.bits .f32 = 32 ∨ (Rect.block (s := S288x40960) S288x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S288x512.size a ≤ S288x40960.size a
  hwx0_3 : ∀ i : grid0.Coords, EltTy.bits .f32 = 32 ∨ (Rect.block (s := S288x40960) S288x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x288.size a ≤ S1x288.size a
  hwx0_4 : ∀ i : grid0.Coords, EltTy.bits .f32 = 32 ∨ (Rect.block (s := S1x288) S1x288.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x288.size a ≤ S1x288.size a
  hwx0_5 : ∀ i : grid0.Coords, EltTy.bits .f32 = 32 ∨ (Rect.block (s := S1x288) S1x288.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x288.size a ≤ S2048x288.size a
  hwx0_6 : ∀ i : grid0.Coords, EltTy.bits .f32 = 32 ∨ (Rect.block (s := S2048x288) S2048x288.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x288.size a ≤ S2048x288.size a
  hwx0_7 : ∀ i : grid0.Coords, EltTy.bits .f32 = 32 ∨ (Rect.block (s := S2048x288) S2048x288.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x288.size a ≤ S2048x288.size a
  hwx1_0 : ∀ i : grid1.Coords, EltTy.bits .f32 = 32 ∨ (Rect.block (s := S2048x288) S256x288.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x288.size a ≤ S2048x288.size a
  hwx1_1 : ∀ i : grid1.Coords, EltTy.bits .f32 = 32 ∨ (Rect.block (s := S2048x288) S256x288.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S2048x1.size a
  hwx1_2 : ∀ i : grid1.Coords, EltTy.bits .f32 = 32 ∨ (Rect.block (s := S2048x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x576.size a ≤ S32x576.size a
  hwx1_3 : ∀ i : grid1.Coords, EltTy.bits .f32 = 32 ∨ (Rect.block (s := S32x576) S32x576.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S144x576.size a ≤ S144x576.size a
  hwx1_9 : ∀ i : grid1.Coords, EltTy.bits .f32 = 32 ∨ (Rect.block (s := S144x576) S144x576.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x144.size a ≤ S1x144.size a
  hwx1_10 : ∀ i : grid1.Coords, EltTy.bits .f32 = 32 ∨ (Rect.block (s := S1x144) S1x144.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4096x144.size a ≤ S4096x144.size a
  hwx1_11 : ∀ i : grid1.Coords, EltTy.bits .f32 = 32 ∨ (Rect.block (s := S4096x144) S4096x144.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x4096.size a ≤ S1x4096.size a
  hwx1_12 : ∀ i : grid1.Coords, EltTy.bits .f32 = 32 ∨ (Rect.block (s := S1x4096) S1x4096.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x576.size a ≤ S1x576.size a
  hwx1_13 : ∀ i : grid1.Coords, EltTy.bits .f32 = 32 ∨ (Rect.block (s := S1x576) S1x576.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x1.size a ≤ S1x1.size a
  hwx1_14 : ∀ i : grid1.Coords, EltTy.bits .f32 = 32 ∨ (Rect.block (s := S1x1) S1x1.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S4096x576.size a ≤ S4096x576.size a
  hwx1_15 : ∀ i : grid1.Coords, EltTy.bits .f32 = 32 ∨ (Rect.block (s := S4096x576) S4096x576.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x4096.size a ≤ S1x4096.size a
  hwx1_16 : ∀ i : grid1.Coords, EltTy.bits .f32 = 32 ∨ (Rect.block (s := S1x4096) S1x4096.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S256x1.size a ≤ S2048x1.size a
  hwx1_17 : ∀ i : grid1.Coords, EltTy.bits .f32 = 32 ∨ (Rect.block (s := S2048x1) S256x1.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S256x4096.size a ≤ S2048x4096.size a
  hwx1_18 : ∀ i : grid1.Coords, EltTy.bits .f32 = 32 ∨ (Rect.block (s := S2048x4096) S256x4096.size (cc1_transform_18 i) (hinb1_18 i)).WholeWords (EltTy.packing .f32)

variable [Facts₀]

def dot_S2048x512_S288x512_S2048x288_1_1_0_0_n_n : DotDims S2048x512 S288x512 S2048x288 where
  lhsContracting := [1]
  rhsContracting := [1]
  lhsNonContracting := [0]
  rhsNonContracting := [0]
  lhsBatch := []
  rhsBatch := []
  wf := dot_S2048x512_S288x512_S2048x288_1_1_0_0_n_n_wf
def dot_S256x576_S32x576_S256x32_1_1_0_0_n_n : DotDims S256x576 S32x576 S256x32 where
  lhsContracting := [1]
  rhsContracting := [1]
  lhsNonContracting := [0]
  rhsNonContracting := [0]
  lhsBatch := []
  rhsBatch := []
  wf := dot_S256x576_S32x576_S256x32_1_1_0_0_n_n_wf
def dot_S256x32_S32x32_S256x32_1_1_0_0_n_n : DotDims S256x32 S32x32 S256x32 where
  lhsContracting := [1]
  rhsContracting := [1]
  lhsNonContracting := [0]
  rhsNonContracting := [0]
  lhsBatch := []
  rhsBatch := []
  wf := dot_S256x32_S32x32_S256x32_1_1_0_0_n_n_wf
def dot_S256x576_S144x576_S256x144_1_1_0_0_n_n : DotDims S256x576 S144x576 S256x144 where
  lhsContracting := [1]
  rhsContracting := [1]
  lhsNonContracting := [0]
  rhsNonContracting := [0]
  lhsBatch := []
  rhsBatch := []
  wf := dot_S256x576_S144x576_S256x144_1_1_0_0_n_n_wf
def dot_S256x144_S4096x144_S256x4096_1_1_0_0_n_n : DotDims S256x144 S4096x144 S256x4096 where
  lhsContracting := [1]
  rhsContracting := [1]
  lhsNonContracting := [0]
  rhsNonContracting := [0]
  lhsBatch := []
  rhsBatch := []
  wf := dot_S256x144_S4096x144_S256x4096_1_1_0_0_n_n_wf
def dot_S256x576_S4096x576_S256x4096_1_1_0_0_n_n : DotDims S256x576 S4096x576 S256x4096 where
  lhsContracting := [1]
  rhsContracting := [1]
  lhsNonContracting := [0]
  rhsNonContracting := [0]
  lhsBatch := []
  rhsBatch := []
  wf := dot_S256x576_S4096x576_S256x4096_1_1_0_0_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S288x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S288x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x288.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x288.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S2048x288.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S2048x288.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v2_0) S256x288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S256x288.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x576.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S144x576.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v6) S1x144.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg15) S4096x144.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v7) S1x4096.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg17) S1x576.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v8) S1x1.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg19) S4096x576.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v9) S1x4096.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v10_0) S256x1.size cc1_transform_17 reads1_17 true false 2 stage1_17 sem1_17
    hrank1 hreads1_17 hinb1_17 nbuf1_17 (Memref.isWhole_whole _) hwx1_17 hstage1_17

abbrev win1_18 : Pipeline.Window sig grid1 :=
  Pipeline.Window.ofSpec (Memref.whole main_v10_1) S256x4096.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

class Facts : Prop extends Facts₀ where

variable [Facts]
-- ==== ReferenceIdeal.lean ====
abbrev S2048x1 : Shape := ⟨2, ![2048, 1]⟩
abbrev S2048x40960 : Shape := ⟨2, ![2048, 40960]⟩
abbrev S288x40960 : Shape := ⟨2, ![288, 40960]⟩
abbrev S288 : Shape := ⟨1, ![288]⟩
abbrev S32x576 : Shape := ⟨2, ![32, 576]⟩
abbrev S32 : Shape := ⟨1, ![32]⟩
abbrev S32x32 : Shape := ⟨2, ![32, 32]⟩
abbrev S1x32 : Shape := ⟨2, ![1, 32]⟩
abbrev S1 : Shape := ⟨1, ![1]⟩
abbrev S144x576 : Shape := ⟨2, ![144, 576]⟩
abbrev S144 : Shape := ⟨1, ![144]⟩
abbrev S4096x144 : Shape := ⟨2, ![4096, 144]⟩
abbrev S4096 : Shape := ⟨1, ![4096]⟩
abbrev S1x576 : Shape := ⟨2, ![1, 576]⟩
abbrev S4096x576 : Shape := ⟨2, ![4096, 576]⟩
abbrev S40960x288 : Shape := ⟨2, ![40960, 288]⟩
abbrev S2048x288 : Shape := ⟨2, ![2048, 288]⟩
abbrev S1x288 : Shape := ⟨2, ![1, 288]⟩
abbrev S2048x576 : Shape := ⟨2, ![2048, 576]⟩
abbrev S_ : Shape := ⟨0, ![]⟩
abbrev S576x32 : Shape := ⟨2, ![576, 32]⟩
abbrev S2048x32 : Shape := ⟨2, ![2048, 32]⟩
abbrev S32x1 : Shape := ⟨2, ![32, 1]⟩
abbrev S1x1 : Shape := ⟨2, ![1, 1]⟩
abbrev S576x1 : Shape := ⟨2, ![576, 1]⟩
abbrev S576x144 : Shape := ⟨2, ![576, 144]⟩
abbrev S2048x144 : Shape := ⟨2, ![2048, 144]⟩
abbrev S1x144 : Shape := ⟨2, ![1, 144]⟩
abbrev S144x4096 : Shape := ⟨2, ![144, 4096]⟩
abbrev S2048x4096 : Shape := ⟨2, ![2048, 4096]⟩
abbrev S1x4096 : Shape := ⟨2, ![1, 4096]⟩
abbrev S576x4096 : Shape := ⟨2, ![576, 4096]⟩
abbrev S2048x64x64 : Shape := ⟨3, ![2048, 64, 64]⟩

abbrev nBuf : Space → Nat
  | .hbm => 91
  | .vmem => 0
  | .smem => 0
  | _ => 0

abbrev bufTy : (tb : Table) → Fin (tcTables nBuf tb) → BufTy
  | .hbm, ⟨0, _⟩ => ⟨S2048x1, .f32⟩
  | .hbm, ⟨1, _⟩ => ⟨S2048x40960, .f32⟩
  | .hbm, ⟨2, _⟩ => ⟨S2048x40960, .f32⟩
  | .hbm, ⟨3, _⟩ => ⟨S288x40960, .f32⟩
  | .hbm, ⟨4, _⟩ => ⟨S288, .f32⟩
  | .hbm, ⟨5, _⟩ => ⟨S288x40960, .f32⟩
  | .hbm, ⟨6, _⟩ => ⟨S288, .f32⟩
  | .hbm, ⟨7, _⟩ => ⟨S32x576, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S144x576, .f32⟩
  | .hbm, ⟨14, _⟩ => ⟨S144, .f32⟩
  | .hbm, ⟨15, _⟩ => ⟨S4096x144, .f32⟩
  | .hbm, ⟨16, _⟩ => ⟨S4096, .f32⟩
  | .hbm, ⟨17, _⟩ => ⟨S1x576, .f32⟩
  | .hbm, ⟨18, _⟩ => ⟨S1, .f32⟩
  | .hbm, ⟨19, _⟩ => ⟨S4096x576, .f32⟩
  | .hbm, ⟨20, _⟩ => ⟨S4096, .f32⟩
  | .hbm, ⟨21, _⟩ => ⟨S40960x288, .f32⟩
  | .hbm, ⟨22, _⟩ => ⟨S2048x288, .f32⟩
  | .hbm, ⟨23, _⟩ => ⟨S1x288, .f32⟩
  | .hbm, ⟨24, _⟩ => ⟨S2048x288, .f32⟩
  | .hbm, ⟨25, _⟩ => ⟨S2048x288, .f32⟩
  | .hbm, ⟨26, _⟩ => ⟨S40960x288, .f32⟩
  | .hbm, ⟨27, _⟩ => ⟨S2048x288, .f32⟩
  | .hbm, ⟨28, _⟩ => ⟨S1x288, .f32⟩
  | .hbm, ⟨29, _⟩ => ⟨S2048x288, .f32⟩
  | .hbm, ⟨30, _⟩ => ⟨S2048x288, .f32⟩
  | .hbm, ⟨31, _⟩ => ⟨S2048x576, .f32⟩
  | .hbm, ⟨32, _⟩ => ⟨S2048x576, .f32⟩
  | .hbm, ⟨33, _⟩ => ⟨S2048x576, .f32⟩
  | .hbm, ⟨34, _⟩ => ⟨S2048x576, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x576, .f32⟩
  | .hbm, ⟨39, _⟩ => ⟨S2048x576, .f32⟩
  | .hbm, ⟨40, _⟩ => ⟨S2048x576, .f32⟩
  | .hbm, ⟨41, _⟩ => ⟨S_, .f32⟩
  | .hbm, ⟨42, _⟩ => ⟨S2048x576, .f32⟩
  | .hbm, ⟨43, _⟩ => ⟨S2048x576, .f32⟩
  | .hbm, ⟨44, _⟩ => ⟨S576x32, .f32⟩
  | .hbm, ⟨45, _⟩ => ⟨S2048x32, .f32⟩
  | .hbm, ⟨46, _⟩ => ⟨S1x32, .f32⟩
  | .hbm, ⟨47, _⟩ => ⟨S2048x32, .f32⟩
  | .hbm, ⟨48, _⟩ => ⟨S2048x32, .f32⟩
  | .hbm, ⟨49, _⟩ => ⟨S_, .f32⟩
  | .hbm, ⟨50, _⟩ => ⟨S2048x32, .f32⟩
  | .hbm, ⟨51, _⟩ => ⟨S2048x32, .f32⟩
  | .hbm, ⟨52, _⟩ => ⟨S32x32, .f32⟩
  | .hbm, ⟨53, _⟩ => ⟨S2048x32, .f32⟩
  | .hbm, ⟨54, _⟩ => ⟨S1x32, .f32⟩
  | .hbm, ⟨55, _⟩ => ⟨S2048x32, .f32⟩
  | .hbm, ⟨56, _⟩ => ⟨S2048x32, .f32⟩
  | .hbm, ⟨57, _⟩ => ⟨S_, .f32⟩
  | .hbm, ⟨58, _⟩ => ⟨S2048x32, .f32⟩
  | .hbm, ⟨59, _⟩ => ⟨S2048x32, .f32⟩
  | .hbm, ⟨60, _⟩ => ⟨S32x1, .f32⟩
  | .hbm, ⟨61, _⟩ => ⟨S2048x1, .f32⟩
  | .hbm, ⟨62, _⟩ => ⟨S1x1, .f32⟩
  | .hbm, ⟨63, _⟩ => ⟨S2048x1, .f32⟩
  | .hbm, ⟨64, _⟩ => ⟨S2048x1, .f32⟩
  | .hbm, ⟨65, _⟩ => ⟨S576x1, .f32⟩
  | .hbm, ⟨66, _⟩ => ⟨S2048x1, .f32⟩
  | .hbm, ⟨67, _⟩ => ⟨S1x1, .f32⟩
  | .hbm, ⟨68, _⟩ => ⟨S2048x1, .f32⟩
  | .hbm, ⟨69, _⟩ => ⟨S2048x1, .f32⟩
  | .hbm, ⟨70, _⟩ => ⟨S2048x1, .f32⟩
  | .hbm, ⟨71, _⟩ => ⟨S576x144, .f32⟩
  | .hbm, ⟨72, _⟩ => ⟨S2048x144, .f32⟩
  | .hbm, ⟨73, _⟩ => ⟨S1x144, .f32⟩
  | .hbm, ⟨74, _⟩ => ⟨S2048x144, .f32⟩
  | .hbm, ⟨75, _⟩ => ⟨S2048x144, .f32⟩
  | .hbm, ⟨76, _⟩ => ⟨S_, .f32⟩
  | .hbm, ⟨77, _⟩ => ⟨S2048x144, .f32⟩
  | .hbm, ⟨78, _⟩ => ⟨S2048x144, .f32⟩
  | .hbm, ⟨79, _⟩ => ⟨S144x4096, .f32⟩
  | .hbm, ⟨80, _⟩ => ⟨S2048x4096, .f32⟩
  | .hbm, ⟨81, _⟩ => ⟨S1x4096, .f32⟩
  | .hbm, ⟨82, _⟩ => ⟨S2048x4096, .f32⟩
  | .hbm, ⟨83, _⟩ => ⟨S2048x4096, .f32⟩
  | .hbm, ⟨84, _⟩ => ⟨S576x4096, .f32⟩
  | .hbm, ⟨85, _⟩ => ⟨S2048x4096, .f32⟩
  | .hbm, ⟨86, _⟩ => ⟨S1x4096, .f32⟩
  | .hbm, ⟨87, _⟩ => ⟨S2048x4096, .f32⟩
  | .hbm, ⟨88, _⟩ => ⟨S2048x4096, .f32⟩
  | .hbm, ⟨89, _⟩ => ⟨S2048x4096, .f32⟩
  | .hbm, ⟨90, _⟩ => ⟨S2048x64x64, .f32⟩
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_cst : Ref sig .tc := ⟨.hbm, 49, rfl⟩
abbrev main_call1_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call2_cst : Ref sig .tc := ⟨.hbm, 57, rfl⟩
abbrev main_call2_v0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call3_cst : Ref sig .tc := ⟨.hbm, 76, rfl⟩
abbrev main_call3_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  transposes_S288x40960_S40960x288_1_0 : S288x40960.Transposes [1, 0] S40960x288
  bcast_S288_S1x288_1 : S288.BroadcastsInDim S1x288 (![1] : Fin 1 → Fin S1x288.rank)
  bcast_S1x288_S2048x288_0_1 : S1x288.BroadcastsInDim S2048x288 (![0, 1] : Fin 2 → Fin S2048x288.rank)
  concatenates_S2048x288_S2048x288_S2048x576_d1 : Shape.Concatenates [S2048x288, S2048x288] S2048x576 1
  bcast_S2048x1_S2048x576_0_1 : S2048x1.BroadcastsInDim S2048x576 (![0, 1] : Fin 2 → Fin S2048x576.rank)
  bcast_S_S2048x1 : S_.BroadcastsInDim S2048x1 (![] : Fin 0 → Fin S2048x1.rank)
  bcast_S_S2048x576 : S_.BroadcastsInDim S2048x576 (![] : Fin 0 → Fin S2048x576.rank)
  transposes_S32x576_S576x32_1_0 : S32x576.Transposes [1, 0] S576x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  transposes_S1x576_S576x1_1_0 : S1x576.Transposes [1, 0] S576x1
  transposes_S144x576_S576x144_1_0 : S144x576.Transposes [1, 0] S576x144
  bcast_S144_S1x144_1 : S144.BroadcastsInDim S1x144 (![1] : Fin 1 → Fin S1x144.rank)
  bcast_S1x144_S2048x144_0_1 : S1x144.BroadcastsInDim S2048x144 (![0, 1] : Fin 2 → Fin S2048x144.rank)
  bcast_S_S2048x144 : S_.BroadcastsInDim S2048x144 (![] : Fin 0 → Fin S2048x144.rank)
  transposes_S4096x144_S144x4096_1_0 : S4096x144.Transposes [1, 0] S144x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  transposes_S4096x576_S576x4096_1_0 : S4096x576.Transposes [1, 0] S576x4096
  shapeCasts_S2048x4096_S2048x64x64 : S2048x4096.ShapeCasts S2048x64x64
  dot_S2048x40960_S40960x288_S2048x288_1_0_0_1_n_n_wf : DotDims.WF S2048x40960 S40960x288 S2048x288 [1] [0] [0] [1] [] []
  dot_S2048x576_S576x32_S2048x32_1_0_0_1_n_n_wf : DotDims.WF S2048x576 S576x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []
  dot_S2048x576_S576x1_S2048x1_1_0_0_1_n_n_wf : DotDims.WF S2048x576 S576x1 S2048x1 [1] [0] [0] [1] [] []
  dot_S2048x576_S576x144_S2048x144_1_0_0_1_n_n_wf : DotDims.WF S2048x576 S576x144 S2048x144 [1] [0] [0] [1] [] []
  dot_S2048x144_S144x4096_S2048x4096_1_0_0_1_n_n_wf : DotDims.WF S2048x144 S144x4096 S2048x4096 [1] [0] [0] [1] [] []
  dot_S2048x576_S576x4096_S2048x4096_1_0_0_1_n_n_wf : DotDims.WF S2048x576 S576x4096 S2048x4096 [1] [0] [0] [1] [] []

variable [Facts₀]

def dot_S2048x40960_S40960x288_S2048x288_1_0_0_1_n_n : DotDims S2048x40960 S40960x288 S2048x288 where
  lhsContracting := [1]
  rhsContracting := [0]
  lhsNonContracting := [0]
  rhsNonContracting := [1]
  lhsBatch := []
  rhsBatch := []
  wf := dot_S2048x40960_S40960x288_S2048x288_1_0_0_1_n_n_wf
def dot_S2048x576_S576x32_S2048x32_1_0_0_1_n_n : DotDims S2048x576 S576x32 S2048x32 where
  lhsContracting := [1]
  rhsContracting := [0]
  lhsNonContracting := [0]
  rhsNonContracting := [1]
  lhsBatch := []
  rhsBatch := []
  wf := dot_S2048x576_S576x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf
def dot_S2048x576_S576x1_S2048x1_1_0_0_1_n_n : DotDims S2048x576 S576x1 S2048x1 where
  lhsContracting := [1]
  rhsContracting := [0]
  lhsNonContracting := [0]
  rhsNonContracting := [1]
  lhsBatch := []
  rhsBatch := []
  wf := dot_S2048x576_S576x1_S2048x1_1_0_0_1_n_n_wf
def dot_S2048x576_S576x144_S2048x144_1_0_0_1_n_n : DotDims S2048x576 S576x144 S2048x144 where
  lhsContracting := [1]
  rhsContracting := [0]
  lhsNonContracting := [0]
  rhsNonContracting := [1]
  lhsBatch := []
  rhsBatch := []
  wf := dot_S2048x576_S576x144_S2048x144_1_0_0_1_n_n_wf
def dot_S2048x144_S144x4096_S2048x4096_1_0_0_1_n_n : DotDims S2048x144 S144x4096 S2048x4096 where
  lhsContracting := [1]
  rhsContracting := [0]
  lhsNonContracting := [0]
  rhsNonContracting := [1]
  lhsBatch := []
  rhsBatch := []
  wf := dot_S2048x144_S144x4096_S2048x4096_1_0_0_1_n_n_wf
def dot_S2048x576_S576x4096_S2048x4096_1_0_0_1_n_n : DotDims S2048x576 S576x4096 S2048x4096 where
  lhsContracting := [1]
  rhsContracting := [0]
  lhsNonContracting := [0]
  rhsNonContracting := [1]
  lhsBatch := []
  rhsBatch := []
  wf := dot_S2048x576_S576x4096_S2048x4096_1_0_0_1_n_n_wf

class Facts : Prop extends Facts₀ where

variable [Facts]
-- ==== Proof.K.R0Base.lean ====
import proofs.«171732_j7748121002128_2_alg».proof.Proof.Gen.Kernel.Launch
import proofs.«171732_j7748121002128_2_alg».proof.Proof.Gen.Kernel.Skeleton
import proofs.«171732_j7748121002128_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the accumulating kernel, 80 grid points): what its three runs and its proof data share -/

section Blocks
-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two branch conditions, decided over the grid -/

/-- The condition of the body's first branch (zero the accumulators), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second branch (add the bias into the outputs). -/
abbrev cond0_1 (i : grid0.Coords) : Prop := k0_cond2 i = 1#1
/-- It holds at the last point only. -/
theorem hcond0_1 : ∀ t : Fin cfg0.N, cond0_1 (grid0.coords t) ↔ t.val = 79 :=
  (by decide +kernel : ∀ t : Fin grid0.N, cond0_1 (grid0.coords t) ↔ t.val = 79)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Where the second branch is not taken, output 6 is idle: nothing is stored into it, -/
theorem idleAt0_6 : ∀ t : Fin cfg0.N, ¬cond0_1 (grid0.coords t) → cfg0.idle 6 (grid0.coords t) = true := by decide +kernel
/-- and its block is not written back. -/
theorem noFlush0_6 : ∀ t : Fin cfg0.N, ¬cond0_1 (grid0.coords t) → (cfg0.win 6).flush t = false := by decide +kernel
/-- Where it is taken, output 6 is live. -/
theorem liveAt0_6 : ∀ t : Fin cfg0.N, cond0_1 (grid0.coords t) → cfg0.idle 6 (grid0.coords t) = false := by decide +kernel
/-- Where the second branch is not taken, output 7 is idle: nothing is stored into it, -/
theorem idleAt0_7 : ∀ t : Fin cfg0.N, ¬cond0_1 (grid0.coords t) → cfg0.idle 7 (grid0.coords t) = true := by decide +kernel
/-- and its block is not written back. -/
theorem noFlush0_7 : ∀ t : Fin cfg0.N, ¬cond0_1 (grid0.coords t) → (cfg0.win 7).flush t = false := by decide +kernel
/-- Where it is taken, output 7 is live. -/
theorem liveAt0_7 : ∀ t : Fin cfg0.N, cond0_1 (grid0.coords t) → cfg0.idle 7 (grid0.coords t) = false := by decide +kernel

/-! ## The memrefs the body is called with -/

/-- One staging buffer of each output window, through which its contents are stated. -/
abbrev VO0_6 : View sig .tc .vmem S2048x288 .f32 := (Memref.whole cc0_stg6_0 : Memref sig .tc .vmem S2048x288 .f32).view
abbrev VO0_7 : View sig .tc .vmem S2048x288 .f32 := (Memref.whole cc0_stg7_0 : Memref sig .tc .vmem S2048x288 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S288x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S288x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x288 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x288 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x288 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x288 .f32 := win0_7.stage (cfg0.slots t 7)
abbrev hs0_7 (t : Fin cfg0.N) : (ms0_7 t).IsWhole := hstage0_7 ((cfg0.slots t 7).cast nbuf0_7)
/-- The two accumulators: whole scoped buffers of the kernel's own, passed beside the windows and carried from point to point. -/
abbrev scM0_0 : Memref sig .tc .vmem S2048x288 .f32 := Memref.whole cc0_scratch0
abbrev scM0_1 : Memref sig .tc .vmem S2048x288 .f32 := Memref.whole cc0_scratch1
abbrev VS0_0 : View sig .tc .vmem S2048x288 .f32 := scM0_0.view
abbrev VS0_1 : View sig .tc .vmem S2048x288 .f32 := scM0_1.view

/-- The region's invariant with the two accumulators as memrefs owned at some contents; the other scoped buffers stay
    unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
            ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

end Cert.Kernel.R0

end
-- ==== Proof.K.R0RunA.lean ====
import proofs.«171732_j7748121002128_2_alg».proof.Proof.K.R0Base

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in each output's staging memref and in each accumulator, as pieces (last first),
    at the first point (the accumulators are zeroed, then the two products are added; no bias step): the inputs' staging memrefs at their contents, the two outputs' at contents handed back untouched, the accumulators at anything;
    with the proof that the body then runs to the continuation holding the inputs' as they were and each stored buffer
    with its pieces written. The pieces are the witness the symbolic run finds. -/
noncomputable def kernelRun0_A (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) :
    Σ' (L6 : List (View.Piece (Elt F) S2048x288 .f32)) (L7 : List (View.Piece (Elt F) S2048x288 .f32)) (LS0 : List (View.Piece (Elt F) S2048x288 .f32)), { LS1 : List (View.Piece (Elt F) S2048x288 .f32) //
      ∀ (xi6 : Vec F S2048x288 .f32) (xi7 : Vec F S2048x288 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare xi6
            ∗ owns (c : Thread nD τ) arg8 fullShare xi7
            ∗ (∃ d, owns (c : Thread nD τ) arg9 fullShare d)
            ∗ (∃ d, owns (c : Thread nD τ) arg10 fullShare d)
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare xi6
              ∗ owns (c : Thread nD τ) arg8 fullShare xi7
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)) -∗ K ⟨⟩))
          ⊢ wp frame (wpE (defs₀ (F := F)) Variants.none c none) E (cc0__accum_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc0__accum_kernel_eq_skeleton]; unfold cc0__accum_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.R0

end
-- ==== Proof.K.R0RunB.lean ====
import proofs.«171732_j7748121002128_2_alg».proof.Proof.K.R0Base

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in each output's staging memref and in each accumulator, as pieces (last first),
    at a middle point (neither branch taken: the two products are added to what the point before left): the inputs' staging memrefs at their contents, the two outputs' at contents handed back untouched, the accumulators at what the point before left;
    with the proof that the body then runs to the continuation holding the inputs' as they were and each stored buffer
    with its pieces written. The pieces are the witness the symbolic run finds. -/
noncomputable def kernelRun0_B (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    Σ' (L6 : List (View.Piece (Elt F) S2048x288 .f32)) (L7 : List (View.Piece (Elt F) S2048x288 .f32)) (LS0 : List (View.Piece (Elt F) S2048x288 .f32)), { LS1 : List (View.Piece (Elt F) S2048x288 .f32) //
      ∀ (xi6 : Vec F S2048x288 .f32) (xi7 : Vec F S2048x288 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare xi6
            ∗ owns (c : Thread nD τ) arg8 fullShare xi7
            ∗ owns (c : Thread nD τ) arg9 fullShare xs0
            ∗ owns (c : Thread nD τ) arg10 fullShare xs1
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare xi6
              ∗ owns (c : Thread nD τ) arg8 fullShare xi7
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)) -∗ K ⟨⟩))
          ⊢ wp frame (wpE (defs₀ (F := F)) Variants.none c none) E (cc0__accum_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc0__accum_kernel_eq_skeleton]; unfold cc0__accum_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.R0

end
-- ==== Proof.K.R0RunC.lean ====
import proofs.«171732_j7748121002128_2_alg».proof.Proof.K.R0Base

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in each output's staging memref and in each accumulator, as pieces (last first),
    at the last point (the two products are added, then each output is stored as its accumulator plus its bias row): the inputs' staging memrefs at their contents, the outputs' at anything, the accumulators at what the point before left;
    with the proof that the body then runs to the continuation holding the inputs' as they were and each stored buffer
    with its pieces written. The pieces are the witness the symbolic run finds. -/
noncomputable def kernelRun0_C (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    Σ' (L6 : List (View.Piece (Elt F) S2048x288 .f32)) (L7 : List (View.Piece (Elt F) S2048x288 .f32)) (LS0 : List (View.Piece (Elt F) S2048x288 .f32)), { LS1 : List (View.Piece (Elt F) S2048x288 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f L7)
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)) -∗ K ⟨⟩))
          ⊢ wp frame (wpE (defs₀ (F := F)) Variants.none c none) E (cc0__accum_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__accum_kernel_eq_skeleton]; unfold cc0__accum_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

end Cert.Kernel.R0

end
-- ==== Proof.K.R0.lean ====
import proofs.«171732_j7748121002128_2_alg».proof.Proof.K.R0RunA
import proofs.«171732_j7748121002128_2_alg».proof.Proof.K.R0RunB
import proofs.«171732_j7748121002128_2_alg».proof.Proof.K.R0RunC

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its outputs hold point by point, its proof data and its body obligation -/

/-- At the first point nothing is stored into output 6 (the window is idle there and not written back): a placeholder
    that nothing consults. -/
def out0_A_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) : Vec F S2048x288 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4 x5).1)

/-- At the first point nothing is stored into output 7 (the window is idle there and not written back): a placeholder
    that nothing consults. -/
def out0_A_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) : Vec F S2048x288 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4 x5).2.1)

/-- At the first point the body's stores into accumulator 0 are of the whole buffer, so its pieces cover it. -/
theorem scover0_A_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (y : S2048x288.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5).2.2.1 S2048x288.size (by sl_kernel_rfl) y

/-- What the body leaves in accumulator 0 at the first point: its pieces read back. -/
def sout0_A_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) : Vec F S2048x288 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4 x5).2.2.1)

/-- At the first point the body's stores into accumulator 1 are of the whole buffer, so its pieces cover it. -/
theorem scover0_A_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (y : S2048x288.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5).2.2.2.1 S2048x288.size (by sl_kernel_rfl) y

/-- What the body leaves in accumulator 1 at the first point: its pieces read back. -/
def sout0_A_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) : Vec F S2048x288 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4 x5).2.2.2.1)

/-- At a middle point nothing is stored into output 6 (the window is idle there and not written back): a placeholder
    that nothing consults. -/
def out0_B_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).1)

/-- At a middle point nothing is stored into output 7 (the window is idle there and not written back): a placeholder
    that nothing consults. -/
def out0_B_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.1)

/-- At a middle point the body's stores into accumulator 0 are of the whole buffer, so its pieces cover it. -/
theorem scover0_B_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1 S2048x288.size (by sl_kernel_rfl) y

/-- What the body leaves in accumulator 0 at a middle point: its pieces read back. -/
def sout0_B_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- At a middle point the body's stores into accumulator 1 are of the whole buffer, so its pieces cover it. -/
theorem scover0_B_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S2048x288.size (by sl_kernel_rfl) y

/-- What the body leaves in accumulator 1 at a middle point: its pieces read back. -/
def sout0_B_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-- At the last point the body's one store into output 6 is of the whole block, so its pieces cover it. -/
theorem cover0_C_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1 S2048x288.size (by sl_kernel_rfl) y

/-- What the body leaves in output 6's staging buffer at the last point: its pieces read back. -/
def out0_C_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1)

/-- At the last point the body's one store into output 7 is of the whole block, so its pieces cover it. -/
theorem cover0_C_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1 S2048x288.size (by sl_kernel_rfl) y

/-- What the body leaves in output 7's staging buffer at the last point: its pieces read back. -/
def out0_C_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1)

/-- At the last point the body's stores into accumulator 0 are of the whole buffer, so its pieces cover it. -/
theorem scover0_C_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S2048x288.size (by sl_kernel_rfl) y

/-- What the body leaves in accumulator 0 at the last point: its pieces read back. -/
def sout0_C_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- At the last point the body's stores into accumulator 1 are of the whole buffer, so its pieces cover it. -/
theorem scover0_C_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S2048x288.size (by sl_kernel_rfl) y

/-- What the body leaves in accumulator 1 at the last point: its pieces read back. -/
def sout0_C_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

section Data
-- the TensorCore's buffer contents when the region is entered
variable (V : (c : Dev nD) → (b : Ref sig .tc) → Buf (Elt F) ((c : Thread nD τ).loc b))

/-! ## What the outputs and the accumulators hold after each point -/

/-- THE ACCUMULATION. What the two outputs' staging buffers and the two accumulators hold after the body at position `n`
    (outputs 6, 7, then accumulators 0, 1): the first point's run from anything, every later point's run over what the
    point before left in the accumulators; the last point's is the run that also stores the outputs. -/
def outsAt0 (c : Dev nD) : (n : ℕ) → n < cfg0.N → Vec F S2048x288 .f32 × Vec F S2048x288 .f32 × Vec F S2048x288 .f32 × Vec F S2048x288 .f32
  | 0, hn =>
      (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 79 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) (hc0 : cond0_0 (grid0.coords t)) (hc1 : ¬cond0_1 (grid0.coords t)) :
    outsAt0 V c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : t.val ≠ 0) (h1 : t.val ≠ 79) (hc0 : ¬cond0_0 (grid0.coords t)) (hc1 : ¬cond0_1 (grid0.coords t)) :
    outsAt0 V c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : t.val ≠ 0) (h1 : t.val = 79) (hc0 : ¬cond0_0 (grid0.coords t)) (hc1 : cond0_1 (grid0.coords t)) :
    outsAt0 V c t.val t.isLt =
      (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: before the first point what the launch hands over (every scoped buffer
    that is no staging buffer at anything); afterwards the two accumulators at what the point before left in them, the
    other such buffers unopened, and the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.1 ∗ owns (c : Thread nD τ) scM0_1 fullShare (outsAt0 V c n hn).2.2.2)
        ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`). -/
theorem PhiS_succ (c : Dev nD) (n : ℕ) (hn : n < cfg0.N) :
    PhiS V c (n + 1) hn = iprop(iprop(iprop(owns (c : Thread nD τ) scM0_0 fullShare (outsAt0 V c n hn).2.2.1 ∗ owns (c : Thread nD τ) scM0_1 fullShare (outsAt0 V c n hn).2.2.2)
        ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first. -/
theorem PhiS_pos (c : Dev nD) (n : ℕ) (h : n ≤ cfg0.N) (hz : n ≠ 0) :
    PhiS V c n h = iprop(iprop(iprop(owns (c : Thread nD τ) scM0_0 fullShare (outsAt0 V c (n - 1) (by omega)).2.2.1 ∗ owns (c : Thread nD τ) scM0_1 fullShare (outsAt0 V c (n - 1) (by omega)).2.2.2)
        ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' memrefs hold their blocks; the point is the first, a middle one or the last, and
    that case's run applies; the invariant hands the body the two accumulators at what the point before left (at anything
    at the first point) and takes them back at this point's contents; the other scoped buffers, the generator register and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 80 := lt_of_lt_of_eq t.isLt (show cfg0.N = 80 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val = 0
  · have hc0 : cond0_0 (grid0.coords t) := (hcond0_0 t).mpr h0
    have hc1 : ¬cond0_1 (grid0.coords t) := fun h => by have h' := (hcond0_1 t).mp h; omega
    rw [Dat.leavesExact_idle (dat0 V c) 6 t (idleAt0_6 t hc1) (noFlush0_6 t hc1)]
    rw [Dat.leavesExact_idle (dat0 V c) 7 t (idleAt0_7 t hc1) (noFlush0_7 t hc1)]
    rw [outsAt0_A V c t h0 hc0 hc1]
    unfold sout0_A_0 sout0_A_1; (try dsimp only)
    rw [PhiS_castSucc V c t, PhiS_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond0_0 (grid0.coords t) := fun h => h0 ((hcond0_0 t).mp h)
    by_cases h1 : t.val = 79
    · have hc1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6 t hc1], after0_6]
      rw [show (dat0 V c).leavesExact 7 t = owns (c : Thread nD τ) (ms0_7 t) fullShare ((dat0 V c).after 7 t) from by
        unfold Dat.leavesExact; rw [liveAt0_7 t hc1], after0_7]
      rw [outsAt0_C V c t h0 h1 hc0 hc1]
      unfold out0_C_6 out0_C_7 sout0_C_0 sout0_C_1; (try dsimp only)
      rw [PhiS_castSucc V c t, PhiS_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 6 t (idleAt0_6 t hc1) (noFlush0_6 t hc1)]
      rw [Dat.leavesExact_idle (dat0 V c) 7 t (idleAt0_7 t hc1) (noFlush0_7 t hc1)]
      rw [outsAt0_B V c t h0 h1 hc0 hc1]
      unfold sout0_B_0 sout0_B_1; (try dsimp only)
      rw [PhiS_castSucc V c t, PhiS_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 80 := N_0; omega)

end Data

end Cert.Kernel.R0

end
-- ==== Proof.K.R1Base.lean ====
/-
  Region 1 (the heads kernel, 8 grid points of 256 rows): what every grid point has in common. A window's block at a
  point is its array, as the region finds it, read through the block's rectangle; an input window's staging buffer
  holds that block at every point, whether the pipeline fetched it there or kept it from the point before (the
  weights' index maps are constant, so they are fetched once).
-/
import proofs.«171732_j7748121002128_2_alg».proof.Proof.Gen.Kernel.Launch
import proofs.«171732_j7748121002128_2_alg».proof.Proof.Gen.Kernel.Skeleton
import proofs.«171732_j7748121002128_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's staging buffer holds its block at every point, fetched there or not. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's staging buffer holds its block at every point, fetched there or not. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's staging buffer holds its block at every point, fetched there or not. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14's staging buffer holds its block at every point, fetched there or not. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Input window 15's staging buffer holds its block at every point, fetched there or not. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- Input window 16's staging buffer holds its block at every point, fetched there or not. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body, and its wholeness. -/
abbrev ms1_0 (t : Fin cfg1.N) : Memref sig .tc .vmem S256x288 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x288 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x576 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S144x576 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x144 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x144 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x4096 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x576 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x1 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S4096x576 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x4096 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S256x1 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S256x4096 .f32 := win1_18.stage (cfg1.slots t 18)
abbrev hs1_18 (t : Fin cfg1.N) : (ms1_18 t).IsWhole := hstage1_18 ((cfg1.slots t 18).cast nbuf1_18)

/-- One staging buffer of each output window, through which its contents are stated (the choice does not matter). -/
abbrev VO1_17 : View sig .tc .vmem S256x1 .f32 := (Memref.whole cc1_stg17_0 : Memref sig .tc .vmem S256x1 .f32).view
abbrev VO1_18 : View sig .tc .vmem S256x4096 .f32 := (Memref.whole cc1_stg18_0 : Memref sig .tc .vmem S256x4096 .f32).view

/-- No window of region 1 is ever idle. -/
theorem liveAt1 : ∀ (w : Fin cfg1.W) (t : Fin cfg1.N), cfg1.idle w (grid1.coords t) = false := by decide +kernel

end Cert.Kernel.R1

end
-- ==== Proof.K.R1Run.lean ====
/-
  Region 1's body run once, on any whole staging memrefs: the seventeen input buffers at their contents and the two
  output buffers at anything, the body runs to its end leaving the inputs as they were and each output buffer with
  the pieces its stores wrote — the piece lists are what the symbolic run finds.
-/
import proofs.«171732_j7748121002128_2_alg».proof.Proof.K.R1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (value block `[256, 1]`, action block
    `[256, 4096]`), with the body's triple over them. -/
noncomputable def kernelRun1 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) :
    Σ' (L17 : List (View.Piece (Elt F) S256x1 .f32)), { L18 : List (View.Piece (Elt F) S256x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc1__head_kernel_eq_skeleton]; unfold cc1__head_kernel_skel
    simp only [k1_part1_eq_skeleton, k1_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexists _; iexact H18
    iexists _; iexact H19

end Cert.Kernel.R1

end
-- ==== Proof.K.R1.lean ====
/-
  Region 1's proof data and body obligation. After the body at a point, each input window's staging buffer still
  holds its block, and each output window's holds what the body's stores wrote there (a function of the point's
  seventeen input blocks); the region keeps nothing between points, so the invariant is the untouched scoped rest and
  the generator register, and nothing is owed.
-/
import proofs.«171732_j7748121002128_2_alg».proof.Proof.K.R1Run

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The value block's pieces tile it, so they cover it. -/
theorem cover1_17 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) (y : S256x1.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).1 S256x1.size (by sl_kernel_rfl) y

/-- The action block's pieces tile it, so they cover it. -/
theorem cover1_18 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) (y : S256x4096.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).2.1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).2.1 S256x4096.size (by sl_kernel_rfl) y

/-- What the body leaves in the value output's staging buffer: its pieces read back. -/
def out1_17 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) : Vec F S256x1 .f32 :=
  VO1_17.read (Elt F) (VO1_17.writes (Elt F) VO1_17.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).1)

/-- What the body leaves in the action output's staging buffer: its pieces read back. -/
def out1_18 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) : Vec F S256x4096 .f32 :=
  VO1_18.read (Elt F) (VO1_18.writes (Elt F) VO1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).2.1)

/-- The output blocks at point `t`: the body run at the point's staging memrefs and input blocks. -/
def outAt1_17 (c : Dev nD) (t : Fin cfg1.N) : Vec F S256x1 .f32 :=
  out1_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
def outAt1_18 (c : Dev nD) (t : Fin cfg1.N) : Vec F S256x4096 .f32 :=
  out1_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => outAt1_17 V c t
    | ⟨18, _⟩ => outAt1_18 V c t
    | ⟨_ + 19, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = outAt1_17 V c t := by dsimp only [dat1]
theorem after1_18 (c : Dev nD) (t : Fin cfg1.N) : (dat1 V c).after 18 t = outAt1_18 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t))

set_option maxHeartbeats 4000000 in
/-- The body at any point: the inputs' buffers hold their blocks, so the run applies; the invariant and the core's
    `owes` pass through unread; each output's buffer ends at its pieces read back, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  unfold outAt1_17 outAt1_18 out1_17 out1_18
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, ⟨%e17, H17⟩, ⟨%e18, H18⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover1_17 c _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (cover1_18 c _ _ _ _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.K.Run.lean ====
/-
  The whole program's run: five items in order (two reshapes of the accumulators' biases, the accumulation region,
  seven reshapes of the heads' biases, the heads region, the final reshape of the action array), composed over one
  thread state: every unscoped buffer of the core at the contents the items so far leave, the generator register at
  some state, nothing owed. The contents are a fold from the launch memory: a host stretch applies its operations;
  a region leaves its input arrays as it found them and each output array at what its write-backs leave. Read at the
  end, every buffer holds the last fold; an argument array is written by no item, so it holds its launch contents.
-/
import proofs.«171732_j7748121002128_2_alg».proof.Proof.K.R0
import proofs.«171732_j7748121002128_2_alg».proof.Proof.K.R1
import proofs.«171732_j7748121002128_2_alg».proof.Proof.Gen.Kernel.Regions
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (R0.dat0 (U1 m) c).arrAt w cfg0.N
theorem W2_arr (c : Dev nD) (w : Fin cfg0.W) :
    W2 m c (Proc.devRef .tc (Pipeline.arrRef spec0 w)) = (R0.dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (R0.dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (R1.dat1 (U3 m) c).arrAt w cfg1.N
theorem W4_arr (c : Dev nD) (w : Fin cfg1.W) :
    W4 m c (Proc.devRef .tc (Pipeline.arrRef spec1 w)) = (R1.dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (R1.dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the last host stretch: the end. -/
abbrev W5 : Dev nD → Valuation τ sig (Elt F) := fun c => StableHlo.after hostOps2 (W4 m c)

/-! ## A buffer no item writes keeps its launch contents -/

/-- Region 0 leaves a buffer that is no output array of its own as it found it. -/
theorem W2_keep (c : Dev nD) (b : Ref sig .tc) (hb : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((R0.dat0 (U1 m) c).arrAt_in w (hb w rfl) _).trans (R0.A_eq0 (U1 m) c w))
  · exact W2_of_ne m c b fun w e => h ⟨w, e⟩

/-- Region 1 leaves a buffer that is no output array of its own as it found it. -/
theorem W4_keep (c : Dev nD) (b : Ref sig .tc) (hb : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((R1.dat1 (U3 m) c).arrAt_in w (hb w rfl) _).trans (R1.A_eq1 (U3 m) c w))
  · exact W4_of_ne m c b fun w e => h ⟨w, e⟩

/-- A buffer that no host stretch writes and that is no region's output array ends at its launch contents. -/
theorem W5_keep (c : Dev nD) (b : Ref sig .tc) (h0 : b ∉ hostOps0_W) (h1 : b ∉ hostOps1_W) (h2 : b ∉ hostOps2_W)
    (hr0 : ∀ w, Pipeline.arrRef spec0 w = b → (cfg0.win w).isOut = false)
    (hr1 : ∀ w, Pipeline.arrRef spec1 w = b → (cfg1.win w).isOut = false) :
    W5 m c (Proc.devRef .tc b) = m ((c : Thread nD τ).loc b) :=
  (StableHlo.after_of_writes_sub hostOps2 _ hostOps2_writes h2).trans <|
    (W4_keep m c b hr1).trans <|
      (StableHlo.after_of_writes_sub hostOps1 _ hostOps1_writes h1).trans <|
        (W2_keep m c b hr0).trans <|
          (StableHlo.after_of_writes_sub hostOps0 _ hostOps0_writes h0).trans rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => R0.dat0 (U1 m) c
  | ⟨1, _⟩ => fun c => R1.dat1 (U3 m) c
abbrev 𝒱₀ : Variants := Variants.none
abbrev L₀ : GSem nD τ sig → Finset Unit := fun _ => ∅
abbrev lv₀ : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch as an item. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as items -/

set_option backward.isDefEq.respectTransparency.types false in
/-- Region 0 over the thread state: entered from every unscoped buffer at `W1`, left at `W2`. Its arrays are split
    out of the unscoped buffers and put back at the exit contents; the generator register and the scoped rest go
    into the region's invariant (the two accumulators at anything before the first point) and come back out of it
    (their contents forgotten) after the last. -/
def reg0 : Pipeline.RegionSeg (pcfgs (F := F)) adm' (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (R0.body_obligation0 (U1 m) c).loose
  hwaits := Pipeline.hwaits_of_owed_zero _ _ _ _ L₀ lv₀ 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin0 (U1 m) c)
    unfold Pipeline.ΦA
    iintro ⟨Hp, -, Hr⟩
    isplitl [Hr]; · iexact Hr
    iexact Hp
  hout c := by
    refine (R0.hout0 (U1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; it keeps nothing
    between points, so the generator register and the scoped rest pass through its invariant unchanged. -/
def reg1 : Pipeline.RegionSeg (pcfgs (F := F)) adm' (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (R1.body_obligation1 (U3 m) c).loose
  hwaits := Pipeline.hwaits_of_owed_zero _ _ _ _ L₀ lv₀ 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm' (pdats m) () defs₀ 𝒱₀ L₀ lv₀) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer of every core at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ Rst c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (W5_keep m c main_arg0 (by decide) (by decide) (by decide) (by decide) (by decide)),
    (h c _ (mem_uc main_arg1 (by decide))).trans (W5_keep m c main_arg1 (by decide) (by decide) (by decide) (by decide) (by decide)),
    (h c _ (mem_uc main_arg2 (by decide))).trans (W5_keep m c main_arg2 (by decide) (by decide) (by decide) (by decide) (by decide)),
    (h c _ (mem_uc main_arg3 (by decide))).trans (W5_keep m c main_arg3 (by decide) (by decide) (by decide) (by decide) (by decide)),
    (h c _ (mem_uc main_arg4 (by decide))).trans (W5_keep m c main_arg4 (by decide) (by decide) (by decide) (by decide) (by decide)),
    (h c _ (mem_uc main_arg5 (by decide))).trans (W5_keep m c main_arg5 (by decide) (by decide) (by decide) (by decide) (by decide)),
    (h c _ (mem_uc main_arg6 (by decide))).trans (W5_keep m c main_arg6 (by decide) (by decide) (by decide) (by decide) (by decide)),
    (h c _ (mem_uc main_arg7 (by decide))).trans (W5_keep m c main_arg7 (by decide) (by decide) (by decide) (by decide) (by decide)),
    (h c _ (mem_uc main_arg8 (by decide))).trans (W5_keep m c main_arg8 (by decide) (by decide) (by decide) (by decide) (by decide)),
    (h c _ (mem_uc main_arg9 (by decide))).trans (W5_keep m c main_arg9 (by decide) (by decide) (by decide) (by decide) (by decide)),
    (h c _ (mem_uc main_arg10 (by decide))).trans (W5_keep m c main_arg10 (by decide) (by decide) (by decide) (by decide) (by decide)),
    (h c _ (mem_uc main_arg11 (by decide))).trans (W5_keep m c main_arg11 (by decide) (by decide) (by decide) (by decide) (by decide)),
    (h c _ (mem_uc main_arg12 (by decide))).trans (W5_keep m c main_arg12 (by decide) (by decide) (by decide) (by decide) (by decide)),
    (h c _ (mem_uc main_arg13 (by decide))).trans (W5_keep m c main_arg13 (by decide) (by decide) (by decide) (by decide) (by decide)),
    (h c _ (mem_uc main_arg14 (by decide))).trans (W5_keep m c main_arg14 (by decide) (by decide) (by decide) (by decide) (by decide)),
    (h c _ (mem_uc main_arg15 (by decide))).trans (W5_keep m c main_arg15 (by decide) (by decide) (by decide) (by decide) (by decide)),
    (h c _ (mem_uc main_arg16 (by decide))).trans (W5_keep m c main_arg16 (by decide) (by decide) (by decide) (by decide) (by decide)),
    (h c _ (mem_uc main_arg17 (by decide))).trans (W5_keep m c main_arg17 (by decide) (by decide) (by decide) (by decide) (by decide)),
    (h c _ (mem_uc main_arg18 (by decide))).trans (W5_keep m c main_arg18 (by decide) (by decide) (by decide) (by decide) (by decide)),
    (h c _ (mem_uc main_arg19 (by decide))).trans (W5_keep m c main_arg19 (by decide) (by decide) (by decide) (by decide) (by decide)),
    (h c _ (mem_uc main_arg20 (by decide))).trans (W5_keep m c main_arg20 (by decide) (by decide) (by decide) (by decide) (by decide))⟩) (run_all m ρ)

end Cert.Kernel.Run

end
-- ==== Proof.KI.R0Base.lean ====
import proofs.«171732_j7748121002128_2_alg».proof.Proof.Gen.KernelIdeal.Launch
import proofs.«171732_j7748121002128_2_alg».proof.Proof.Gen.KernelIdeal.Skeleton
import proofs.«171732_j7748121002128_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the accumulating kernel, 80 grid points): what its three runs and its proof data share -/

section Blocks
-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two branch conditions, decided over the grid -/

/-- The condition of the body's first branch (zero the accumulators), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second branch (add the bias into the outputs). -/
abbrev cond0_1 (i : grid0.Coords) : Prop := k0_cond2 i = 1#1
/-- It holds at the last point only. -/
theorem hcond0_1 : ∀ t : Fin cfg0.N, cond0_1 (grid0.coords t) ↔ t.val = 79 :=
  (by decide +kernel : ∀ t : Fin grid0.N, cond0_1 (grid0.coords t) ↔ t.val = 79)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Where the second branch is not taken, output 6 is idle: nothing is stored into it, -/
theorem idleAt0_6 : ∀ t : Fin cfg0.N, ¬cond0_1 (grid0.coords t) → cfg0.idle 6 (grid0.coords t) = true := by decide +kernel
/-- and its block is not written back. -/
theorem noFlush0_6 : ∀ t : Fin cfg0.N, ¬cond0_1 (grid0.coords t) → (cfg0.win 6).flush t = false := by decide +kernel
/-- Where it is taken, output 6 is live. -/
theorem liveAt0_6 : ∀ t : Fin cfg0.N, cond0_1 (grid0.coords t) → cfg0.idle 6 (grid0.coords t) = false := by decide +kernel
/-- Where the second branch is not taken, output 7 is idle: nothing is stored into it, -/
theorem idleAt0_7 : ∀ t : Fin cfg0.N, ¬cond0_1 (grid0.coords t) → cfg0.idle 7 (grid0.coords t) = true := by decide +kernel
/-- and its block is not written back. -/
theorem noFlush0_7 : ∀ t : Fin cfg0.N, ¬cond0_1 (grid0.coords t) → (cfg0.win 7).flush t = false := by decide +kernel
/-- Where it is taken, output 7 is live. -/
theorem liveAt0_7 : ∀ t : Fin cfg0.N, cond0_1 (grid0.coords t) → cfg0.idle 7 (grid0.coords t) = false := by decide +kernel

/-! ## The memrefs the body is called with -/

/-- One staging buffer of each output window, through which its contents are stated. -/
abbrev VO0_6 : View sig .tc .vmem S2048x288 .f32 := (Memref.whole cc0_stg6_0 : Memref sig .tc .vmem S2048x288 .f32).view
abbrev VO0_7 : View sig .tc .vmem S2048x288 .f32 := (Memref.whole cc0_stg7_0 : Memref sig .tc .vmem S2048x288 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S288x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S288x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x288 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x288 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x288 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x288 .f32 := win0_7.stage (cfg0.slots t 7)
abbrev hs0_7 (t : Fin cfg0.N) : (ms0_7 t).IsWhole := hstage0_7 ((cfg0.slots t 7).cast nbuf0_7)
/-- The two accumulators: whole scoped buffers of the kernel's own, passed beside the windows and carried from point to point. -/
abbrev scM0_0 : Memref sig .tc .vmem S2048x288 .f32 := Memref.whole cc0_scratch0
abbrev scM0_1 : Memref sig .tc .vmem S2048x288 .f32 := Memref.whole cc0_scratch1
abbrev VS0_0 : View sig .tc .vmem S2048x288 .f32 := scM0_0.view
abbrev VS0_1 : View sig .tc .vmem S2048x288 .f32 := scM0_1.view

/-- The region's invariant with the two accumulators as memrefs owned at some contents; the other scoped buffers stay
    unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
            ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

end Cert.KernelIdeal.R0

end
-- ==== Proof.KI.R0RunA.lean ====
import proofs.«171732_j7748121002128_2_alg».proof.Proof.KI.R0Base

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in each output's staging memref and in each accumulator, as pieces (last first),
    at the first point (the accumulators are zeroed, then the two products are added; no bias step): the inputs' staging memrefs at their contents, the two outputs' at contents handed back untouched, the accumulators at anything;
    with the proof that the body then runs to the continuation holding the inputs' as they were and each stored buffer
    with its pieces written. The pieces are the witness the symbolic run finds. -/
noncomputable def kernelRun0_A (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) :
    Σ' (L6 : List (View.Piece (Elt F) S2048x288 .f32)) (L7 : List (View.Piece (Elt F) S2048x288 .f32)) (LS0 : List (View.Piece (Elt F) S2048x288 .f32)), { LS1 : List (View.Piece (Elt F) S2048x288 .f32) //
      ∀ (xi6 : Vec F S2048x288 .f32) (xi7 : Vec F S2048x288 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare xi6
            ∗ owns (c : Thread nD τ) arg8 fullShare xi7
            ∗ (∃ d, owns (c : Thread nD τ) arg9 fullShare d)
            ∗ (∃ d, owns (c : Thread nD τ) arg10 fullShare d)
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare xi6
              ∗ owns (c : Thread nD τ) arg8 fullShare xi7
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)) -∗ K ⟨⟩))
          ⊢ wp frame (wpE (defs₀ (F := F)) Variants.none c none) E (cc0__accum_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc0__accum_kernel_eq_skeleton]; unfold cc0__accum_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.R0

end
-- ==== Proof.KI.R0RunB.lean ====
import proofs.«171732_j7748121002128_2_alg».proof.Proof.KI.R0Base

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in each output's staging memref and in each accumulator, as pieces (last first),
    at a middle point (neither branch taken: the two products are added to what the point before left): the inputs' staging memrefs at their contents, the two outputs' at contents handed back untouched, the accumulators at what the point before left;
    with the proof that the body then runs to the continuation holding the inputs' as they were and each stored buffer
    with its pieces written. The pieces are the witness the symbolic run finds. -/
noncomputable def kernelRun0_B (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    Σ' (L6 : List (View.Piece (Elt F) S2048x288 .f32)) (L7 : List (View.Piece (Elt F) S2048x288 .f32)) (LS0 : List (View.Piece (Elt F) S2048x288 .f32)), { LS1 : List (View.Piece (Elt F) S2048x288 .f32) //
      ∀ (xi6 : Vec F S2048x288 .f32) (xi7 : Vec F S2048x288 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare xi6
            ∗ owns (c : Thread nD τ) arg8 fullShare xi7
            ∗ owns (c : Thread nD τ) arg9 fullShare xs0
            ∗ owns (c : Thread nD τ) arg10 fullShare xs1
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare xi6
              ∗ owns (c : Thread nD τ) arg8 fullShare xi7
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)) -∗ K ⟨⟩))
          ⊢ wp frame (wpE (defs₀ (F := F)) Variants.none c none) E (cc0__accum_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc0__accum_kernel_eq_skeleton]; unfold cc0__accum_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.R0

end
-- ==== Proof.KI.R0RunC.lean ====
import proofs.«171732_j7748121002128_2_alg».proof.Proof.KI.R0Base

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in each output's staging memref and in each accumulator, as pieces (last first),
    at the last point (the two products are added, then each output is stored as its accumulator plus its bias row): the inputs' staging memrefs at their contents, the outputs' at anything, the accumulators at what the point before left;
    with the proof that the body then runs to the continuation holding the inputs' as they were and each stored buffer
    with its pieces written. The pieces are the witness the symbolic run finds. -/
noncomputable def kernelRun0_C (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    Σ' (L6 : List (View.Piece (Elt F) S2048x288 .f32)) (L7 : List (View.Piece (Elt F) S2048x288 .f32)) (LS0 : List (View.Piece (Elt F) S2048x288 .f32)), { LS1 : List (View.Piece (Elt F) S2048x288 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f L7)
              ∗ (∃ f, arg9.view.loc (c : Thread nD τ) ↦[arg9.view.set]{fullShare} arg9.view.writes (Elt F) f LS0)
              ∗ (∃ f, arg10.view.loc (c : Thread nD τ) ↦[arg10.view.set]{fullShare} arg10.view.writes (Elt F) f LS1)) -∗ K ⟨⟩))
          ⊢ wp frame (wpE (defs₀ (F := F)) Variants.none c none) E (cc0__accum_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__accum_kernel_eq_skeleton]; unfold cc0__accum_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

end Cert.KernelIdeal.R0

end
-- ==== Proof.KI.R0.lean ====
import proofs.«171732_j7748121002128_2_alg».proof.Proof.KI.R0RunA
import proofs.«171732_j7748121002128_2_alg».proof.Proof.KI.R0RunB
import proofs.«171732_j7748121002128_2_alg».proof.Proof.KI.R0RunC

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its outputs hold point by point, its proof data and its body obligation -/

/-- At the first point nothing is stored into output 6 (the window is idle there and not written back): a placeholder
    that nothing consults. -/
def out0_A_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) : Vec F S2048x288 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4 x5).1)

/-- At the first point nothing is stored into output 7 (the window is idle there and not written back): a placeholder
    that nothing consults. -/
def out0_A_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) : Vec F S2048x288 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4 x5).2.1)

/-- At the first point the body's stores into accumulator 0 are of the whole buffer, so its pieces cover it. -/
theorem scover0_A_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (y : S2048x288.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5).2.2.1 S2048x288.size (by sl_kernel_rfl) y

/-- What the body leaves in accumulator 0 at the first point: its pieces read back. -/
def sout0_A_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) : Vec F S2048x288 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4 x5).2.2.1)

/-- At the first point the body's stores into accumulator 1 are of the whole buffer, so its pieces cover it. -/
theorem scover0_A_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (y : S2048x288.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5).2.2.2.1 S2048x288.size (by sl_kernel_rfl) y

/-- What the body leaves in accumulator 1 at the first point: its pieces read back. -/
def sout0_A_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) : Vec F S2048x288 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4 x5).2.2.2.1)

/-- At a middle point nothing is stored into output 6 (the window is idle there and not written back): a placeholder
    that nothing consults. -/
def out0_B_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).1)

/-- At a middle point nothing is stored into output 7 (the window is idle there and not written back): a placeholder
    that nothing consults. -/
def out0_B_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.1)

/-- At a middle point the body's stores into accumulator 0 are of the whole buffer, so its pieces cover it. -/
theorem scover0_B_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1 S2048x288.size (by sl_kernel_rfl) y

/-- What the body leaves in accumulator 0 at a middle point: its pieces read back. -/
def sout0_B_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- At a middle point the body's stores into accumulator 1 are of the whole buffer, so its pieces cover it. -/
theorem scover0_B_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S2048x288.size (by sl_kernel_rfl) y

/-- What the body leaves in accumulator 1 at a middle point: its pieces read back. -/
def sout0_B_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-- At the last point the body's one store into output 6 is of the whole block, so its pieces cover it. -/
theorem cover0_C_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1 S2048x288.size (by sl_kernel_rfl) y

/-- What the body leaves in output 6's staging buffer at the last point: its pieces read back. -/
def out0_C_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).1)

/-- At the last point the body's one store into output 7 is of the whole block, so its pieces cover it. -/
theorem cover0_C_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1 S2048x288.size (by sl_kernel_rfl) y

/-- What the body leaves in output 7's staging buffer at the last point: its pieces read back. -/
def out0_C_7 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.1)

/-- At the last point the body's stores into accumulator 0 are of the whole buffer, so its pieces cover it. -/
theorem scover0_C_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S2048x288.size (by sl_kernel_rfl) y

/-- What the body leaves in accumulator 0 at the last point: its pieces read back. -/
def sout0_C_0 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- At the last point the body's stores into accumulator 1 are of the whole buffer, so its pieces cover it. -/
theorem scover0_C_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) (y : S2048x288.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S2048x288.size (by sl_kernel_rfl) y

/-- What the body leaves in accumulator 1 at the last point: its pieces read back. -/
def sout0_C_1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) : Vec F S2048x288 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

section Data
-- the TensorCore's buffer contents when the region is entered
variable (V : (c : Dev nD) → (b : Ref sig .tc) → Buf (Elt F) ((c : Thread nD τ).loc b))

/-! ## What the outputs and the accumulators hold after each point -/

/-- THE ACCUMULATION. What the two outputs' staging buffers and the two accumulators hold after the body at position `n`
    (outputs 6, 7, then accumulators 0, 1): the first point's run from anything, every later point's run over what the
    point before left in the accumulators; the last point's is the run that also stores the outputs. -/
def outsAt0 (c : Dev nD) : (n : ℕ) → n < cfg0.N → Vec F S2048x288 .f32 × Vec F S2048x288 .f32 × Vec F S2048x288 .f32 × Vec F S2048x288 .f32
  | 0, hn =>
      (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 79 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) (hc0 : cond0_0 (grid0.coords t)) (hc1 : ¬cond0_1 (grid0.coords t)) :
    outsAt0 V c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : t.val ≠ 0) (h1 : t.val ≠ 79) (hc0 : ¬cond0_0 (grid0.coords t)) (hc1 : ¬cond0_1 (grid0.coords t)) :
    outsAt0 V c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : t.val ≠ 0) (h1 : t.val = 79) (hc0 : ¬cond0_0 (grid0.coords t)) (hc1 : cond0_1 (grid0.coords t)) :
    outsAt0 V c t.val t.isLt =
      (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: before the first point what the launch hands over (every scoped buffer
    that is no staging buffer at anything); afterwards the two accumulators at what the point before left in them, the
    other such buffers unopened, and the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.1 ∗ owns (c : Thread nD τ) scM0_1 fullShare (outsAt0 V c n hn).2.2.2)
        ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`). -/
theorem PhiS_succ (c : Dev nD) (n : ℕ) (hn : n < cfg0.N) :
    PhiS V c (n + 1) hn = iprop(iprop(iprop(owns (c : Thread nD τ) scM0_0 fullShare (outsAt0 V c n hn).2.2.1 ∗ owns (c : Thread nD τ) scM0_1 fullShare (outsAt0 V c n hn).2.2.2)
        ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first. -/
theorem PhiS_pos (c : Dev nD) (n : ℕ) (h : n ≤ cfg0.N) (hz : n ≠ 0) :
    PhiS V c n h = iprop(iprop(iprop(owns (c : Thread nD τ) scM0_0 fullShare (outsAt0 V c (n - 1) (by omega)).2.2.1 ∗ owns (c : Thread nD τ) scM0_1 fullShare (outsAt0 V c (n - 1) (by omega)).2.2.2)
        ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' memrefs hold their blocks; the point is the first, a middle one or the last, and
    that case's run applies; the invariant hands the body the two accumulators at what the point before left (at anything
    at the first point) and takes them back at this point's contents; the other scoped buffers, the generator register and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 80 := lt_of_lt_of_eq t.isLt (show cfg0.N = 80 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val = 0
  · have hc0 : cond0_0 (grid0.coords t) := (hcond0_0 t).mpr h0
    have hc1 : ¬cond0_1 (grid0.coords t) := fun h => by have h' := (hcond0_1 t).mp h; omega
    rw [Dat.leavesExact_idle (dat0 V c) 6 t (idleAt0_6 t hc1) (noFlush0_6 t hc1)]
    rw [Dat.leavesExact_idle (dat0 V c) 7 t (idleAt0_7 t hc1) (noFlush0_7 t hc1)]
    rw [outsAt0_A V c t h0 hc0 hc1]
    unfold sout0_A_0 sout0_A_1; (try dsimp only)
    rw [PhiS_castSucc V c t, PhiS_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond0_0 (grid0.coords t) := fun h => h0 ((hcond0_0 t).mp h)
    by_cases h1 : t.val = 79
    · have hc1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6 t hc1], after0_6]
      rw [show (dat0 V c).leavesExact 7 t = owns (c : Thread nD τ) (ms0_7 t) fullShare ((dat0 V c).after 7 t) from by
        unfold Dat.leavesExact; rw [liveAt0_7 t hc1], after0_7]
      rw [outsAt0_C V c t h0 h1 hc0 hc1]
      unfold out0_C_6 out0_C_7 sout0_C_0 sout0_C_1; (try dsimp only)
      rw [PhiS_castSucc V c t, PhiS_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 6 t (idleAt0_6 t hc1) (noFlush0_6 t hc1)]
      rw [Dat.leavesExact_idle (dat0 V c) 7 t (idleAt0_7 t hc1) (noFlush0_7 t hc1)]
      rw [outsAt0_B V c t h0 h1 hc0 hc1]
      unfold sout0_B_0 sout0_B_1; (try dsimp only)
      rw [PhiS_castSucc V c t, PhiS_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 80 := N_0; omega)

end Data

end Cert.KernelIdeal.R0

end
-- ==== Proof.KI.R1Base.lean ====
/-
  Region 1 (the heads kernel, 8 grid points of 256 rows): what every grid point has in common. A window's block at a
  point is its array, as the region finds it, read through the block's rectangle; an input window's staging buffer
  holds that block at every point, whether the pipeline fetched it there or kept it from the point before (the
  weights' index maps are constant, so they are fetched once).
-/
import proofs.«171732_j7748121002128_2_alg».proof.Proof.Gen.KernelIdeal.Launch
import proofs.«171732_j7748121002128_2_alg».proof.Proof.Gen.KernelIdeal.Skeleton
import proofs.«171732_j7748121002128_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's staging buffer holds its block at every point, fetched there or not. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's staging buffer holds its block at every point, fetched there or not. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's staging buffer holds its block at every point, fetched there or not. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14's staging buffer holds its block at every point, fetched there or not. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Input window 15's staging buffer holds its block at every point, fetched there or not. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- Input window 16's staging buffer holds its block at every point, fetched there or not. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body, and its wholeness. -/
abbrev ms1_0 (t : Fin cfg1.N) : Memref sig .tc .vmem S256x288 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x288 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x576 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S144x576 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x144 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x144 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x4096 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x576 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x1 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S4096x576 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x4096 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S256x1 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S256x4096 .f32 := win1_18.stage (cfg1.slots t 18)
abbrev hs1_18 (t : Fin cfg1.N) : (ms1_18 t).IsWhole := hstage1_18 ((cfg1.slots t 18).cast nbuf1_18)

/-- One staging buffer of each output window, through which its contents are stated (the choice does not matter). -/
abbrev VO1_17 : View sig .tc .vmem S256x1 .f32 := (Memref.whole cc1_stg17_0 : Memref sig .tc .vmem S256x1 .f32).view
abbrev VO1_18 : View sig .tc .vmem S256x4096 .f32 := (Memref.whole cc1_stg18_0 : Memref sig .tc .vmem S256x4096 .f32).view

/-- No window of region 1 is ever idle. -/
theorem liveAt1 : ∀ (w : Fin cfg1.W) (t : Fin cfg1.N), cfg1.idle w (grid1.coords t) = false := by decide +kernel

end Cert.KernelIdeal.R1

end
-- ==== Proof.KI.R1Run.lean ====
/-
  Region 1's body run once, on any whole staging memrefs: the seventeen input buffers at their contents and the two
  output buffers at anything, the body runs to its end leaving the inputs as they were and each output buffer with
  the pieces its stores wrote — the piece lists are what the symbolic run finds.
-/
import proofs.«171732_j7748121002128_2_alg».proof.Proof.KI.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers (value block `[256, 1]`, action block
    `[256, 4096]`), with the body's triple over them. -/
noncomputable def kernelRun1 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) :
    Σ' (L17 : List (View.Piece (Elt F) S256x1 .f32)), { L18 : List (View.Piece (Elt F) S256x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc1__head_kernel_eq_skeleton]; unfold cc1__head_kernel_skel
    simp only [k1_part1_eq_skeleton, k1_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexists _; iexact H18
    iexists _; iexact H19

end Cert.KernelIdeal.R1

end
-- ==== Proof.KI.R1.lean ====
/-
  Region 1's proof data and body obligation. After the body at a point, each input window's staging buffer still
  holds its block, and each output window's holds what the body's stores wrote there (a function of the point's
  seventeen input blocks); the region keeps nothing between points, so the invariant is the untouched scoped rest and
  the generator register, and nothing is owed.
-/
import proofs.«171732_j7748121002128_2_alg».proof.Proof.KI.R1Run

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The value block's pieces tile it, so they cover it. -/
theorem cover1_17 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) (y : S256x1.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).1 S256x1.size (by sl_kernel_rfl) y

/-- The action block's pieces tile it, so they cover it. -/
theorem cover1_18 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) (y : S256x4096.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).2.1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).2.1 S256x4096.size (by sl_kernel_rfl) y

/-- What the body leaves in the value output's staging buffer: its pieces read back. -/
def out1_17 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) : Vec F S256x1 .f32 :=
  VO1_17.read (Elt F) (VO1_17.writes (Elt F) VO1_17.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).1)

/-- What the body leaves in the action output's staging buffer: its pieces read back. -/
def out1_18 (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) : Vec F S256x4096 .f32 :=
  VO1_18.read (Elt F) (VO1_18.writes (Elt F) VO1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17).2.1)

/-- The output blocks at point `t`: the body run at the point's staging memrefs and input blocks. -/
def outAt1_17 (c : Dev nD) (t : Fin cfg1.N) : Vec F S256x1 .f32 :=
  out1_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
def outAt1_18 (c : Dev nD) (t : Fin cfg1.N) : Vec F S256x4096 .f32 :=
  out1_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => outAt1_17 V c t
    | ⟨18, _⟩ => outAt1_18 V c t
    | ⟨_ + 19, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = outAt1_17 V c t := by dsimp only [dat1]
theorem after1_18 (c : Dev nD) (t : Fin cfg1.N) : (dat1 V c).after 18 t = outAt1_18 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t))

set_option maxHeartbeats 4000000 in
/-- The body at any point: the inputs' buffers hold their blocks, so the run applies; the invariant and the core's
    `owes` pass through unread; each output's buffer ends at its pieces read back, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  unfold outAt1_17 outAt1_18 out1_17 out1_18
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, ⟨%e17, H17⟩, ⟨%e18, H18⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover1_17 c _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (cover1_18 c _ _ _ _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KI.Run.lean ====
/-
  The whole program's run: five items in order (two reshapes of the accumulators' biases, the accumulation region,
  seven reshapes of the heads' biases, the heads region, the final reshape of the action array), composed over one
  thread state: every unscoped buffer of the core at the contents the items so far leave, the generator register at
  some state, nothing owed. The contents are a fold from the launch memory: a host stretch applies its operations;
  a region leaves its input arrays as it found them and each output array at what its write-backs leave. Read at the
  end, every buffer holds the last fold; an argument array is written by no item, so it holds its launch contents.
-/
import proofs.«171732_j7748121002128_2_alg».proof.Proof.KI.R0
import proofs.«171732_j7748121002128_2_alg».proof.Proof.KI.R1
import proofs.«171732_j7748121002128_2_alg».proof.Proof.Gen.KernelIdeal.Regions
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (R0.dat0 (U1 m) c).arrAt w cfg0.N
theorem W2_arr (c : Dev nD) (w : Fin cfg0.W) :
    W2 m c (Proc.devRef .tc (Pipeline.arrRef spec0 w)) = (R0.dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (R0.dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (R1.dat1 (U3 m) c).arrAt w cfg1.N
theorem W4_arr (c : Dev nD) (w : Fin cfg1.W) :
    W4 m c (Proc.devRef .tc (Pipeline.arrRef spec1 w)) = (R1.dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (R1.dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the last host stretch: the end. -/
abbrev W5 : Dev nD → Valuation τ sig (Elt F) := fun c => StableHlo.after hostOps2 (W4 m c)

/-! ## A buffer no item writes keeps its launch contents -/

/-- Region 0 leaves a buffer that is no output array of its own as it found it. -/
theorem W2_keep (c : Dev nD) (b : Ref sig .tc) (hb : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((R0.dat0 (U1 m) c).arrAt_in w (hb w rfl) _).trans (R0.A_eq0 (U1 m) c w))
  · exact W2_of_ne m c b fun w e => h ⟨w, e⟩

/-- Region 1 leaves a buffer that is no output array of its own as it found it. -/
theorem W4_keep (c : Dev nD) (b : Ref sig .tc) (hb : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((R1.dat1 (U3 m) c).arrAt_in w (hb w rfl) _).trans (R1.A_eq1 (U3 m) c w))
  · exact W4_of_ne m c b fun w e => h ⟨w, e⟩

/-- A buffer that no host stretch writes and that is no region's output array ends at its launch contents. -/
theorem W5_keep (c : Dev nD) (b : Ref sig .tc) (h0 : b ∉ hostOps0_W) (h1 : b ∉ hostOps1_W) (h2 : b ∉ hostOps2_W)
    (hr0 : ∀ w, Pipeline.arrRef spec0 w = b → (cfg0.win w).isOut = false)
    (hr1 : ∀ w, Pipeline.arrRef spec1 w = b → (cfg1.win w).isOut = false) :
    W5 m c (Proc.devRef .tc b) = m ((c : Thread nD τ).loc b) :=
  (StableHlo.after_of_writes_sub hostOps2 _ hostOps2_writes h2).trans <|
    (W4_keep m c b hr1).trans <|
      (StableHlo.after_of_writes_sub hostOps1 _ hostOps1_writes h1).trans <|
        (W2_keep m c b hr0).trans <|
          (StableHlo.after_of_writes_sub hostOps0 _ hostOps0_writes h0).trans rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => R0.dat0 (U1 m) c
  | ⟨1, _⟩ => fun c => R1.dat1 (U3 m) c
abbrev 𝒱₀ : Variants := Variants.none
abbrev L₀ : GSem nD τ sig → Finset Unit := fun _ => ∅
abbrev lv₀ : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch as an item. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as items -/

set_option backward.isDefEq.respectTransparency.types false in
/-- Region 0 over the thread state: entered from every unscoped buffer at `W1`, left at `W2`. Its arrays are split
    out of the unscoped buffers and put back at the exit contents; the generator register and the scoped rest go
    into the region's invariant (the two accumulators at anything before the first point) and come back out of it
    (their contents forgotten) after the last. -/
def reg0 : Pipeline.RegionSeg (pcfgs (F := F)) adm' (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (R0.body_obligation0 (U1 m) c).loose
  hwaits := Pipeline.hwaits_of_owed_zero _ _ _ _ L₀ lv₀ 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin0 (U1 m) c)
    unfold Pipeline.ΦA
    iintro ⟨Hp, -, Hr⟩
    isplitl [Hr]; · iexact Hr
    iexact Hp
  hout c := by
    refine (R0.hout0 (U1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; it keeps nothing
    between points, so the generator register and the scoped rest pass through its invariant unchanged. -/
def reg1 : Pipeline.RegionSeg (pcfgs (F := F)) adm' (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (R1.body_obligation1 (U3 m) c).loose
  hwaits := Pipeline.hwaits_of_owed_zero _ _ _ _ L₀ lv₀ 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm' (pdats m) () defs₀ 𝒱₀ L₀ lv₀) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer of every core at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ Rst c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (W5_keep m c main_arg0 (by decide) (by decide) (by decide) (by decide) (by decide)),
    (h c _ (mem_uc main_arg1 (by decide))).trans (W5_keep m c main_arg1 (by decide) (by decide) (by decide) (by decide) (by decide)),
    (h c _ (mem_uc main_arg2 (by decide))).trans (W5_keep m c main_arg2 (by decide) (by decide) (by decide) (by decide) (by decide)),
    (h c _ (mem_uc main_arg3 (by decide))).trans (W5_keep m c main_arg3 (by decide) (by decide) (by decide) (by decide) (by decide)),
    (h c _ (mem_uc main_arg4 (by decide))).trans (W5_keep m c main_arg4 (by decide) (by decide) (by decide) (by decide) (by decide)),
    (h c _ (mem_uc main_arg5 (by decide))).trans (W5_keep m c main_arg5 (by decide) (by decide) (by decide) (by decide) (by decide)),
    (h c _ (mem_uc main_arg6 (by decide))).trans (W5_keep m c main_arg6 (by decide) (by decide) (by decide) (by decide) (by decide)),
    (h c _ (mem_uc main_arg7 (by decide))).trans (W5_keep m c main_arg7 (by decide) (by decide) (by decide) (by decide) (by decide)),
    (h c _ (mem_uc main_arg8 (by decide))).trans (W5_keep m c main_arg8 (by decide) (by decide) (by decide) (by decide) (by decide)),
    (h c _ (mem_uc main_arg9 (by decide))).trans (W5_keep m c main_arg9 (by decide) (by decide) (by decide) (by decide) (by decide)),
    (h c _ (mem_uc main_arg10 (by decide))).trans (W5_keep m c main_arg10 (by decide) (by decide) (by decide) (by decide) (by decide)),
    (h c _ (mem_uc main_arg11 (by decide))).trans (W5_keep m c main_arg11 (by decide) (by decide) (by decide) (by decide) (by decide)),
    (h c _ (mem_uc main_arg12 (by decide))).trans (W5_keep m c main_arg12 (by decide) (by decide) (by decide) (by decide) (by decide)),
    (h c _ (mem_uc main_arg13 (by decide))).trans (W5_keep m c main_arg13 (by decide) (by decide) (by decide) (by decide) (by decide)),
    (h c _ (mem_uc main_arg14 (by decide))).trans (W5_keep m c main_arg14 (by decide) (by decide) (by decide) (by decide) (by decide)),
    (h c _ (mem_uc main_arg15 (by decide))).trans (W5_keep m c main_arg15 (by decide) (by decide) (by decide) (by decide) (by decide)),
    (h c _ (mem_uc main_arg16 (by decide))).trans (W5_keep m c main_arg16 (by decide) (by decide) (by decide) (by decide) (by decide)),
    (h c _ (mem_uc main_arg17 (by decide))).trans (W5_keep m c main_arg17 (by decide) (by decide) (by decide) (by decide) (by decide)),
    (h c _ (mem_uc main_arg18 (by decide))).trans (W5_keep m c main_arg18 (by decide) (by decide) (by decide) (by decide) (by decide)),
    (h c _ (mem_uc main_arg19 (by decide))).trans (W5_keep m c main_arg19 (by decide) (by decide) (by decide) (by decide) (by decide)),
    (h c _ (mem_uc main_arg20 (by decide))).trans (W5_keep m c main_arg20 (by decide) (by decide) (by decide) (by decide) (by decide))⟩) (run_all m ρ)

end Cert.KernelIdeal.Run

end
-- ==== Proof.KI.Folds.lean ====
/-
  The kernel program's buffer contents read at the references that matter. The contents at each boundary are a fold
  from the launch memory: a host stretch applies its re-layouts, a region replaces its output arrays. An argument array
  is written by nothing, so it is read as launched; a bias re-laid as a one-row matrix is read, at column `j` of its
  one row, as the launched bias at `j`; the first region's two outputs reach the second region untouched; and at the end
  the value result is the second region's first output and the action result is the re-layout of its second.
-/
import proofs.«171732_j7748121002128_2_alg».proof.Proof.KI.Run
import Idealize.ShloMosaic.Lib.ValueLayout
import Idealize.ShloMosaic.Lib.StableHlo.Run

set_option maxRecDepth 16384

noncomputable section

namespace Cert.KernelIdeal.Folds

open Cert.KernelIdeal Cert.KernelIdeal.Gen Cert.KernelIdeal.Run
open Idealize.ShloMosaic Idealize.ShloMosaic.TcCoe Idealize.ShloMosaic.ValueIdx Idealize.SL.Sem Idealize.ShloMosaic.StableHlo

variable {F : FTy → Type} [FloatOps F]

/-! ## Each host stretch at the references it writes, over any contents before it -/

theorem h0_v0 (Wv : Valuation τ sig (Elt F)) :
    StableHlo.after hostOps0 Wv (Proc.devRef .tc main_v0) = shapeCast S1x288 (Wv (Proc.devRef .tc main_arg4)) shapeCasts_S288_S1x288 := by
  after_results
  rfl

theorem h0_v1 (Wv : Valuation τ sig (Elt F)) :
    StableHlo.after hostOps0 Wv (Proc.devRef .tc main_v1) = shapeCast S1x288 (Wv (Proc.devRef .tc main_arg6)) shapeCasts_S288_S1x288 := by
  after_results
  rfl

theorem h1_v3 (Wv : Valuation τ sig (Elt F)) :
    StableHlo.after hostOps1 Wv (Proc.devRef .tc main_v3) = shapeCast S1x32 (Wv (Proc.devRef .tc main_arg8)) shapeCasts_S32_S1x32 := by
  after_results
  rfl

theorem h1_v4 (Wv : Valuation τ sig (Elt F)) :
    StableHlo.after hostOps1 Wv (Proc.devRef .tc main_v4) = shapeCast S1x32 (Wv (Proc.devRef .tc main_arg10)) shapeCasts_S32_S1x32 := by
  after_results
  rfl

theorem h1_v5 (Wv : Valuation τ sig (Elt F)) :
    StableHlo.after hostOps1 Wv (Proc.devRef .tc main_v5) = shapeCast S1x1 (Wv (Proc.devRef .tc main_arg12)) shapeCasts_S1_S1x1 := by
  after_results
  rfl

theorem h1_v6 (Wv : Valuation τ sig (Elt F)) :
    StableHlo.after hostOps1 Wv (Proc.devRef .tc main_v6) = shapeCast S1x144 (Wv (Proc.devRef .tc main_arg14)) shapeCasts_S144_S1x144 := by
  after_results
  rfl

theorem h1_v7 (Wv : Valuation τ sig (Elt F)) :
    StableHlo.after hostOps1 Wv (Proc.devRef .tc main_v7) = shapeCast S1x4096 (Wv (Proc.devRef .tc main_arg16)) shapeCasts_S4096_S1x4096 := by
  after_results
  rfl

theorem h1_v8 (Wv : Valuation τ sig (Elt F)) :
    StableHlo.after hostOps1 Wv (Proc.devRef .tc main_v8) = shapeCast S1x1 (Wv (Proc.devRef .tc main_arg18)) shapeCasts_S1_S1x1 := by
  after_results
  rfl

theorem h1_v9 (Wv : Valuation τ sig (Elt F)) :
    StableHlo.after hostOps1 Wv (Proc.devRef .tc main_v9) = shapeCast S1x4096 (Wv (Proc.devRef .tc main_arg20)) shapeCasts_S4096_S1x4096 := by
  after_results
  rfl

theorem h2_v11 (Wv : Valuation τ sig (Elt F)) :
    StableHlo.after hostOps2 Wv (Proc.devRef .tc main_v11)
      = shapeCast S2048x64x64 (Wv (Proc.devRef .tc main_v10_1)) shapeCasts_S2048x4096_S2048x64x64 := by
  after_results
  rfl

variable (m : (ℓ : Loc nD τ sig) → Buf (Elt F) ℓ)

/-! ## At the first region's entry -/

/-- A reference the first stretch does not write is read as launched. -/
theorem U1_keep (c : Dev nD) (b : Ref sig .tc) (h0 : b ∉ hostOps0_W) :
    Run.U1 m c b = m ((c : Thread nD τ).loc b) :=
  (StableHlo.after_of_writes_sub hostOps0 _ hostOps0_writes h0).trans rfl

theorem U1_arg1 (c : Dev nD) : Run.U1 m c main_arg1 = m ((c : Thread nD τ).loc main_arg1) :=
  U1_keep m c main_arg1 (by decide)
theorem U1_arg2 (c : Dev nD) : Run.U1 m c main_arg2 = m ((c : Thread nD τ).loc main_arg2) :=
  U1_keep m c main_arg2 (by decide)
theorem U1_arg3 (c : Dev nD) : Run.U1 m c main_arg3 = m ((c : Thread nD τ).loc main_arg3) :=
  U1_keep m c main_arg3 (by decide)
theorem U1_arg5 (c : Dev nD) : Run.U1 m c main_arg5 = m ((c : Thread nD τ).loc main_arg5) :=
  U1_keep m c main_arg5 (by decide)

/-- The re-laid bias at column `j` of its one row is the launched bias at `j`. -/
theorem U1_v0 (c : Dev nD) (j : Fin 288) :
    Run.U1 m c main_v0 (ix2 (0 : Fin 1) j) = m ((c : Thread nD τ).loc main_arg4) (ix1 j) := by
  show StableHlo.after hostOps0 (W0 m c) (Proc.devRef .tc main_v0) (ix2 (0 : Fin 1) j) = _
  rw [h0_v0]
  exact shapeCast_a_1a_apply _ _ 0 j

/-- The re-laid bias at column `j` of its one row is the launched bias at `j`. -/
theorem U1_v1 (c : Dev nD) (j : Fin 288) :
    Run.U1 m c main_v1 (ix2 (0 : Fin 1) j) = m ((c : Thread nD τ).loc main_arg6) (ix1 j) := by
  show StableHlo.after hostOps0 (W0 m c) (Proc.devRef .tc main_v1) (ix2 (0 : Fin 1) j) = _
  rw [h0_v1]
  exact shapeCast_a_1a_apply _ _ 0 j

/-! ## At the second region's entry -/

/-- A reference that the first stretch does not write and that is no output array of the first region leaves that
    region as launched. -/
theorem W2_launch (c : Dev nD) (b : Ref sig .tc) (h0 : b ∉ hostOps0_W)
    (hr0 : ∀ w, Pipeline.arrRef spec0 w = b → (cfg0.win w).isOut = false) :
    Run.W2 m c (Proc.devRef .tc b) = m ((c : Thread nD τ).loc b) :=
  (W2_keep m c b hr0).trans ((StableHlo.after_of_writes_sub hostOps0 _ hostOps0_writes h0).trans rfl)

/-- If moreover the second stretch does not write it, it enters the second region as launched. -/
theorem U3_keep (c : Dev nD) (b : Ref sig .tc) (h0 : b ∉ hostOps0_W) (h1 : b ∉ hostOps1_W)
    (hr0 : ∀ w, Pipeline.arrRef spec0 w = b → (cfg0.win w).isOut = false) :
    Run.U3 m c b = m ((c : Thread nD τ).loc b) :=
  (StableHlo.after_of_writes_sub hostOps1 _ hostOps1_writes h1).trans (W2_launch m c b h0 hr0)

theorem U3_arg0 (c : Dev nD) : Run.U3 m c main_arg0 = m ((c : Thread nD τ).loc main_arg0) :=
  U3_keep m c main_arg0 (by decide) (by decide) (by decide)
theorem U3_arg7 (c : Dev nD) : Run.U3 m c main_arg7 = m ((c : Thread nD τ).loc main_arg7) :=
  U3_keep m c main_arg7 (by decide) (by decide) (by decide)
theorem U3_arg9 (c : Dev nD) : Run.U3 m c main_arg9 = m ((c : Thread nD τ).loc main_arg9) :=
  U3_keep m c main_arg9 (by decide) (by decide) (by decide)
theorem U3_arg11 (c : Dev nD) : Run.U3 m c main_arg11 = m ((c : Thread nD τ).loc main_arg11) :=
  U3_keep m c main_arg11 (by decide) (by decide) (by decide)
theorem U3_arg13 (c : Dev nD) : Run.U3 m c main_arg13 = m ((c : Thread nD τ).loc main_arg13) :=
  U3_keep m c main_arg13 (by decide) (by decide) (by decide)
theorem U3_arg15 (c : Dev nD) : Run.U3 m c main_arg15 = m ((c : Thread nD τ).loc main_arg15) :=
  U3_keep m c main_arg15 (by decide) (by decide) (by decide)
theorem U3_arg17 (c : Dev nD) : Run.U3 m c main_arg17 = m ((c : Thread nD τ).loc main_arg17) :=
  U3_keep m c main_arg17 (by decide) (by decide) (by decide)
theorem U3_arg19 (c : Dev nD) : Run.U3 m c main_arg19 = m ((c : Thread nD τ).loc main_arg19) :=
  U3_keep m c main_arg19 (by decide) (by decide) (by decide)

/-- The first region's first output reaches the second region untouched. -/
theorem U3_v2_0 (c : Dev nD) : Run.U3 m c main_v2_0 = (R0.dat0 (Run.U1 m) c).arrAt 6 cfg0.N :=
  (StableHlo.after_of_writes_sub hostOps1 _ hostOps1_writes (by decide)).trans (W2_arr m c 6)

/-- Its second output likewise. -/
theorem U3_v2_1 (c : Dev nD) : Run.U3 m c main_v2_1 = (R0.dat0 (Run.U1 m) c).arrAt 7 cfg0.N :=
  (StableHlo.after_of_writes_sub hostOps1 _ hostOps1_writes (by decide)).trans (W2_arr m c 7)

/-- The re-laid bias at column `j` of its one row is the launched bias at `j`. -/
theorem U3_v3 (c : Dev nD) (j : Fin 32) :
    Run.U3 m c main_v3 (ix2 (0 : Fin 1) j) = m ((c : Thread nD τ).loc main_arg8) (ix1 j) := by
  show StableHlo.after hostOps1 (W2 m c) (Proc.devRef .tc main_v3) (ix2 (0 : Fin 1) j) = _
  rw [h1_v3]
  refine (shapeCast_a_1a_apply _ _ 0 j).trans ?_
  exact congrFun (W2_launch m c main_arg8 (by decide) (by decide)) (ix1 j)

/-- The re-laid bias at column `j` of its one row is the launched bias at `j`. -/
theorem U3_v4 (c : Dev nD) (j : Fin 32) :
    Run.U3 m c main_v4 (ix2 (0 : Fin 1) j) = m ((c : Thread nD τ).loc main_arg10) (ix1 j) := by
  show StableHlo.after hostOps1 (W2 m c) (Proc.devRef .tc main_v4) (ix2 (0 : Fin 1) j) = _
  rw [h1_v4]
  refine (shapeCast_a_1a_apply _ _ 0 j).trans ?_
  exact congrFun (W2_launch m c main_arg10 (by decide) (by decide)) (ix1 j)

/-- The re-laid bias at its one entry is the launched bias's entry. -/
theorem U3_v5 (c : Dev nD) :
    Run.U3 m c main_v5 (ix2 (0 : Fin 1) (0 : Fin 1)) = m ((c : Thread nD τ).loc main_arg12) (ix1 (0 : Fin 1)) := by
  show StableHlo.after hostOps1 (W2 m c) (Proc.devRef .tc main_v5) (ix2 (0 : Fin 1) (0 : Fin 1)) = _
  rw [h1_v5]
  refine (shapeCast_a_1a_apply _ _ 0 (0 : Fin 1)).trans ?_
  exact congrFun (W2_launch m c main_arg12 (by decide) (by decide)) (ix1 (0 : Fin 1))

/-- The re-laid bias at column `j` of its one row is the launched bias at `j`. -/
theorem U3_v6 (c : Dev nD) (j : Fin 144) :
    Run.U3 m c main_v6 (ix2 (0 : Fin 1) j) = m ((c : Thread nD τ).loc main_arg14) (ix1 j) := by
  show StableHlo.after hostOps1 (W2 m c) (Proc.devRef .tc main_v6) (ix2 (0 : Fin 1) j) = _
  rw [h1_v6]
  refine (shapeCast_a_1a_apply _ _ 0 j).trans ?_
  exact congrFun (W2_launch m c main_arg14 (by decide) (by decide)) (ix1 j)

/-- The re-laid bias at column `j` of its one row is the launched bias at `j`. -/
theorem U3_v7 (c : Dev nD) (j : Fin 4096) :
    Run.U3 m c main_v7 (ix2 (0 : Fin 1) j) = m ((c : Thread nD τ).loc main_arg16) (ix1 j) := by
  show StableHlo.after hostOps1 (W2 m c) (Proc.devRef .tc main_v7) (ix2 (0 : Fin 1) j) = _
  rw [h1_v7]
  refine (shapeCast_a_1a_apply _ _ 0 j).trans ?_
  exact congrFun (W2_launch m c main_arg16 (by decide) (by decide)) (ix1 j)

/-- The re-laid bias at its one entry is the launched bias's entry. -/
theorem U3_v8 (c : Dev nD) :
    Run.U3 m c main_v8 (ix2 (0 : Fin 1) (0 : Fin 1)) = m ((c : Thread nD τ).loc main_arg18) (ix1 (0 : Fin 1)) := by
  show StableHlo.after hostOps1 (W2 m c) (Proc.devRef .tc main_v8) (ix2 (0 : Fin 1) (0 : Fin 1)) = _
  rw [h1_v8]
  refine (shapeCast_a_1a_apply _ _ 0 (0 : Fin 1)).trans ?_
  exact congrFun (W2_launch m c main_arg18 (by decide) (by decide)) (ix1 (0 : Fin 1))

/-- The re-laid bias at column `j` of its one row is the launched bias at `j`. -/
theorem U3_v9 (c : Dev nD) (j : Fin 4096) :
    Run.U3 m c main_v9 (ix2 (0 : Fin 1) j) = m ((c : Thread nD τ).loc main_arg20) (ix1 j) := by
  show StableHlo.after hostOps1 (W2 m c) (Proc.devRef .tc main_v9) (ix2 (0 : Fin 1) j) = _
  rw [h1_v9]
  refine (shapeCast_a_1a_apply _ _ 0 j).trans ?_
  exact congrFun (W2_launch m c main_arg20 (by decide) (by decide)) (ix1 j)

/-! ## At the end -/

/-- The value result is the second region's output 17. -/
theorem W5_v10_0 (c : Dev nD) :
    Run.W5 m c (Proc.devRef .tc main_v10_0) = (R1.dat1 (Run.U3 m) c).arrAt 17 cfg1.N :=
  (StableHlo.after_of_writes_sub hostOps2 _ hostOps2_writes (by decide)).trans (W4_arr m c 17)

/-- The action result is the re-layout of the second region's output 18. -/
theorem W5_v11 (c : Dev nD) :
    Run.W5 m c (Proc.devRef .tc main_v11)
      = shapeCast S2048x64x64 ((R1.dat1 (Run.U3 m) c).arrAt 18 cfg1.N) shapeCasts_S2048x4096_S2048x64x64 :=
  (h2_v11 (W4 m c)).trans
    (congrArg (fun x : S2048x4096.Idx → Elt F .f32 => shapeCast S2048x64x64 x shapeCasts_S2048x4096_S2048x64x64) (W4_arr m c 18))

end Cert.KernelIdeal.Folds

end
-- ==== Proof.KI.R0Val.lean ====
import proofs.«171732_j7748121002128_2_alg».proof.Proof.KI.R0
import Idealize.ShloMosaic.Lib.Pipeline.Value

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case's pieces are, in the kernel's own arithmetic -/

/-- The zero offsets of every whole-block access. -/
theorem hz : (![0, 0] : Fin 2 → Nat) = fun _ => 0 := funext fun a => by fin_cases a <;> rfl

/-- Accumulator 0 after the first point: the product added to the zero block just stored. -/
theorem sout0_A_0_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) :
    sout0_A_0 c i arg1 harg1 arg2 harg2 arg3 harg3 arg4 harg4 arg5 harg5 arg6 harg6 arg7 harg7 arg8 harg8 arg9 harg9 arg10 harg10 hc0 hc1 x0 x1 x2 x3 x4 x5 = k0_pay3 x0 x2 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S2048x288) hz, View.readCov_unit_zero (S := S2048x288) _ hz]
  simp only [View.readAt_eq_ld, harg1.read_unread, harg2.read_unread, harg3.read_unread, harg4.read_unread, harg5.read_unread, harg6.read_unread, harg9.read_unread, harg10.read_unread, View.ld_unit_zero (S := S2048x512) hz, View.ld_unit_zero (S := S288x512) hz, View.ld_unit_zero (S := S1x288) hz, View.ld_unit_zero (S := S2048x288) hz]

/-- Accumulator 1 after the first point: the product added to the zero block just stored. -/
theorem sout0_A_1_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) :
    sout0_A_1 c i arg1 harg1 arg2 harg2 arg3 harg3 arg4 harg4 arg5 harg5 arg6 harg6 arg7 harg7 arg8 harg8 arg9 harg9 arg10 harg10 hc0 hc1 x0 x1 x2 x3 x4 x5 = k0_pay4 x1 x3 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S2048x288) hz, View.readCov_unit_zero (S := S2048x288) _ hz]
  simp only [View.readAt_eq_ld, harg1.read_unread, harg2.read_unread, harg3.read_unread, harg4.read_unread, harg5.read_unread, harg6.read_unread, harg9.read_unread, harg10.read_unread, View.ld_unit_zero (S := S2048x512) hz, View.ld_unit_zero (S := S288x512) hz, View.ld_unit_zero (S := S1x288) hz, View.ld_unit_zero (S := S2048x288) hz]

/-- Accumulator 0 after a middle point: the product added to what it held. -/
theorem sout0_B_0_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    sout0_B_0 c i arg1 harg1 arg2 harg2 arg3 harg3 arg4 harg4 arg5 harg5 arg6 harg6 arg7 harg7 arg8 harg8 arg9 harg9 arg10 harg10 hc0 hc1 x0 x1 x2 x3 x4 x5 xs0 xs1 = k0_pay3 x0 x2 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S2048x512) hz, View.ld_unit_zero (S := S288x512) hz, View.ld_unit_zero (S := S1x288) hz, View.ld_unit_zero (S := S2048x288) hz]

/-- Accumulator 1 after a middle point: the product added to what it held. -/
theorem sout0_B_1_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : ¬cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    sout0_B_1 c i arg1 harg1 arg2 harg2 arg3 harg3 arg4 harg4 arg5 harg5 arg6 harg6 arg7 harg7 arg8 harg8 arg9 harg9 arg10 harg10 hc0 hc1 x0 x1 x2 x3 x4 x5 xs0 xs1 = k0_pay4 x1 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S2048x512) hz, View.ld_unit_zero (S := S288x512) hz, View.ld_unit_zero (S := S1x288) hz, View.ld_unit_zero (S := S2048x288) hz]

/-- Accumulator 0 after the last point: the product added to what it held. -/
theorem sout0_C_0_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    sout0_C_0 c i arg1 harg1 arg2 harg2 arg3 harg3 arg4 harg4 arg5 harg5 arg6 harg6 arg7 harg7 arg8 harg8 arg9 harg9 arg10 harg10 hc0 hc1 x0 x1 x2 x3 x4 x5 xs0 xs1 = k0_pay3 x0 x2 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S2048x512) hz, View.ld_unit_zero (S := S288x512) hz, View.ld_unit_zero (S := S1x288) hz, View.ld_unit_zero (S := S2048x288) hz]

/-- Accumulator 1 after the last point: the product added to what it held. -/
theorem sout0_C_1_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    sout0_C_1 c i arg1 harg1 arg2 harg2 arg3 harg3 arg4 harg4 arg5 harg5 arg6 harg6 arg7 harg7 arg8 harg8 arg9 harg9 arg10 harg10 hc0 hc1 x0 x1 x2 x3 x4 x5 xs0 xs1 = k0_pay4 x1 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S2048x512) hz, View.ld_unit_zero (S := S288x512) hz, View.ld_unit_zero (S := S1x288) hz, View.ld_unit_zero (S := S2048x288) hz]

/-- Output 6 after the last point: accumulator 0 as that point leaves it, plus the bias row. -/
theorem out0_C_6_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    out0_C_6 c i arg1 harg1 arg2 harg2 arg3 harg3 arg4 harg4 arg5 harg5 arg6 harg6 arg7 harg7 arg8 harg8 arg9 harg9 arg10 harg10 hc0 hc1 x0 x1 x2 x3 x4 x5 xs0 xs1 = k0_pay5 (k0_pay3 x0 x2 xs0) x4 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz, View.readCov_unit_zero (S := S2048x288) _ hz]
  simp only [View.readAt_eq_ld, harg1.read_unread, harg2.read_unread, harg3.read_unread, harg4.read_unread, harg5.read_unread, harg6.read_unread, harg9.read_unread, harg10.read_unread, View.ld_unit_zero (S := S2048x512) hz, View.ld_unit_zero (S := S288x512) hz, View.ld_unit_zero (S := S1x288) hz, View.ld_unit_zero (S := S2048x288) hz]

/-- Output 7 after the last point: accumulator 1 as that point leaves it, plus the bias row. -/
theorem out0_C_7_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S288x512 .f32) (harg3 : arg3.IsWhole) (arg4 : Memref sig .tc .vmem S288x512 .f32) (harg4 : arg4.IsWhole) (arg5 : Memref sig .tc .vmem S1x288 .f32) (harg5 : arg5.IsWhole) (arg6 : Memref sig .tc .vmem S1x288 .f32) (harg6 : arg6.IsWhole) (arg7 : Memref sig .tc .vmem S2048x288 .f32) (harg7 : arg7.IsWhole) (arg8 : Memref sig .tc .vmem S2048x288 .f32) (harg8 : arg8.IsWhole) (arg9 : Memref sig .tc .vmem S2048x288 .f32) (harg9 : arg9.IsWhole) (arg10 : Memref sig .tc .vmem S2048x288 .f32) (harg10 : arg10.IsWhole) (hc0 : ¬cond0_0 i) (hc1 : cond0_1 i)
    (x0 : Vec F S2048x512 .f32) (x1 : Vec F S2048x512 .f32) (x2 : Vec F S288x512 .f32) (x3 : Vec F S288x512 .f32) (x4 : Vec F S1x288 .f32) (x5 : Vec F S1x288 .f32) (xs0 : Vec F S2048x288 .f32) (xs1 : Vec F S2048x288 .f32) :
    out0_C_7 c i arg1 harg1 arg2 harg2 arg3 harg3 arg4 harg4 arg5 harg5 arg6 harg6 arg7 harg7 arg8 harg8 arg9 harg9 arg10 harg10 hc0 hc1 x0 x1 x2 x3 x4 x5 xs0 xs1 = k0_pay6 (k0_pay4 x1 x3 xs1) x5 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz, View.readCov_unit_zero (S := S2048x288) _ hz]
  simp only [View.readAt_eq_ld, harg1.read_unread, harg2.read_unread, harg3.read_unread, harg4.read_unread, harg5.read_unread, harg6.read_unread, harg9.read_unread, harg10.read_unread, View.ld_unit_zero (S := S2048x512) hz, View.ld_unit_zero (S := S288x512) hz, View.ld_unit_zero (S := S1x288) hz, View.ld_unit_zero (S := S2048x288) hz]

section Recurrence
-- the TensorCore's buffer contents when the region is entered
variable (V : (c : Dev nD) → (b : Ref sig .tc) → Buf (Elt F) ((c : Thread nD τ).loc b))

/-! ## The two accumulators point by point, and the outputs at the last point -/

/-- Accumulator 0 after point `n`. -/
def accW (c : Dev nD) (n : ℕ) (hn : n < cfg0.N) : Vec F S2048x288 .f32 := (outsAt0 V c n hn).2.2.1

/-- After the first point: the first product added to the zero block. -/
theorem accW_first (c : Dev nD) (t : Fin cfg0.N) (h0 : t.val = 0) :
    accW V c t.val t.isLt = k0_pay3 (iblk0 V c 0 t) (iblk0 V c 2 t) (k0_pay1 (F := F)) := by
  have hN : t.val < 80 := lt_of_lt_of_eq t.isLt (show cfg0.N = 80 from N_0)
  have hc0 : cond0_0 (grid0.coords t) := (hcond0_0 t).mpr h0
  have hc1 : ¬cond0_1 (grid0.coords t) := fun h => by have h' := (hcond0_1 t).mp h; omega
  unfold accW
  rw [outsAt0_A V c t h0 hc0 hc1]
  dsimp only
  rw [sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t)]

/-- After every later point: that point's product added to what the point before left. -/
theorem accW_pos (c : Dev nD) (t : Fin cfg0.N) (h0 : t.val ≠ 0) :
    accW V c t.val t.isLt = k0_pay3 (iblk0 V c 0 t) (iblk0 V c 2 t) (accW V c (t.val - 1) (Nat.lt_of_le_of_lt (Nat.sub_le _ _) t.isLt)) := by
  have hc0 : ¬cond0_0 (grid0.coords t) := fun h => h0 ((hcond0_0 t).mp h)
  unfold accW
  by_cases h1 : t.val = 79
  · have hc1 : cond0_1 (grid0.coords t) := (hcond0_1 t).mpr h1
    rw [outsAt0_C V c t h0 h1 hc0 hc1]
    dsimp only
    rw [sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2]
  · have hc1 : ¬cond0_1 (grid0.coords t) := fun h => h1 ((hcond0_1 t).mp h)
    rw [outsAt0_B V c t h0 h1 hc0 hc1]
    dsimp only
    rw [sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2]

/-- The same two, by position. -/
theorem accW_zero (c : Dev nD) (hn : 0 < cfg0.N) :
    accW V c 0 hn = k0_pay3 (iblk0 V c 0 ⟨0, hn⟩) (iblk0 V c 2 ⟨0, hn⟩) (k0_pay1 (F := F)) :=
  accW_first V c ⟨0, hn⟩ rfl
theorem accW_succ (c : Dev nD) (n : ℕ) (hn : n + 1 < cfg0.N) :
    accW V c (n + 1) hn = k0_pay3 (iblk0 V c 0 ⟨n + 1, hn⟩) (iblk0 V c 2 ⟨n + 1, hn⟩) (accW V c n (Nat.lt_of_succ_lt hn)) :=
  accW_pos V c ⟨n + 1, hn⟩ (Nat.succ_ne_zero n)

/-- Accumulator 1 after point `n`. -/
def accB (c : Dev nD) (n : ℕ) (hn : n < cfg0.N) : Vec F S2048x288 .f32 := (outsAt0 V c n hn).2.2.2

/-- After the first point: the first product added to the zero block. -/
theorem accB_first (c : Dev nD) (t : Fin cfg0.N) (h0 : t.val = 0) :
    accB V c t.val t.isLt = k0_pay4 (iblk0 V c 1 t) (iblk0 V c 3 t) (k0_pay2 (F := F)) := by
  have hN : t.val < 80 := lt_of_lt_of_eq t.isLt (show cfg0.N = 80 from N_0)
  have hc0 : cond0_0 (grid0.coords t) := (hcond0_0 t).mpr h0
  have hc1 : ¬cond0_1 (grid0.coords t) := fun h => by have h' := (hcond0_1 t).mp h; omega
  unfold accB
  rw [outsAt0_A V c t h0 hc0 hc1]
  dsimp only
  rw [sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t)]

/-- After every later point: that point's product added to what the point before left. -/
theorem accB_pos (c : Dev nD) (t : Fin cfg0.N) (h0 : t.val ≠ 0) :
    accB V c t.val t.isLt = k0_pay4 (iblk0 V c 1 t) (iblk0 V c 3 t) (accB V c (t.val - 1) (Nat.lt_of_le_of_lt (Nat.sub_le _ _) t.isLt)) := by
  have hc0 : ¬cond0_0 (grid0.coords t) := fun h => h0 ((hcond0_0 t).mp h)
  unfold accB
  by_cases h1 : t.val = 79
  · have hc1 : cond0_1 (grid0.coords t) := (hcond0_1 t).mpr h1
    rw [outsAt0_C V c t h0 h1 hc0 hc1]
    dsimp only
    rw [sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2]
  · have hc1 : ¬cond0_1 (grid0.coords t) := fun h => h1 ((hcond0_1 t).mp h)
    rw [outsAt0_B V c t h0 h1 hc0 hc1]
    dsimp only
    rw [sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2]

/-- The same two, by position. -/
theorem accB_zero (c : Dev nD) (hn : 0 < cfg0.N) :
    accB V c 0 hn = k0_pay4 (iblk0 V c 1 ⟨0, hn⟩) (iblk0 V c 3 ⟨0, hn⟩) (k0_pay2 (F := F)) :=
  accB_first V c ⟨0, hn⟩ rfl
theorem accB_succ (c : Dev nD) (n : ℕ) (hn : n + 1 < cfg0.N) :
    accB V c (n + 1) hn = k0_pay4 (iblk0 V c 1 ⟨n + 1, hn⟩) (iblk0 V c 3 ⟨n + 1, hn⟩) (accB V c n (Nat.lt_of_succ_lt hn)) :=
  accB_pos V c ⟨n + 1, hn⟩ (Nat.succ_ne_zero n)

/-- Output 6 after the last point: accumulator 0 as that point leaves it, plus the bias row. -/
theorem after0_6_last (c : Dev nD) (t : Fin cfg0.N) (h1 : t.val = 79) :
    (dat0 V c).after 6 t = k0_pay5 (accW V c t.val t.isLt) (iblk0 V c 4 t) := by
  have h0 : t.val ≠ 0 := by omega
  have hc0 : ¬cond0_0 (grid0.coords t) := fun h => h0 ((hcond0_0 t).mp h)
  have hc1 : cond0_1 (grid0.coords t) := (hcond0_1 t).mpr h1
  rw [after0_6]; unfold accW
  rw [outsAt0_C V c t h0 h1 hc0 hc1]
  dsimp only
  rw [out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
    sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2]

/-- Output 7 after the last point: accumulator 1 as that point leaves it, plus the bias row. -/
theorem after0_7_last (c : Dev nD) (t : Fin cfg0.N) (h1 : t.val = 79) :
    (dat0 V c).after 7 t = k0_pay6 (accB V c t.val t.isLt) (iblk0 V c 5 t) := by
  have h0 : t.val ≠ 0 := by omega
  have hc0 : ¬cond0_0 (grid0.coords t) := fun h => h0 ((hcond0_0 t).mp h)
  have hc1 : cond0_1 (grid0.coords t) := (hcond0_1 t).mpr h1
  rw [after0_7]; unfold accB
  rw [outsAt0_C V c t h0 h1 hc0 hc1]
  dsimp only
  rw [out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2,
    sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2]

end Recurrence

end Cert.KernelIdeal.R0

end
-- ==== Proof.Spec.lean ====
/-
  The function both programs compute, on the extended reals, row by row.

  One input row is a side-to-move weight `p` and two sparse feature rows `x₁`, `x₂` of length 40960. Two affine
  accumulators `w = x₁·W_wᵀ + b_w`, `b = x₂·W_bᵀ + b_b` (length 288 each) are blended into one row of length 576,
  `base = relu (p · (w ‖ b) + (1 − p) · (b ‖ w))`, and two heads read it: the value head, two hidden affine layers of
  width 32 with relu and an affine read-out, plus an affine skip from `base`; and the action head, one hidden layer of
  width 144 with relu and an affine read-out of width 4096, plus an affine skip from `base`. Every affine map is a
  plain finite sum of products plus a bias, so the order and grouping of the sums does not matter on the extended
  reals (addition there is commutative and associative), and no distributivity is used anywhere.
-/
import Mathlib.Data.EReal.Operations
import Mathlib.Algebra.BigOperators.Fin

noncomputable section

namespace Cert.Spec

open scoped BigOperators

/-- An affine read-out: the sum of products of a row with a weight row, plus a bias. -/
def lin {K : ℕ} (x w : Fin K → EReal) (b : EReal) : EReal := (∑ k : Fin K, x k * w k) + b

/-- An affine layer of width `N` over a row of length `K`. -/
def layer {K N : ℕ} (x : Fin K → EReal) (W : Fin N → Fin K → EReal) (b : Fin N → EReal) : Fin N → EReal :=
  fun j => lin x (W j) (b j)

/-- The same followed by the positive part. -/
def reluLayer {K N : ℕ} (x : Fin K → EReal) (W : Fin N → Fin K → EReal) (b : Fin N → EReal) : Fin N → EReal :=
  fun j => max (lin x (W j) (b j)) 0

/-- Two rows of length 288 side by side. -/
def cat (u v : Fin 288 → EReal) : Fin 576 → EReal :=
  fun j => if h : j.val < 288 then u ⟨j.val, h⟩ else v ⟨j.val - 288, by have := j.isLt; omega⟩

/-- The blended base row. -/
def base (p : EReal) (w b : Fin 288 → EReal) : Fin 576 → EReal :=
  fun j => max (p * cat w b j + ((1 : EReal) - p) * cat b w j) 0

/-- The value head over a base row. -/
def valHead (bs : Fin 576 → EReal)
    (Wv0 : Fin 32 → Fin 576 → EReal) (bv0 : Fin 32 → EReal) (Wv1 : Fin 32 → Fin 32 → EReal) (bv1 : Fin 32 → EReal)
    (Wv2 : Fin 32 → EReal) (bv2 : EReal) (Wvs : Fin 576 → EReal) (bvs : EReal) : EReal :=
  lin (reluLayer (reluLayer bs Wv0 bv0) Wv1 bv1) Wv2 bv2 + lin bs Wvs bvs

/-- The action head over a base row. -/
def actHead (bs : Fin 576 → EReal)
    (Wa0 : Fin 144 → Fin 576 → EReal) (ba0 : Fin 144 → EReal) (Wa1 : Fin 4096 → Fin 144 → EReal) (ba1 : Fin 4096 → EReal)
    (Was : Fin 4096 → Fin 576 → EReal) (bas : Fin 4096 → EReal) : Fin 4096 → EReal :=
  fun j => lin (reluLayer bs Wa0 ba0) (Wa1 j) (ba1 j) + lin bs (Was j) (bas j)

end Cert.Spec

end
-- ==== Proof.SpecArr.lean ====
/-
  The specification read on arrays: the 21 argument arrays of the two programs as families of rows, and the two
  results as whole-array functions of them. A matrix `[a, b]` is read row by row, a vector `[a]` entry by entry, the
  `[2048, 1]` side-to-move column at its one entry per row, the `[1, K]` read-out rows at their one row.
-/
import proofs.«171732_j7748121002128_2_alg».proof.Proof.Spec
import Idealize.ShloMosaic.Lib.ValueIdx
import Idealize.ShloMosaic.PureOps.Ideal

noncomputable section

namespace Cert.SpecArr

open Idealize.ShloMosaic Idealize.ShloMosaic.ValueIdx

/-- A matrix of extended reals of literal extents. -/
abbrev A2 (a b : ℕ) : Type := (⟨2, ![a, b]⟩ : Shape).Idx → EReal
/-- A vector of extended reals of literal extent. -/
abbrev A1 (a : ℕ) : Type := (⟨1, ![a]⟩ : Shape).Idx → EReal

/-- The rows of a matrix. -/
def mat {a b : ℕ} (x : A2 a b) : Fin a → Fin b → EReal := fun i k => x (ix2 i k)
/-- The entries of a vector. -/
def vec {a : ℕ} (x : A1 a) : Fin a → EReal := fun k => x (ix1 k)
/-- A matrix from its rows. -/
def of2 {a b : ℕ} (f : Fin a → Fin b → EReal) : A2 a b := fun j => f ⟨(j 0).val, idx2_lt0 j⟩ ⟨(j 1).val, idx2_lt1 j⟩

theorem of2_ix2 {a b : ℕ} (f : Fin a → Fin b → EReal) (i : Fin a) (k : Fin b) : of2 f (ix2 i k) = f i k := rfl

theorem of2_ext {a b : ℕ} (x : A2 a b) (f : Fin a → Fin b → EReal) (h : ∀ i k, x (ix2 i k) = f i k) : x = of2 f := by
  funext j
  rw [eq_ix2 j]
  exact h _ _

/-- An affine accumulator `x·Wᵀ + b` of every row of `x`: `[2048, 288]`. -/
def accum (x : A2 2048 40960) (W : A2 288 40960) (b : A1 288) : Fin 2048 → Fin 288 → EReal :=
  fun i => Spec.layer (mat x i) (mat W) (vec b)

/-- The blended base rows: `[2048, 576]`. -/
def baseRows (a0 : A2 2048 1) (a1 a2 : A2 2048 40960) (a3 : A2 288 40960) (a4 : A1 288) (a5 : A2 288 40960) (a6 : A1 288) :
    Fin 2048 → Fin 576 → EReal :=
  fun i => Spec.base (a0 (ix2 i 0)) (accum a1 a3 a4 i) (accum a2 a5 a6 i)

/-- The value result `[2048, 1]` from the base rows and the value head's weights. -/
def valOf (bs : Fin 2048 → Fin 576 → EReal) (a7 : A2 32 576) (a8 : A1 32) (a9 : A2 32 32) (a10 : A1 32) (a11 : A2 1 32) (a12 : A1 1)
    (a17 : A2 1 576) (a18 : A1 1) : A2 2048 1 :=
  of2 fun i _ => Spec.valHead (bs i) (mat a7) (vec a8) (mat a9) (vec a10) (mat a11 0) (vec a12 0) (mat a17 0) (vec a18 0)

/-- The action result `[2048, 4096]` (before its final re-layout) from the base rows and the action head's weights. -/
def actOf (bs : Fin 2048 → Fin 576 → EReal) (a13 : A2 144 576) (a14 : A1 144) (a15 : A2 4096 144) (a16 : A1 4096)
    (a19 : A2 4096 576) (a20 : A1 4096) : A2 2048 4096 :=
  of2 fun i j => Spec.actHead (bs i) (mat a13) (vec a14) (mat a15) (vec a16) (mat a19) (vec a20) j

end Cert.SpecArr

end
-- ==== Proof.Pay.Ops.lean ====
/-
  The layout and contraction operations the kernel's payloads use, each read at one index of literal extents:
  a product of an `[a, K]` block with the transpose of a `[b, K]` block into a zero accumulator is the plain
  sum over the shared axis; two blocks side by side along the second axis read the left one below the seam and
  the right one past it; and the word `0x3F800000` is the extended real one. General: they mention no program.
-/
import proofs.«171732_j7748121002128_2_alg».proof.Proof.SpecArr
import Idealize.ShloMosaic.Lib.Pipeline.Value
import Idealize.ShloMosaic.Lib.ValueIdx
import Idealize.ShloMosaic.Lib.ValueLayout
import Idealize.ShloMosaic.PureOps.Ideal.Laws

noncomputable section

namespace Cert.Pay

open Idealize.ShloMosaic Idealize.ShloMosaic.ValueIdx
open scoped BigOperators

/-- The single-precision word of one is the extended real one. -/
theorem ofBits_one_f32 : Ideal.ofBits .f32 0x3F800000#32 = 1 := IdealRules.sign_bit.ideal_onePat .f32

section Dot
variable {a b K : ℕ} (D : DotDims (⟨2, ![a, K]⟩ : Shape) (⟨2, ![b, K]⟩ : Shape) (⟨2, ![a, b]⟩ : Shape))

/-- With no batch axis and the left operand's rows as the result's first axis, the left index keeps the row. -/
theorem lhsIdx_row (hlb : D.lhsBatch = []) (hln : D.lhsNonContracting = [0])
    (j : (⟨2, ![a, b]⟩ : Shape).Idx) (q : D.contr.Idx) : (D.lhsIdx j q 0).val = (j 0).val := by
  have hb : ¬ (0 : Fin (⟨2, ![a, K]⟩ : Shape).rank) ∈ D.lhsBatch := by rw [hlb]; exact List.not_mem_nil
  have hn : (0 : Fin (⟨2, ![a, K]⟩ : Shape).rank) ∈ D.lhsNonContracting := by rw [hln]; exact List.mem_singleton.mpr rfl
  unfold DotDims.lhsIdx
  rw [dif_neg hb, dif_pos hn]
  simp only [Fin.val_cast]
  have key : ∀ (p r : Nat) (hp : p < (⟨2, ![a, b]⟩ : Shape).rank) (hr : r < (⟨2, ![a, b]⟩ : Shape).rank), p = r →
      (j ⟨p, hp⟩).val = (j ⟨r, hr⟩).val := fun p r hp hr h => by subst h; rfl
  exact key _ _ _ _ (by simp [hlb, hln])

/-- The right operand's rows are the result's second axis. -/
theorem rhsIdx_row (hlb : D.lhsBatch = []) (hrb : D.rhsBatch = []) (hln : D.lhsNonContracting = [0]) (hrn : D.rhsNonContracting = [0])
    (j : (⟨2, ![a, b]⟩ : Shape).Idx) (q : D.contr.Idx) : (D.rhsIdx j q 0).val = (j 1).val := by
  have hb : ¬ (0 : Fin (⟨2, ![b, K]⟩ : Shape).rank) ∈ D.rhsBatch := by rw [hrb]; exact List.not_mem_nil
  have hn : (0 : Fin (⟨2, ![b, K]⟩ : Shape).rank) ∈ D.rhsNonContracting := by rw [hrn]; exact List.mem_singleton.mpr rfl
  unfold DotDims.rhsIdx
  rw [dif_neg hb, dif_pos hn]
  simp only [Fin.val_cast]
  have key : ∀ (p r : Nat) (hp : p < (⟨2, ![a, b]⟩ : Shape).rank) (hr : r < (⟨2, ![a, b]⟩ : Shape).rank), p = r →
      (j ⟨p, hp⟩).val = (j ⟨r, hr⟩).val := fun p r hp hr h => by subst h; rfl
  exact key _ _ _ _ (by simp [hlb, hln, hrn])

/-- A product of an `[a, K]` block with the transpose of a `[b, K]` block into the zero accumulator, read at
    `(p, c)`: the sum over the shared axis of the products of row `p` of the first with row `c` of the second. -/
theorem matmulNT_apply (hlc : D.lhsContracting = [1]) (hrc : D.rhsContracting = [1])
    (hln : D.lhsNonContracting = [0]) (hrn : D.rhsNonContracting = [0]) (hlb : D.lhsBatch = []) (hrb : D.rhsBatch = [])
    {φ₁ φ₂ : FTy} (prec : Option ContractPrecision)
    (lhs : FVec Ideal (⟨2, ![a, K]⟩ : Shape) φ₁) (rhs : FVec Ideal (⟨2, ![b, K]⟩ : Shape) φ₂) (p : Fin a) (c : Fin b) :
    matmul D prec lhs rhs (constant (⟨2, ![a, b]⟩ : Shape) .f32 0x00000000#32) (ix2 p c)
      = ∑ k : Fin K, lhs (ix2 p k) * rhs (ix2 c k) := by
  have hr : D.contr.rank = 1 := by rw [D.rank_contr, hlc]; rfl
  have hs : D.contr.size ⟨0, by omega⟩ = K := by
    have := D.size_contr 0 (by rw [hlc]; exact Nat.one_pos)
    rw [this]; simp [hlc]
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun ax => Fin.ext (by
    match ax with
    | ⟨0, _⟩ => exact lhsIdx_row D hlb hln _ _
    | ⟨1, _⟩ => exact (D.lhsIdx_val_of_single hlc _ _).trans hk)
  have er : D.rhsIdx (ix2 p c) ((contrEquiv1 D K hr hs).symm k) = ix2 c k := funext fun ax => Fin.ext (by
    match ax with
    | ⟨0, _⟩ => exact rhsIdx_row D hlb hrb hln hrn _ _
    | ⟨1, _⟩ => exact (D.rhsIdx_val_of_single hrc _ _).trans hk)
  rw [el, er]

end Dot

section Concat
variable {α : Type} {a n m t : ℕ}

/-- Two blocks side by side along the second axis, read left of the seam: the first block at the same place. -/
theorem concat2_left (x₁ : (⟨2, ![a, n]⟩ : Shape).Idx → α) (x₂ : (⟨2, ![a, m]⟩ : Shape).Idx → α)
    (h : Shape.Concatenates [(⟨2, ![a, n]⟩ : Shape), (⟨2, ![a, m]⟩ : Shape)] (⟨2, ![a, t]⟩ : Shape) 1)
    (p : Fin a) (q : Fin t) (hq : q.val < n) :
    concatenate (⟨2, ![a, t]⟩ : Shape) 1 [⟨(⟨2, ![a, n]⟩ : Shape), x₁⟩, ⟨(⟨2, ![a, m]⟩ : Shape), x₂⟩] h (ix2 p q)
      = x₁ (ix2 p ⟨q.val, hq⟩) :=
  concatenate_pair_apply_left 1 x₁ x₂ h (ix2 p q) rfl (ix2 p ⟨q.val, hq⟩) fun b => by
    match b with
    | ⟨0, _⟩ => rfl
    | ⟨1, _⟩ => rfl

/-- Read at or past the seam: the second block, the first one's width less. -/
theorem concat2_right (x₁ : (⟨2, ![a, n]⟩ : Shape).Idx → α) (x₂ : (⟨2, ![a, m]⟩ : Shape).Idx → α)
    (h : Shape.Concatenates [(⟨2, ![a, n]⟩ : Shape), (⟨2, ![a, m]⟩ : Shape)] (⟨2, ![a, t]⟩ : Shape) 1)
    (p : Fin a) (q : Fin t) (hq : n ≤ q.val) (hq' : q.val - n < m) :
    concatenate (⟨2, ![a, t]⟩ : Shape) 1 [⟨(⟨2, ![a, n]⟩ : Shape), x₁⟩, ⟨(⟨2, ![a, m]⟩ : Shape), x₂⟩] h (ix2 p q)
      = x₂ (ix2 p ⟨q.val - n, hq'⟩) :=
  concatenate_pair_apply_right 1 x₁ x₂ h (ix2 p q) rfl rfl (ix2 p ⟨q.val - n, hq'⟩)
    (fun b hb => by
      match b, hb with
      | ⟨0, _⟩, _ => rfl
      | ⟨1, _⟩, hb => exact absurd rfl hb)
    (by show q.val - n + n = q.val; omega)

/-- Two `[a, 288]` blocks side by side, read at `(p, q)`: the specification's two rows side by side at `q`. -/
theorem concat2_cat (x₁ x₂ : SpecArr.A2 a 288)
    (h : Shape.Concatenates [(⟨2, ![a, 288]⟩ : Shape), (⟨2, ![a, 288]⟩ : Shape)] (⟨2, ![a, 576]⟩ : Shape) 1)
    (p : Fin a) (q : Fin 576) :
    concatenate (⟨2, ![a, 576]⟩ : Shape) 1 [⟨(⟨2, ![a, 288]⟩ : Shape), x₁⟩, ⟨(⟨2, ![a, 288]⟩ : Shape), x₂⟩] h (ix2 p q)
      = Spec.cat (SpecArr.mat x₁ p) (SpecArr.mat x₂ p) q := by
  unfold Spec.cat
  split
  · next hq => exact concat2_left x₁ x₂ h p q hq
  · next hq => exact concat2_right x₁ x₂ h p q (by omega) _

end Concat

end Cert.Pay

end
-- ==== Proof.Pay.K0.lean ====
/-
  The accumulation kernel's stored values read at an index, on the extended reals: the cleared accumulator is
  zero, one step adds to the accumulator the contraction of the two loaded slices over their 512 positions, and
  the last step adds the bias row.
-/
import proofs.«171732_j7748121002128_2_alg».proof.Proof.Gen.KernelIdeal.Skeleton
import proofs.«171732_j7748121002128_2_alg».proof.Proof.Pay.Ops

noncomputable section

namespace Cert.Pay

open Idealize.ShloMosaic Idealize.ShloMosaic.ValueIdx Cert.KernelIdeal Cert.KernelIdeal.Gen
open scoped BigOperators

/-- The cleared first accumulator is zero everywhere. -/
theorem k0_pay1_apply (p : Fin 2048) (j : Fin 288) : k0_pay1 (F := Ideal) (ix2 p j) = 0 := by
  unfold k0_pay1
  rw [shapeCast_self]
  exact Ideal.ofBits_zero_f32

/-- The cleared second accumulator is zero everywhere. -/
theorem k0_pay2_apply (p : Fin 2048) (j : Fin 288) : k0_pay2 (F := Ideal) (ix2 p j) = 0 := by
  unfold k0_pay2
  rw [shapeCast_self]
  exact Ideal.ofBits_zero_f32

/-- One step of the first accumulator: the accumulator plus the contraction of the two slices. -/
theorem k0_pay3_apply (v3 : Vec Ideal S2048x512 .f32) (v5 : Vec Ideal S288x512 .f32) (v7 : Vec Ideal S2048x288 .f32)
    (p : Fin 2048) (j : Fin 288) :
    k0_pay3 (F := Ideal) v3 v5 v7 (ix2 p j) = v7 (ix2 p j) + ∑ k : Fin 512, v3 (ix2 p k) * v5 (ix2 j k) := by
  unfold k0_pay3
  rw [shapeCast_self]
  exact congrArg (v7 (ix2 p j) + ·)
    (matmulNT_apply dot_S2048x512_S288x512_S2048x288_1_1_0_0_n_n rfl rfl rfl rfl rfl rfl none _ _ p j)

/-- One step of the second accumulator. -/
theorem k0_pay4_apply (v13 : Vec Ideal S2048x512 .f32) (v15 : Vec Ideal S288x512 .f32) (v17 : Vec Ideal S2048x288 .f32)
    (p : Fin 2048) (j : Fin 288) :
    k0_pay4 (F := Ideal) v13 v15 v17 (ix2 p j) = v17 (ix2 p j) + ∑ k : Fin 512, v13 (ix2 p k) * v15 (ix2 j k) := by
  unfold k0_pay4
  rw [shapeCast_self]
  exact congrArg (v17 (ix2 p j) + ·)
    (matmulNT_apply dot_S2048x512_S288x512_S2048x288_1_1_0_0_n_n rfl rfl rfl rfl rfl rfl none _ _ p j)

/-- The last step of the first accumulator adds the bias row. -/
theorem k0_pay5_apply (v26 : Vec Ideal S2048x288 .f32) (v27 : Vec Ideal S1x288 .f32) (p : Fin 2048) (j : Fin 288) :
    k0_pay5 (F := Ideal) v26 v27 (ix2 p j) = v26 (ix2 p j) + v27 (ix2 (0 : Fin 1) j) := by
  unfold k0_pay5
  rw [shapeCast_self]
  exact congrArg (v26 (ix2 p j) + ·) (broadcastTo_1b_ab_apply v27 _ p j)

/-- The last step of the second accumulator adds the bias row. -/
theorem k0_pay6_apply (v32 : Vec Ideal S2048x288 .f32) (v33 : Vec Ideal S1x288 .f32) (p : Fin 2048) (j : Fin 288) :
    k0_pay6 (F := Ideal) v32 v33 (ix2 p j) = v32 (ix2 p j) + v33 (ix2 (0 : Fin 1) j) := by
  unfold k0_pay6
  rw [shapeCast_self]
  exact congrArg (v32 (ix2 p j) + ·) (broadcastTo_1b_ab_apply v33 _ p j)

end Cert.Pay

end
-- ==== Proof.Pay.Accum.lean ====
/-
  The accumulation law: a running sum over consecutive slices of a long axis is the sum over the whole axis.
  A contraction over an axis of `T * B` positions, taken `B` positions at a time and added slice after slice into
  an accumulator that starts from zero, ends as the one sum over all positions: only the commutativity and
  associativity of addition are used, so the law holds in any commutative additive monoid, the extended reals
  among them. General: it mentions no program.
-/
import Mathlib.Data.EReal.Operations
import Mathlib.Algebra.BigOperators.Fin
import Mathlib.Logic.Equiv.Fin.Basic

namespace Cert.Pay

open scoped BigOperators

variable {M : Type*} [AddCommMonoid M]

/-- An accumulator that starts as `0 + S 0` and adds `S (n + 1)` at step `n + 1` holds, after step `n`, the sum
    of the first `n + 1` terms. -/
theorem acc_eq_sum_range (A S : ℕ → M) (N : ℕ) (h0 : A 0 = 0 + S 0) (hstep : ∀ n, n + 1 < N → A (n + 1) = A n + S (n + 1))
    (n : ℕ) (hn : n < N) : A n = ∑ t ∈ Finset.range (n + 1), S t := by
  induction n with
  | zero => rw [h0, zero_add, Finset.sum_range_one]
  | succ n ih => rw [hstep n hn, ih (by omega), Finset.sum_range_succ _ (n + 1)]

/-- The same with the terms indexed by the slice number as an element of `Fin T`: after the last step the
    accumulator holds the sum over every slice. -/
theorem acc_last_eq_sum (T : ℕ) (A S : ℕ → M) (h0 : A 0 = 0 + S 0) (hstep : ∀ n, n + 1 < T + 1 → A (n + 1) = A n + S (n + 1)) :
    A T = ∑ t : Fin (T + 1), S t.val := by
  rw [acc_eq_sum_range A S (T + 1) h0 hstep T (Nat.lt_succ_self T), Finset.sum_range]

/-- A sum over `T` slices of `B` consecutive positions each is the sum over all `T * B` positions. The position of
    entry `k` of slice `t` is given by any function `e` with `e t k = B * t + k`. -/
theorem sum_slices {T B N : ℕ} (hN : T * B = N) (f : Fin N → M) (e : Fin T → Fin B → Fin N)
    (he : ∀ t k, (e t k).val = B * t.val + k.val) : ∑ t : Fin T, ∑ k : Fin B, f (e t k) = ∑ i : Fin N, f i := by
  subst hN
  rw [← Equiv.sum_comp finProdFinEquiv f, Fintype.sum_prod_type]
  refine Finset.sum_congr rfl fun t _ => Finset.sum_congr rfl fun k _ => congrArg f (Fin.ext ?_)
  rw [he t k, finProdFinEquiv_apply_val, Nat.add_comm]

/-- THE ACCUMULATION LAW. Over a long axis of `(T + 1) * B` positions cut into `T + 1` slices of `B`: if slice `t`'s
    partial contraction is `S t = ∑ k, x (e t k) * w (e t k)`, and the accumulator starts as `0 + S 0` and adds
    `S (n + 1)` at step `n + 1`, then after step `T` it is the contraction over the whole axis. -/
theorem accumulation_law [Mul M] {T B N : ℕ} (hN : (T + 1) * B = N) (x w : Fin N → M) (e : Fin (T + 1) → Fin B → Fin N)
    (he : ∀ t k, (e t k).val = B * t.val + k.val) (A S : ℕ → M)
    (hS : ∀ t : Fin (T + 1), S t.val = ∑ k : Fin B, x (e t k) * w (e t k))
    (h0 : A 0 = 0 + S 0) (hstep : ∀ n, n + 1 < T + 1 → A (n + 1) = A n + S (n + 1)) :
    A T = ∑ i : Fin N, x i * w i := by
  rw [acc_last_eq_sum T A S h0 hstep, ← sum_slices hN (fun i => x i * w i) e he]
  exact Finset.sum_congr rfl fun t _ => hS t

/-- The instance the two feature accumulators use: 80 slices of 512 positions of an axis of 40960. -/
theorem accumulation_law_80_512 (x w : Fin 40960 → EReal) (e : Fin 80 → Fin 512 → Fin 40960)
    (he : ∀ t k, (e t k).val = 512 * t.val + k.val) (A S : ℕ → EReal)
    (hS : ∀ t : Fin 80, S t.val = ∑ k : Fin 512, x (e t k) * w (e t k))
    (h0 : A 0 = 0 + S 0) (hstep : ∀ n, n + 1 < 80 → A (n + 1) = A n + S (n + 1)) :
    A 79 = ∑ i : Fin 40960, x i * w i :=
  accumulation_law (T := 79) (B := 512) (by norm_num) x w e he A S hS h0 hstep

end Cert.Pay
-- ==== Proof.KI.V0.lean ====
import proofs.«171732_j7748121002128_2_alg».proof.Proof.KI.R0Val
import proofs.«171732_j7748121002128_2_alg».proof.Proof.SpecArr
import proofs.«171732_j7748121002128_2_alg».proof.Proof.Pay.K0
import proofs.«171732_j7748121002128_2_alg».proof.Proof.Pay.Accum
import Idealize.ShloMosaic.Lib.Pipeline.Value

set_option maxRecDepth 16384

noncomputable section

namespace Cert.KernelIdeal.V0

open Cert Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the TensorCore's buffer contents when the region is entered, on the extended reals
variable (V : (c : Dev nD) → (b : Ref sig .tc) → Buf (Elt Ideal) ((c : Thread nD τ).loc b))

/-! # Region 0 from blocks to whole arrays: the two accumulators' outputs as affine maps of the feature rows -/

/-- The windows' block indices, decided over the grid: the four sliced operands move along their long axis with the
    point, the bias rows and the two outputs stay at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Window 0's block at point `t`, entry by entry: columns `512 t … 512 t + 511` of its array. -/
theorem iblk0_0_apply (c : Dev nD) (t : Fin cfg0.N) (p : Fin 2048) (k : Fin 512) :
    R0.iblk0 V c 0 t (ix2 p k) = V c main_arg1 (ix2 p ⟨512 * t.val + k.val, by have := lt_of_lt_of_eq t.isLt (show cfg0.N = 80 from N_0); omega⟩) := by
  obtain ⟨e00, e01, e10, e11, e20, e21, e30, e31, e40, e41, e50, e51, e60, e61, e70, e71⟩ := idx_facts t
  show V c main_arg1 (((cfg0.win 0).blk t).view.emb (ix2 p k)) = _
  refine congrArg (V c main_arg1) ?_
  funext a; apply Fin.ext
  match a with
  | ⟨0, _⟩ => show win0_0.index t (0 : Fin 2) * 2048 + 1 * p.val = p.val; omega
  | ⟨1, _⟩ => show win0_0.index t (1 : Fin 2) * 512 + 1 * k.val = 512 * t.val + k.val; omega

/-- Window 1's block at point `t`, entry by entry: columns `512 t … 512 t + 511` of its array. -/
theorem iblk0_1_apply (c : Dev nD) (t : Fin cfg0.N) (p : Fin 2048) (k : Fin 512) :
    R0.iblk0 V c 1 t (ix2 p k) = V c main_arg2 (ix2 p ⟨512 * t.val + k.val, by have := lt_of_lt_of_eq t.isLt (show cfg0.N = 80 from N_0); omega⟩) := by
  obtain ⟨e00, e01, e10, e11, e20, e21, e30, e31, e40, e41, e50, e51, e60, e61, e70, e71⟩ := idx_facts t
  show V c main_arg2 (((cfg0.win 1).blk t).view.emb (ix2 p k)) = _
  refine congrArg (V c main_arg2) ?_
  funext a; apply Fin.ext
  match a with
  | ⟨0, _⟩ => show win0_1.index t (0 : Fin 2) * 2048 + 1 * p.val = p.val; omega
  | ⟨1, _⟩ => show win0_1.index t (1 : Fin 2) * 512 + 1 * k.val = 512 * t.val + k.val; omega

/-- Window 2's block at point `t`, entry by entry: columns `512 t … 512 t + 511` of its array. -/
theorem iblk0_2_apply (c : Dev nD) (t : Fin cfg0.N) (p : Fin 288) (k : Fin 512) :
    R0.iblk0 V c 2 t (ix2 p k) = V c main_arg3 (ix2 p ⟨512 * t.val + k.val, by have := lt_of_lt_of_eq t.isLt (show cfg0.N = 80 from N_0); omega⟩) := by
  obtain ⟨e00, e01, e10, e11, e20, e21, e30, e31, e40, e41, e50, e51, e60, e61, e70, e71⟩ := idx_facts t
  show V c main_arg3 (((cfg0.win 2).blk t).view.emb (ix2 p k)) = _
  refine congrArg (V c main_arg3) ?_
  funext a; apply Fin.ext
  match a with
  | ⟨0, _⟩ => show win0_2.index t (0 : Fin 2) * 288 + 1 * p.val = p.val; omega
  | ⟨1, _⟩ => show win0_2.index t (1 : Fin 2) * 512 + 1 * k.val = 512 * t.val + k.val; omega

/-- Window 3's block at point `t`, entry by entry: columns `512 t … 512 t + 511` of its array. -/
theorem iblk0_3_apply (c : Dev nD) (t : Fin cfg0.N) (p : Fin 288) (k : Fin 512) :
    R0.iblk0 V c 3 t (ix2 p k) = V c main_arg5 (ix2 p ⟨512 * t.val + k.val, by have := lt_of_lt_of_eq t.isLt (show cfg0.N = 80 from N_0); omega⟩) := by
  obtain ⟨e00, e01, e10, e11, e20, e21, e30, e31, e40, e41, e50, e51, e60, e61, e70, e71⟩ := idx_facts t
  show V c main_arg5 (((cfg0.win 3).blk t).view.emb (ix2 p k)) = _
  refine congrArg (V c main_arg5) ?_
  funext a; apply Fin.ext
  match a with
  | ⟨0, _⟩ => show win0_3.index t (0 : Fin 2) * 288 + 1 * p.val = p.val; omega
  | ⟨1, _⟩ => show win0_3.index t (1 : Fin 2) * 512 + 1 * k.val = 512 * t.val + k.val; omega

/-- Window 4's block at point `t`, entry by entry: its whole array. -/
theorem iblk0_4_apply (c : Dev nD) (t : Fin cfg0.N) (p : Fin 1) (k : Fin 288) :
    R0.iblk0 V c 4 t (ix2 p k) = V c main_v0 (ix2 p k) := by
  obtain ⟨e00, e01, e10, e11, e20, e21, e30, e31, e40, e41, e50, e51, e60, e61, e70, e71⟩ := idx_facts t
  show V c main_v0 (((cfg0.win 4).blk t).view.emb (ix2 p k)) = _
  refine congrArg (V c main_v0) ?_
  funext a; apply Fin.ext
  match a with
  | ⟨0, _⟩ => show win0_4.index t (0 : Fin 2) * 1 + 1 * p.val = p.val; omega
  | ⟨1, _⟩ => show win0_4.index t (1 : Fin 2) * 288 + 1 * k.val = k.val; omega

/-- Window 5's block at point `t`, entry by entry: its whole array. -/
theorem iblk0_5_apply (c : Dev nD) (t : Fin cfg0.N) (p : Fin 1) (k : Fin 288) :
    R0.iblk0 V c 5 t (ix2 p k) = V c main_v1 (ix2 p k) := by
  obtain ⟨e00, e01, e10, e11, e20, e21, e30, e31, e40, e41, e50, e51, e60, e61, e70, e71⟩ := idx_facts t
  show V c main_v1 (((cfg0.win 5).blk t).view.emb (ix2 p k)) = _
  refine congrArg (V c main_v1) ?_
  funext a; apply Fin.ext
  match a with
  | ⟨0, _⟩ => show win0_5.index t (0 : Fin 2) * 1 + 1 * p.val = p.val; omega
  | ⟨1, _⟩ => show win0_5.index t (1 : Fin 2) * 288 + 1 * k.val = k.val; omega

/-- Output 6's block at any point is the whole array: an index of the block is the same index of the array. -/
theorem emb_6 (t : Fin cfg0.N) (p : Fin 2048) (j : Fin 288) : ((cfg0.win 6).blk t).view.emb (ix2 p j) = ix2 p j := by
  obtain ⟨e00, e01, e10, e11, e20, e21, e30, e31, e40, e41, e50, e51, e60, e61, e70, e71⟩ := idx_facts t
  funext a; apply Fin.ext
  match a with
  | ⟨0, _⟩ => show win0_6.index t (0 : Fin 2) * 2048 + 1 * p.val = p.val; omega
  | ⟨1, _⟩ => show win0_6.index t (1 : Fin 2) * 288 + 1 * j.val = j.val; omega

/-- Output 7's block at any point is the whole array: an index of the block is the same index of the array. -/
theorem emb_7 (t : Fin cfg0.N) (p : Fin 2048) (j : Fin 288) : ((cfg0.win 7).blk t).view.emb (ix2 p j) = ix2 p j := by
  obtain ⟨e00, e01, e10, e11, e20, e21, e30, e31, e40, e41, e50, e51, e60, e61, e70, e71⟩ := idx_facts t
  funext a; apply Fin.ext
  match a with
  | ⟨0, _⟩ => show win0_7.index t (0 : Fin 2) * 2048 + 1 * p.val = p.val; omega
  | ⟨1, _⟩ => show win0_7.index t (1 : Fin 2) * 288 + 1 * j.val = j.val; omega

/-- Position `k` of slice `t` on the long axis. -/
def pos (t : Fin 80) (k : Fin 512) : Fin 40960 := ⟨512 * t.val + k.val, by omega⟩

/-! ## Output 6 -/

/-- Accumulator 0 after the last point, entry by entry: the contraction of a feature row with a weight row over the
    whole long axis (the running sum over the 80 slices, by the accumulation law). -/
theorem accW_last (c : Dev nD) (h79 : 79 < cfg0.N) (p : Fin 2048) (j : Fin 288) :
    R0.accW V c 79 h79 (ix2 p j) = ∑ i : Fin 40960, SpecArr.mat (V c main_arg1) p i * SpecArr.mat (V c main_arg3) j i := by
  have hN : cfg0.N = 80 := N_0
  have key := Pay.accumulation_law_80_512
    (SpecArr.mat (V c main_arg1) p) (SpecArr.mat (V c main_arg3) j) pos (fun _ _ => rfl)
    (fun n => if h : n < cfg0.N then R0.accW V c n h (ix2 p j) else 0)
    (fun n => if h : n < cfg0.N then ∑ k : Fin 512, SpecArr.mat (a := 2048) (b := 512) (R0.iblk0 V c 0 ⟨n, h⟩) p k * SpecArr.mat (a := 288) (b := 512) (R0.iblk0 V c 2 ⟨n, h⟩) j k else 0)
    (fun t => by
      have ht : t.val < cfg0.N := by rw [hN]; exact t.isLt
      rw [dif_pos ht]
      refine Finset.sum_congr rfl fun k _ => ?_
      unfold SpecArr.mat
      rw [iblk0_0_apply V c ⟨t.val, ht⟩ p k, iblk0_2_apply V c ⟨t.val, ht⟩ j k]
      rfl)
    (by
      have h0 : 0 < cfg0.N := by rw [hN]; decide
      rw [dif_pos h0, R0.accW_zero V c h0]
      exact (Pay.k0_pay3_apply (R0.iblk0 V c 0 ⟨0, h0⟩) (R0.iblk0 V c 2 ⟨0, h0⟩) (k0_pay1 (F := Ideal)) p j).trans
        (congrArg (· + _) (Pay.k0_pay1_apply p j)))
    (fun n hn => by
      have h1 : n + 1 < cfg0.N := by rw [hN]; exact hn
      have h2 : n < cfg0.N := Nat.lt_of_succ_lt h1
      rw [dif_pos h1, dif_pos h2, dif_pos h1, R0.accW_succ V c n h1]
      exact Pay.k0_pay3_apply (R0.iblk0 V c 0 ⟨n + 1, h1⟩) (R0.iblk0 V c 2 ⟨n + 1, h1⟩) (R0.accW V c n h2) p j)
  have e : (if h : 79 < cfg0.N then R0.accW V c 79 h (ix2 p j) else 0) = R0.accW V c 79 h79 (ix2 p j) := dif_pos h79
  exact e.symm.trans key

/-- What the last point stores into output 6, entry by entry: the affine map of the feature row. -/
theorem out6_at (c : Dev nD) (t : Fin cfg0.N) (h1 : t.val = 79) (p : Fin 2048) (j : Fin 288) :
    k0_pay5 (F := Ideal) (R0.accW V c t.val t.isLt) (R0.iblk0 V c 4 t) (ix2 p j)
      = Spec.lin (SpecArr.mat (V c main_arg1) p) (SpecArr.mat (V c main_arg3) j) (V c main_v0 (ix2 (0 : Fin 1) j)) := by
  obtain ⟨n, hn⟩ := t
  dsimp only at h1
  subst h1
  refine (Pay.k0_pay5_apply (R0.accW V c 79 hn) (R0.iblk0 V c 4 ⟨79, hn⟩) p j).trans ?_
  rw [accW_last V c hn p j, iblk0_4_apply V c ⟨79, hn⟩ (0 : Fin 1) j]
  rfl

/-- What the point that writes output 6 back writes: the whole array of affine maps. -/
theorem flushed6_eq (c : Dev nD) (t : Fin cfg0.N) (hf : (cfg0.win 6).flush t = true) :
    (R0.dat0 V c).flushed 6 t = ((cfg0.win 6).blk t).view.read (Elt Ideal) (SpecArr.of2 fun i j => Spec.lin (SpecArr.mat (V c main_arg1) i) (SpecArr.mat (V c main_arg3) j) (V c main_v0 (ix2 (0 : Fin 1) j))) := by
  have hN : t.val < 80 := lt_of_lt_of_eq t.isLt (show cfg0.N = 80 from N_0)
  have h1 : t.val = 79 := by have h := (flush0_6 t).mp hf; omega
  show (cfg0.win 6).cut (grid0.coords t) ((R0.dat0 V c).after 6 t) = _
  rw [R0.after0_6_last V c t h1]
  funext y
  obtain ⟨p, j, rfl⟩ : ∃ (p : Fin 2048) (j : Fin 288), y = ix2 p j := ⟨y 0, y 1, eq_ix2 y⟩
  show k0_pay5 (F := Ideal) (R0.accW V c t.val t.isLt) (R0.iblk0 V c 4 t) (ix2 p j)
    = (SpecArr.of2 fun i j => Spec.lin (SpecArr.mat (V c main_arg1) i) (SpecArr.mat (V c main_arg3) j) (V c main_v0 (ix2 (0 : Fin 1) j))) (((cfg0.win 6).blk t).view.emb (ix2 p j))
  rw [emb_6 t p j, out6_at V c t h1 p j]
  rfl

/-- An index of the array is in point `t`'s block iff each coordinate is in the block's range on its axis. -/
theorem mem_blk6 (t : Fin cfg0.N) (i : S2048x288.Idx) :
    i ∈ ((cfg0.win 6).blk t).view.set ↔ ∀ a : Fin 2, win0_6.index t a * S2048x288.size a ≤ (i a).val ∧ (i a).val < win0_6.index t a * S2048x288.size a + S2048x288.size a := by
  show i ∈ ((View.whole main_v2_0).slice (win0_6.rect t)).set ↔ _
  rw [View.set_slice_whole, Rect.mem_set_unit]
  exact Iff.rfl

/-- The last point's block is the whole array, and that point writes it back. -/
theorem cover6 (i : S2048x288.Idx) : ∃ t : Fin cfg0.N, (cfg0.win 6).flush t = true ∧ i ∈ ((cfg0.win 6).blk t).view.set := by
  have h79 : 79 < cfg0.N := lt_of_lt_of_eq (by decide : 79 < 80) (show cfg0.N = 80 from N_0).symm
  obtain ⟨e00, e01, e10, e11, e20, e21, e30, e31, e40, e41, e50, e51, e60, e61, e70, e71⟩ := idx_facts ⟨79, h79⟩
  refine ⟨⟨79, h79⟩, (flush0_6 _).mpr rfl, ?_⟩
  rw [mem_blk6]
  have b0 : (i 0).val < 2048 := idx2_lt0 i
  have b1 : (i 1).val < 288 := idx2_lt1 i
  intro a
  match a with
  | ⟨0, _⟩ => show win0_6.index ⟨79, h79⟩ (0 : Fin 2) * 2048 ≤ (i 0).val ∧ (i 0).val < win0_6.index ⟨79, h79⟩ (0 : Fin 2) * 2048 + 2048; omega
  | ⟨1, _⟩ => show win0_6.index ⟨79, h79⟩ (1 : Fin 2) * 288 ≤ (i 1).val ∧ (i 1).val < win0_6.index ⟨79, h79⟩ (1 : Fin 2) * 288 + 288; omega

/-- THE ARRAY after the region: every row's affine accumulator. -/
theorem final6 (c : Dev nD) : (R0.dat0 V c).arrAt 6 cfg0.N = SpecArr.of2 fun i j => Spec.lin (SpecArr.mat (V c main_arg1) i) (SpecArr.mat (V c main_arg3) j) (V c main_v0 (ix2 (0 : Fin 1) j)) :=
  (R0.dat0 V c).arrAt_eq_of_cover 6 _ (fun t ht => flushed6_eq V c t ht) cover6

/-! ## Output 7 -/

/-- Accumulator 1 after the last point, entry by entry: the contraction of a feature row with a weight row over the
    whole long axis (the running sum over the 80 slices, by the accumulation law). -/
theorem accB_last (c : Dev nD) (h79 : 79 < cfg0.N) (p : Fin 2048) (j : Fin 288) :
    R0.accB V c 79 h79 (ix2 p j) = ∑ i : Fin 40960, SpecArr.mat (V c main_arg2) p i * SpecArr.mat (V c main_arg5) j i := by
  have hN : cfg0.N = 80 := N_0
  have key := Pay.accumulation_law_80_512
    (SpecArr.mat (V c main_arg2) p) (SpecArr.mat (V c main_arg5) j) pos (fun _ _ => rfl)
    (fun n => if h : n < cfg0.N then R0.accB V c n h (ix2 p j) else 0)
    (fun n => if h : n < cfg0.N then ∑ k : Fin 512, SpecArr.mat (a := 2048) (b := 512) (R0.iblk0 V c 1 ⟨n, h⟩) p k * SpecArr.mat (a := 288) (b := 512) (R0.iblk0 V c 3 ⟨n, h⟩) j k else 0)
    (fun t => by
      have ht : t.val < cfg0.N := by rw [hN]; exact t.isLt
      rw [dif_pos ht]
      refine Finset.sum_congr rfl fun k _ => ?_
      unfold SpecArr.mat
      rw [iblk0_1_apply V c ⟨t.val, ht⟩ p k, iblk0_3_apply V c ⟨t.val, ht⟩ j k]
      rfl)
    (by
      have h0 : 0 < cfg0.N := by rw [hN]; decide
      rw [dif_pos h0, R0.accB_zero V c h0]
      exact (Pay.k0_pay4_apply (R0.iblk0 V c 1 ⟨0, h0⟩) (R0.iblk0 V c 3 ⟨0, h0⟩) (k0_pay2 (F := Ideal)) p j).trans
        (congrArg (· + _) (Pay.k0_pay2_apply p j)))
    (fun n hn => by
      have h1 : n + 1 < cfg0.N := by rw [hN]; exact hn
      have h2 : n < cfg0.N := Nat.lt_of_succ_lt h1
      rw [dif_pos h1, dif_pos h2, dif_pos h1, R0.accB_succ V c n h1]
      exact Pay.k0_pay4_apply (R0.iblk0 V c 1 ⟨n + 1, h1⟩) (R0.iblk0 V c 3 ⟨n + 1, h1⟩) (R0.accB V c n h2) p j)
  have e : (if h : 79 < cfg0.N then R0.accB V c 79 h (ix2 p j) else 0) = R0.accB V c 79 h79 (ix2 p j) := dif_pos h79
  exact e.symm.trans key

/-- What the last point stores into output 7, entry by entry: the affine map of the feature row. -/
theorem out7_at (c : Dev nD) (t : Fin cfg0.N) (h1 : t.val = 79) (p : Fin 2048) (j : Fin 288) :
    k0_pay6 (F := Ideal) (R0.accB V c t.val t.isLt) (R0.iblk0 V c 5 t) (ix2 p j)
      = Spec.lin (SpecArr.mat (V c main_arg2) p) (SpecArr.mat (V c main_arg5) j) (V c main_v1 (ix2 (0 : Fin 1) j)) := by
  obtain ⟨n, hn⟩ := t
  dsimp only at h1
  subst h1
  refine (Pay.k0_pay6_apply (R0.accB V c 79 hn) (R0.iblk0 V c 5 ⟨79, hn⟩) p j).trans ?_
  rw [accB_last V c hn p j, iblk0_5_apply V c ⟨79, hn⟩ (0 : Fin 1) j]
  rfl

/-- What the point that writes output 7 back writes: the whole array of affine maps. -/
theorem flushed7_eq (c : Dev nD) (t : Fin cfg0.N) (hf : (cfg0.win 7).flush t = true) :
    (R0.dat0 V c).flushed 7 t = ((cfg0.win 7).blk t).view.read (Elt Ideal) (SpecArr.of2 fun i j => Spec.lin (SpecArr.mat (V c main_arg2) i) (SpecArr.mat (V c main_arg5) j) (V c main_v1 (ix2 (0 : Fin 1) j))) := by
  have hN : t.val < 80 := lt_of_lt_of_eq t.isLt (show cfg0.N = 80 from N_0)
  have h1 : t.val = 79 := by have h := (flush0_7 t).mp hf; omega
  show (cfg0.win 7).cut (grid0.coords t) ((R0.dat0 V c).after 7 t) = _
  rw [R0.after0_7_last V c t h1]
  funext y
  obtain ⟨p, j, rfl⟩ : ∃ (p : Fin 2048) (j : Fin 288), y = ix2 p j := ⟨y 0, y 1, eq_ix2 y⟩
  show k0_pay6 (F := Ideal) (R0.accB V c t.val t.isLt) (R0.iblk0 V c 5 t) (ix2 p j)
    = (SpecArr.of2 fun i j => Spec.lin (SpecArr.mat (V c main_arg2) i) (SpecArr.mat (V c main_arg5) j) (V c main_v1 (ix2 (0 : Fin 1) j))) (((cfg0.win 7).blk t).view.emb (ix2 p j))
  rw [emb_7 t p j, out7_at V c t h1 p j]
  rfl

/-- An index of the array is in point `t`'s block iff each coordinate is in the block's range on its axis. -/
theorem mem_blk7 (t : Fin cfg0.N) (i : S2048x288.Idx) :
    i ∈ ((cfg0.win 7).blk t).view.set ↔ ∀ a : Fin 2, win0_7.index t a * S2048x288.size a ≤ (i a).val ∧ (i a).val < win0_7.index t a * S2048x288.size a + S2048x288.size a := by
  show i ∈ ((View.whole main_v2_1).slice (win0_7.rect t)).set ↔ _
  rw [View.set_slice_whole, Rect.mem_set_unit]
  exact Iff.rfl

/-- The last point's block is the whole array, and that point writes it back. -/
theorem cover7 (i : S2048x288.Idx) : ∃ t : Fin cfg0.N, (cfg0.win 7).flush t = true ∧ i ∈ ((cfg0.win 7).blk t).view.set := by
  have h79 : 79 < cfg0.N := lt_of_lt_of_eq (by decide : 79 < 80) (show cfg0.N = 80 from N_0).symm
  obtain ⟨e00, e01, e10, e11, e20, e21, e30, e31, e40, e41, e50, e51, e60, e61, e70, e71⟩ := idx_facts ⟨79, h79⟩
  refine ⟨⟨79, h79⟩, (flush0_7 _).mpr rfl, ?_⟩
  rw [mem_blk7]
  have b0 : (i 0).val < 2048 := idx2_lt0 i
  have b1 : (i 1).val < 288 := idx2_lt1 i
  intro a
  match a with
  | ⟨0, _⟩ => show win0_7.index ⟨79, h79⟩ (0 : Fin 2) * 2048 ≤ (i 0).val ∧ (i 0).val < win0_7.index ⟨79, h79⟩ (0 : Fin 2) * 2048 + 2048; omega
  | ⟨1, _⟩ => show win0_7.index ⟨79, h79⟩ (1 : Fin 2) * 288 ≤ (i 1).val ∧ (i 1).val < win0_7.index ⟨79, h79⟩ (1 : Fin 2) * 288 + 288; omega

/-- THE ARRAY after the region: every row's affine accumulator. -/
theorem final7 (c : Dev nD) : (R0.dat0 V c).arrAt 7 cfg0.N = SpecArr.of2 fun i j => Spec.lin (SpecArr.mat (V c main_arg2) i) (SpecArr.mat (V c main_arg5) j) (V c main_v1 (ix2 (0 : Fin 1) j)) :=
  (R0.dat0 V c).arrAt_eq_of_cover 7 _ (fun t ht => flushed7_eq V c t ht) cover7

end Cert.KernelIdeal.V0

end
-- ==== Proof.KI.R1Val.lean ====
/-
  What region 1's body leaves in its two output blocks, as the kernel's arithmetic of the blocks it loads: the value
  block is the value read-out of the point's base block and second hidden block, the action block the action
  read-out plus its skip; each store writes a whole block, and each load reads a whole block as it stands.
-/
import proofs.«171732_j7748121002128_2_alg».proof.Proof.KI.R1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- The value block, on any staging memrefs and input blocks. -/
theorem out1_17_eq (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) :
    out1_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17 = k1_pay4 (k1_pay2 x3 x1 x2) (k1_pay3 x3 x1 x2 x4 x5 x6 x7) x8 x9 x14 x15 := by
  unfold out1_17
  rw [View.read_writes_eq_canon _ _ _ (cover1_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17)]
  unfold kernelRun1
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x288) hz, View.ld_unit_zero (S := S256x1) hz, View.ld_unit_zero (S := S32x576) hz, View.ld_unit_zero (S := S1x32) hz, View.ld_unit_zero (S := S32x32) hz, View.ld_unit_zero (S := S1x1) hz, View.ld_unit_zero (S := S144x576) hz, View.ld_unit_zero (S := S1x144) hz, View.ld_unit_zero (S := S4096x144) hz, View.ld_unit_zero (S := S1x4096) hz, View.ld_unit_zero (S := S1x576) hz, View.ld_unit_zero (S := S4096x576) hz, View.ld_unit_zero (S := S256x4096) hz]

/-- The action block, on any staging memrefs and input blocks. -/
theorem out1_18_eq (c : Dev nD) (i : grid1.Coords) (arg1 : Memref sig .tc .vmem S256x288 .f32) (harg1 : arg1.IsWhole) (arg2 : Memref sig .tc .vmem S256x288 .f32) (harg2 : arg2.IsWhole) (arg3 : Memref sig .tc .vmem S256x1 .f32) (harg3 : arg3.IsWhole) (arg4 : Memref sig .tc .vmem S32x576 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x1 .f32) (harg9 : arg9.IsWhole) (arg10 : Memref sig .tc .vmem S144x576 .f32) (harg10 : arg10.IsWhole) (arg11 : Memref sig .tc .vmem S1x144 .f32) (harg11 : arg11.IsWhole) (arg12 : Memref sig .tc .vmem S4096x144 .f32) (harg12 : arg12.IsWhole) (arg13 : Memref sig .tc .vmem S1x4096 .f32) (harg13 : arg13.IsWhole) (arg14 : Memref sig .tc .vmem S1x576 .f32) (harg14 : arg14.IsWhole) (arg15 : Memref sig .tc .vmem S1x1 .f32) (harg15 : arg15.IsWhole) (arg16 : Memref sig .tc .vmem S4096x576 .f32) (harg16 : arg16.IsWhole) (arg17 : Memref sig .tc .vmem S1x4096 .f32) (harg17 : arg17.IsWhole) (arg18 : Memref sig .tc .vmem S256x1 .f32) (harg18 : arg18.IsWhole) (arg19 : Memref sig .tc .vmem S256x4096 .f32) (harg19 : arg19.IsWhole)
    (x1 : Vec F S256x288 .f32) (x2 : Vec F S256x288 .f32) (x3 : Vec F S256x1 .f32) (x4 : Vec F S32x576 .f32) (x5 : Vec F S1x32 .f32) (x6 : Vec F S32x32 .f32) (x7 : Vec F S1x32 .f32) (x8 : Vec F S1x32 .f32) (x9 : Vec F S1x1 .f32) (x10 : Vec F S144x576 .f32) (x11 : Vec F S1x144 .f32) (x12 : Vec F S4096x144 .f32) (x13 : Vec F S1x4096 .f32) (x14 : Vec F S1x576 .f32) (x15 : Vec F S1x1 .f32) (x16 : Vec F S4096x576 .f32) (x17 : Vec F S1x4096 .f32) :
    out1_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17 = k1_pay1 (k1_pay5 (k1_pay2 x3 x1 x2) x10 x11 x12 x13) (k1_pay6 (k1_pay2 x3 x1 x2)) (k1_pay7 x16) x17 := by
  unfold out1_18
  rw [View.read_writes_eq_canon _ _ _ (cover1_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x15 x16 x17)]
  unfold kernelRun1
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x288) hz, View.ld_unit_zero (S := S256x1) hz, View.ld_unit_zero (S := S32x576) hz, View.ld_unit_zero (S := S1x32) hz, View.ld_unit_zero (S := S32x32) hz, View.ld_unit_zero (S := S1x1) hz, View.ld_unit_zero (S := S144x576) hz, View.ld_unit_zero (S := S1x144) hz, View.ld_unit_zero (S := S4096x144) hz, View.ld_unit_zero (S := S1x4096) hz, View.ld_unit_zero (S := S1x576) hz, View.ld_unit_zero (S := S4096x576) hz, View.ld_unit_zero (S := S256x4096) hz]

/-- The value block at point `t`, from the point's input blocks. -/
theorem outAt1_17_eq (c : Dev nD) (t : Fin cfg1.N) :
    outAt1_17 V c t = k1_pay4 (k1_pay2 (iblk1 V c 2 t) (iblk1 V c 0 t) (iblk1 V c 1 t)) (k1_pay3 (iblk1 V c 2 t) (iblk1 V c 0 t) (iblk1 V c 1 t) (iblk1 V c 3 t) (iblk1 V c 4 t) (iblk1 V c 5 t) (iblk1 V c 6 t)) (iblk1 V c 7 t) (iblk1 V c 8 t) (iblk1 V c 13 t) (iblk1 V c 14 t) := by
  unfold outAt1_17
  exact out1_17_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)

/-- The action block at point `t`, from the point's input blocks. -/
theorem outAt1_18_eq (c : Dev nD) (t : Fin cfg1.N) :
    outAt1_18 V c t = k1_pay1 (k1_pay5 (k1_pay2 (iblk1 V c 2 t) (iblk1 V c 0 t) (iblk1 V c 1 t)) (iblk1 V c 9 t) (iblk1 V c 10 t) (iblk1 V c 11 t) (iblk1 V c 12 t)) (k1_pay6 (k1_pay2 (iblk1 V c 2 t) (iblk1 V c 0 t) (iblk1 V c 1 t))) (k1_pay7 (iblk1 V c 15 t)) (iblk1 V c 16 t) := by
  unfold outAt1_18
  exact out1_18_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)

end Cert.KernelIdeal.R1

end
-- ==== Proof.LibLayoutCols.lean ====
/-
  Layout facts for a row statistic kept as a column (`keepdims`): an `[a]` array cast to `[a, 1]`, an `[a, 1]` column
  broadcast across `[a, b]`, and a sum along the second axis of an `[a, b]` array read at a row. General: they mention
  no program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.LayoutCols

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float sum along the second axis of an `[a, b]` array of extended reals, read at row `p`: the sum over the
    row's entries. (The accumulator's word is the sum's neutral element, whatever way its proof is spelt.) -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.Lib.LayoutCols

end
-- ==== Proof.Pay.Dense.lean ====
/-
  An affine layer as the kernel spells it, read at one index on the extended reals: a product with the transposed
  weight block into a zero accumulator plus the broadcast bias row is the specification's affine read-out of the
  row (`dense_apply`), followed by a maximum with zero its positive part (`denseRelu_apply`); and a read-out of
  width one spelt as a row sum of products with a broadcast weight row, kept as a column, plus a broadcast `[1, 1]`
  bias (`rowDot_apply`). General: they mention no program.
-/
import proofs.«171732_j7748121002128_2_alg».proof.Proof.Pay.Ops
import proofs.«171732_j7748121002128_2_alg».proof.Proof.LibLayoutCols

noncomputable section

namespace Cert.Pay

open Idealize.ShloMosaic Idealize.ShloMosaic.ValueIdx
open scoped BigOperators

section Dense
variable {a b K : ℕ} (D : DotDims (⟨2, ![a, K]⟩ : Shape) (⟨2, ![b, K]⟩ : Shape) (⟨2, ![a, b]⟩ : Shape))

/-- An affine layer at `(p, c)`: the affine read-out of row `p` of the input with row `c` of the weights and entry
    `c` of the bias row. -/
theorem dense_apply (hlc : D.lhsContracting = [1]) (hrc : D.rhsContracting = [1])
    (hln : D.lhsNonContracting = [0]) (hrn : D.rhsNonContracting = [0]) (hlb : D.lhsBatch = []) (hrb : D.rhsBatch = [])
    {φ₁ φ₂ : FTy} (prec : Option ContractPrecision)
    (x : FVec Ideal (⟨2, ![a, K]⟩ : Shape) φ₁) (W : FVec Ideal (⟨2, ![b, K]⟩ : Shape) φ₂)
    (bias : FVec Ideal (⟨2, ![1, b]⟩ : Shape) .f32)
    (hsc : (⟨2, ![1, b]⟩ : Shape).ShapeCasts ⟨2, ![1, b]⟩) (hbc : (⟨2, ![1, b]⟩ : Shape).Broadcasts ⟨2, ![a, b]⟩)
    (p : Fin a) (c : Fin b) :
    addf (matmul D prec x W (constant (⟨2, ![a, b]⟩ : Shape) .f32 0x00000000#32))
        (broadcastTo (⟨2, ![a, b]⟩ : Shape) (shapeCast (⟨2, ![1, b]⟩ : Shape) bias hsc) hbc) (ix2 p c)
      = Spec.lin (SpecArr.mat x p) (SpecArr.mat W c) (SpecArr.mat bias 0 c) := by
  rw [shapeCast_self]
  show matmul D prec x W _ (ix2 p c) + broadcastTo _ bias hbc (ix2 p c) = _
  rw [matmulNT_apply D hlc hrc hln hrn hlb hrb, broadcastTo_1b_ab_apply]
  rfl

/-- The same followed by a maximum with zero: the specification's layer with the positive part. -/
theorem denseRelu_apply (hlc : D.lhsContracting = [1]) (hrc : D.rhsContracting = [1])
    (hln : D.lhsNonContracting = [0]) (hrn : D.rhsNonContracting = [0]) (hlb : D.lhsBatch = []) (hrb : D.rhsBatch = [])
    {φ₁ φ₂ : FTy} (prec : Option ContractPrecision)
    (x : FVec Ideal (⟨2, ![a, K]⟩ : Shape) φ₁) (W : FVec Ideal (⟨2, ![b, K]⟩ : Shape) φ₂)
    (bias : FVec Ideal (⟨2, ![1, b]⟩ : Shape) .f32)
    (hsc : (⟨2, ![1, b]⟩ : Shape).ShapeCasts ⟨2, ![1, b]⟩) (hbc : (⟨2, ![1, b]⟩ : Shape).Broadcasts ⟨2, ![a, b]⟩)
    (p : Fin a) (c : Fin b) :
    maximumf (addf (matmul D prec x W (constant (⟨2, ![a, b]⟩ : Shape) .f32 0x00000000#32))
        (broadcastTo (⟨2, ![a, b]⟩ : Shape) (shapeCast (⟨2, ![1, b]⟩ : Shape) bias hsc) hbc))
        (broadcast (⟨2, ![a, b]⟩ : Shape) (Scalar.ofBits (F := Ideal) .f32 0x00000000#32)) (ix2 p c)
      = Spec.reluLayer (SpecArr.mat x p) (SpecArr.mat W) (SpecArr.mat bias 0) c := by
  show max (addf _ _ (ix2 p c)) (Ideal.ofBits .f32 0x00000000#32) = _
  rw [dense_apply D hlc hrc hln hrn hlb hrb, Ideal.ofBits_zero_f32]
  rfl

end Dense

/-- A read-out of width one at row `p`: the row sum of the products with the broadcast weight row, kept as a
    column, plus the broadcast one-entry bias, is the affine read-out of the row. -/
theorem rowDot_apply {a K : ℕ} (x : FVec Ideal (⟨2, ![a, K]⟩ : Shape) .f32) (w : FVec Ideal (⟨2, ![1, K]⟩ : Shape) .f32)
    (c : FVec Ideal (⟨2, ![1, 1]⟩ : Shape) .f32)
    (hb : (⟨2, ![1, K]⟩ : Shape).Broadcasts ⟨2, ![a, K]⟩) (hr : (⟨2, ![a, K]⟩ : Shape).Reduces [1] ⟨1, ![a]⟩)
    (hφ : FKind.Formats .f32) (hacc : (0x00000000#32 : BitVec (FTy.bits .f32)) = FKind.add.neutral .f32 hφ)
    (hsc : (⟨1, ![a]⟩ : Shape).ShapeCasts ⟨2, ![a, 1]⟩) (hsc1 : (⟨2, ![1, 1]⟩ : Shape).ShapeCasts ⟨2, ![1, 1]⟩)
    (hb1 : (⟨2, ![1, 1]⟩ : Shape).Broadcasts ⟨2, ![a, 1]⟩) (p : Fin a) (u : Fin 1) :
    addf (shapeCast (⟨2, ![a, 1]⟩ : Shape)
          (multiReduction .add [1] (⟨1, ![a]⟩ : Shape) (mulf x (broadcastTo (⟨2, ![a, K]⟩ : Shape) w hb)) 0x00000000#32 hr hφ hacc) hsc)
        (broadcastTo (⟨2, ![a, 1]⟩ : Shape) (shapeCast (⟨2, ![1, 1]⟩ : Shape) c hsc1) hb1) (ix2 p u)
      = Spec.lin (SpecArr.mat x p) (SpecArr.mat w 0) (c (ix2 (0 : Fin 1) (0 : Fin 1))) := by
  obtain rfl : u = 0 := Subsingleton.elim _ _
  rw [shapeCast_self]
  show shapeCast _ _ hsc (ix2 p 0) + broadcastTo _ c hb1 (ix2 p 0) = _
  rw [Cert.Lib.LayoutCols.shapeCast_a_a1_apply, Cert.Lib.LayoutCols.rowSum_apply, broadcastTo_1b_ab_apply]
  unfold Spec.lin
  refine congrArg (· + c (ix2 (0 : Fin 1) (0 : Fin 1))) (Finset.sum_congr rfl fun k _ => ?_)
  show x (ix2 p k) * broadcastTo _ w hb (ix2 p k) = _
  rw [broadcastTo_1b_ab_apply]
  rfl

end Cert.Pay

end
-- ==== Proof.Pay.Base.lean ====
/-
  The head kernel's blended base block read at an index, on the extended reals: at row `p`, column `q`, the
  specification's base row of the side-to-move entry of row `p` and the two accumulator rows `p`, at `q`.
-/
import proofs.«171732_j7748121002128_2_alg».proof.Proof.Gen.KernelIdeal.Skeleton
import proofs.«171732_j7748121002128_2_alg».proof.Proof.Pay.Ops
import proofs.«171732_j7748121002128_2_alg».proof.Proof.LibLayoutCols

noncomputable section

namespace Cert.Pay

open Idealize.ShloMosaic Idealize.ShloMosaic.ValueIdx Cert.KernelIdeal Cert.KernelIdeal.Gen
open scoped BigOperators

/-- The base block at `(p, q)`. -/
theorem k1_pay2_apply (v0 : Vec Ideal S256x1 .f32) (v1 v3 : Vec Ideal S256x288 .f32) (p : Fin 256) (q : Fin 576) :
    k1_pay2 (F := Ideal) v0 v1 v3 (ix2 p q)
      = Spec.base (v0 (ix2 p (0 : Fin 1))) (SpecArr.mat v1 p) (SpecArr.mat v3 p) q := by
  have e5 := concat2_cat v1 v3 concatenates_S256x288_S256x288_S256x576_d1 p q
  have e6 := concat2_cat v3 v1 concatenates_S256x288_S256x288_S256x576_d1 p q
  have e7 := Cert.Lib.LayoutCols.broadcastTo_a1_ab_apply v0 broadcasts_S256x1_S256x576 p q
  have e11 := Cert.Lib.LayoutCols.broadcastTo_a1_ab_apply
    (subf (broadcast S256x1 (Scalar.ofBits (F := Ideal) .f32 0x3F800000#32)) v0) broadcasts_S256x1_S256x576 p q
  unfold k1_pay2
  rw [shapeCast_self, shapeCast_self]
  show max (broadcastTo S256x576 v0 _ (ix2 p q) * concatenate S256x576 1 _ _ (ix2 p q)
      + broadcastTo S256x576 _ _ (ix2 p q) * concatenate S256x576 1 _ _ (ix2 p q)) (Ideal.ofBits .f32 0x00000000#32) = _
  rw [e5, e6, e7, e11, Ideal.ofBits_zero_f32]
  show max (_ * _ + (Ideal.ofBits .f32 0x3F800000#32 - _) * _) 0 = _
  rw [ofBits_one_f32]
  rfl

end Cert.Pay

end
-- ==== Proof.Pay.Val.lean ====
/-
  The head kernel's value path read at an index, on the extended reals: the second hidden layer of the value head
  at row `p` is the specification's two layers with positive part over the base row, and the value block at row `p`
  is the affine read-out of that hidden row plus the affine skip read-out of the base row.
-/
import proofs.«171732_j7748121002128_2_alg».proof.Proof.Gen.KernelIdeal.Skeleton
import proofs.«171732_j7748121002128_2_alg».proof.Proof.Pay.Dense
import proofs.«171732_j7748121002128_2_alg».proof.Proof.Pay.Base

noncomputable section

namespace Cert.Pay

open Idealize.ShloMosaic Idealize.ShloMosaic.ValueIdx Cert.KernelIdeal Cert.KernelIdeal.Gen
open scoped BigOperators

/-- The value head's second hidden layer at `(p, j)`. -/
theorem k1_pay3_apply (v0 : Vec Ideal S256x1 .f32) (v1 v3 : Vec Ideal S256x288 .f32) (v17 : Vec Ideal S32x576 .f32)
    (v20 : Vec Ideal S1x32 .f32) (v27 : Vec Ideal S32x32 .f32) (v30 : Vec Ideal S1x32 .f32) (p : Fin 256) (j : Fin 32) :
    k1_pay3 (F := Ideal) v0 v1 v3 v17 v20 v27 v30 (ix2 p j)
      = Spec.reluLayer
          (Spec.reluLayer (Spec.base (v0 (ix2 p (0 : Fin 1))) (SpecArr.mat v1 p) (SpecArr.mat v3 p))
            (SpecArr.mat v17) (SpecArr.mat v20 0))
          (SpecArr.mat v27) (SpecArr.mat v30 0) j := by
  unfold k1_pay3
  refine (denseRelu_apply dot_S256x32_S32x32_S256x32_1_1_0_0_n_n rfl rfl rfl rfl rfl rfl none _ _ v30 _ _ p j).trans ?_
  refine congrArg (fun r => Spec.reluLayer r (SpecArr.mat v27) (SpecArr.mat v30 0) j) (funext fun k => ?_)
  refine (denseRelu_apply dot_S256x576_S32x576_S256x32_1_1_0_0_n_n rfl rfl rfl rfl rfl rfl none _ _ v20 _ _ p k).trans ?_
  exact congrArg (fun r => Spec.reluLayer r (SpecArr.mat v17) (SpecArr.mat v20 0) k)
    (funext fun q => k1_pay2_apply v0 v1 v3 p q)

/-- The value block at row `p`: the read-out of the hidden row plus the skip read-out of the base row. -/
theorem k1_pay4_apply (v15 : FVec Ideal S256x576 .f32) (v35 : FVec Ideal S256x32 .f32) (v36 : Vec Ideal S1x32 .f32)
    (v41 : Vec Ideal S1x1 .f32) (v45 : Vec Ideal S1x576 .f32) (v50 : Vec Ideal S1x1 .f32) (p : Fin 256) (u : Fin 1) :
    k1_pay4 (F := Ideal) v15 v35 v36 v41 v45 v50 (ix2 p u)
      = Spec.lin (SpecArr.mat v35 p) (SpecArr.mat v36 0) (v41 (ix2 (0 : Fin 1) (0 : Fin 1)))
        + Spec.lin (SpecArr.mat v15 p) (SpecArr.mat v45 0) (v50 (ix2 (0 : Fin 1) (0 : Fin 1))) := by
  have e1 := rowDot_apply v35 v36 v41 broadcasts_S1x32_S256x32 reduces_S256x32_S256 (.inl rfl) rfl
    shapeCasts_S256_S256x1 shapeCasts_S1x1_S1x1 broadcasts_S1x1_S256x1 p u
  have e2 := rowDot_apply v15 v45 v50 broadcasts_S1x576_S256x576 reduces_S256x576_S256 (.inl rfl) rfl
    shapeCasts_S256_S256x1 shapeCasts_S1x1_S1x1 broadcasts_S1x1_S256x1 p u
  unfold k1_pay4
  exact congrArg₂ (· + ·) e1 e2

/-- The value block at row `p` over the kernel's own base block and hidden layer: the specification's value head
    of the base row. -/
theorem k1_pay4_valHead (v0 : Vec Ideal S256x1 .f32) (v1 v3 : Vec Ideal S256x288 .f32) (v17 : Vec Ideal S32x576 .f32)
    (v20 : Vec Ideal S1x32 .f32) (v27 : Vec Ideal S32x32 .f32) (v30 : Vec Ideal S1x32 .f32) (v36 : Vec Ideal S1x32 .f32)
    (v41 : Vec Ideal S1x1 .f32) (v45 : Vec Ideal S1x576 .f32) (v50 : Vec Ideal S1x1 .f32) (p : Fin 256) (u : Fin 1) :
    k1_pay4 (F := Ideal) (k1_pay2 v0 v1 v3) (k1_pay3 v0 v1 v3 v17 v20 v27 v30) v36 v41 v45 v50 (ix2 p u)
      = Spec.valHead (Spec.base (v0 (ix2 p (0 : Fin 1))) (SpecArr.mat v1 p) (SpecArr.mat v3 p))
          (SpecArr.mat v17) (SpecArr.mat v20 0) (SpecArr.mat v27) (SpecArr.mat v30 0)
          (SpecArr.mat v36 0) (v41 (ix2 (0 : Fin 1) (0 : Fin 1))) (SpecArr.mat v45 0) (v50 (ix2 (0 : Fin 1) (0 : Fin 1))) := by
  rw [k1_pay4_apply]
  unfold Spec.valHead
  have hb : SpecArr.mat (k1_pay2 (F := Ideal) v0 v1 v3) p
      = Spec.base (v0 (ix2 p (0 : Fin 1))) (SpecArr.mat v1 p) (SpecArr.mat v3 p) :=
    funext fun q => k1_pay2_apply v0 v1 v3 p q
  have hh : SpecArr.mat (k1_pay3 (F := Ideal) v0 v1 v3 v17 v20 v27 v30) p
      = Spec.reluLayer (Spec.reluLayer (Spec.base (v0 (ix2 p (0 : Fin 1))) (SpecArr.mat v1 p) (SpecArr.mat v3 p))
          (SpecArr.mat v17) (SpecArr.mat v20 0)) (SpecArr.mat v27) (SpecArr.mat v30 0) :=
    funext fun j => k1_pay3_apply v0 v1 v3 v17 v20 v27 v30 p j
  rw [hb, hh]

end Cert.Pay

end
-- ==== Proof.Pay.Act.lean ====
/-
  The head kernel's action block read at an index, on the extended reals: at row `p`, column `j`, the
  specification's action head of the base row — the read-out of the hidden layer with positive part plus the
  affine skip read-out.
-/
import proofs.«171732_j7748121002128_2_alg».proof.Proof.Gen.KernelIdeal.Skeleton
import proofs.«171732_j7748121002128_2_alg».proof.Proof.Pay.Dense

noncomputable section

namespace Cert.Pay

open Idealize.ShloMosaic Idealize.ShloMosaic.ValueIdx Cert.KernelIdeal Cert.KernelIdeal.Gen
open scoped BigOperators

/-- The action head's main path at `(p, j)`: the read-out of the hidden layer with positive part. -/
theorem k1_pay5_apply (v15 : FVec Ideal S256x576 .f32) (v56 : Vec Ideal S144x576 .f32) (v59 : Vec Ideal S1x144 .f32)
    (v66 : Vec Ideal S4096x144 .f32) (v69 : Vec Ideal S1x4096 .f32) (p : Fin 256) (j : Fin 4096) :
    k1_pay5 (F := Ideal) v15 v56 v59 v66 v69 (ix2 p j)
      = Spec.lin (Spec.reluLayer (SpecArr.mat v15 p) (SpecArr.mat v56) (SpecArr.mat v59 0))
          (SpecArr.mat v66 j) (SpecArr.mat v69 0 j) := by
  unfold k1_pay5
  refine (dense_apply dot_S256x144_S4096x144_S256x4096_1_1_0_0_n_n rfl rfl rfl rfl rfl rfl none _ _ v69 _ _ p j).trans ?_
  refine congrArg (fun r => Spec.lin r (SpecArr.mat v66 j) (SpecArr.mat v69 0 j)) (funext fun k => ?_)
  exact denseRelu_apply dot_S256x576_S144x576_S256x144_1_1_0_0_n_n rfl rfl rfl rfl rfl rfl none _ _ v59 _ _ p k

/-- The action block at `(p, j)` over any main-path block: that block's entry plus the skip read-out. -/
theorem k1_pay1_apply (v72 : FVec Ideal S256x4096 .f32) (v73 : FVec Ideal S256x576 .bf16) (v75 : FVec Ideal S4096x576 .bf16)
    (v77 : Vec Ideal S1x4096 .f32) (p : Fin 256) (j : Fin 4096) :
    k1_pay1 (F := Ideal) v72 v73 v75 v77 (ix2 p j)
      = v72 (ix2 p j) + Spec.lin (SpecArr.mat v73 p) (SpecArr.mat v75 j) (SpecArr.mat v77 0 j) := by
  unfold k1_pay1
  exact congrArg (v72 (ix2 p j) + ·)
    (dense_apply dot_S256x576_S4096x576_S256x4096_1_1_0_0_n_n rfl rfl rfl rfl rfl rfl none v73 v75 v77 _ _ p j)

/-- The action block at `(p, j)` over the kernel's own main path and operands: the specification's action head. -/
theorem k1_pay1_actHead (v15 : FVec Ideal S256x576 .f32) (v56 : Vec Ideal S144x576 .f32) (v59 : Vec Ideal S1x144 .f32)
    (v66 : Vec Ideal S4096x144 .f32) (v69 : Vec Ideal S1x4096 .f32) (v74 : Vec Ideal S4096x576 .f32) (v77 : Vec Ideal S1x4096 .f32)
    (p : Fin 256) (j : Fin 4096) :
    k1_pay1 (F := Ideal) (k1_pay5 v15 v56 v59 v66 v69) (k1_pay6 v15) (k1_pay7 v74) v77 (ix2 p j)
      = Spec.actHead (SpecArr.mat v15 p) (SpecArr.mat v56) (SpecArr.mat v59 0) (SpecArr.mat v66) (SpecArr.mat v69 0)
          (SpecArr.mat v74) (SpecArr.mat v77 0) j := by
  rw [k1_pay1_apply, k1_pay5_apply]
  rfl

end Cert.Pay

end
-- ==== Proof.KI.V1.lean ====
/-
  Region 1 (the heads kernel, 8 grid points of 256 rows), from blocks to whole arrays, on the extended reals. Point
  `t` reads rows `256 t … 256 t + 255` of the two accumulator arrays and of the side-to-move column, and the weight
  arrays whole; what it writes back is rows `256 t …` of the value head and of the action head of the blended base
  rows. Every row `r` of the two results lies in the block of point `r / 256`, so after the last point the value
  array is the value head of every base row and the action array the action head of every base row.
-/
import proofs.«171732_j7748121002128_2_alg».proof.Proof.KI.R1Val
import proofs.«171732_j7748121002128_2_alg».proof.Proof.Pay.Val
import proofs.«171732_j7748121002128_2_alg».proof.Proof.Pay.Act
import proofs.«171732_j7748121002128_2_alg».proof.Proof.SpecArr
import Idealize.ShloMosaic.Lib.Pipeline.Value

-- membership in a rectangle of these extents recurses once per coordinate of the long axes
set_option maxRecDepth 16384

noncomputable section

namespace Cert.KernelIdeal.V1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.R1

variable (V : (c : Dev nD) → (b : Ref sig .tc) → Buf (Elt Ideal) ((c : Thread nD τ).loc b))

/-! ## Where a point's blocks sit -/

/-- The block index maps over the eight points: the three row-blocked inputs and the two outputs sit at block row
    `t`, column block 0. -/
theorem rows_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_17.index t (0 : Fin 2) = t.val ∧ win1_17.index t (1 : Fin 2) = 0
    ∧ win1_18.index t (0 : Fin 2) = t.val ∧ win1_18.index t (1 : Fin 2) = 0 :=
  (by decide +kernel : ∀ t : Fin grid1.N, _)

/-- There are eight points. -/
theorem point_lt (t : Fin cfg1.N) : t.val < 8 := lt_of_lt_of_eq t.isLt N_1

/-- Row `p` of point `t`'s block is row `256 t + p` of the array. -/
def row (t : Fin cfg1.N) (p : Fin 256) : Fin 2048 := ⟨256 * t.val + p.val, by have := point_lt t; omega⟩

/-! ## The input blocks read off their arrays -/

/-- The first accumulator's block at point `t`: rows `256 t …` of the array. -/
theorem blk0_apply (c : Dev nD) (t : Fin cfg1.N) (p : Fin 256) (k : Fin 288) :
    iblk1 V c 0 t (ix2 p k) = V c main_v2_0 (ix2 (row t p) k) := by
  obtain ⟨e0, e1, -⟩ := rows_index t
  show V c main_v2_0 (((cfg1.win 0).blk t).view.emb (ix2 p k)) = _
  refine congrArg (V c main_v2_0) (funext fun a => Fin.ext ?_)
  match a with
  | ⟨0, _⟩ => show win1_0.index t (0 : Fin 2) * 256 + 1 * p.val = 256 * t.val + p.val; omega
  | ⟨1, _⟩ => show win1_0.index t (1 : Fin 2) * 288 + 1 * k.val = k.val; omega

/-- The second accumulator's block at point `t`. -/
theorem blk1_apply (c : Dev nD) (t : Fin cfg1.N) (p : Fin 256) (k : Fin 288) :
    iblk1 V c 1 t (ix2 p k) = V c main_v2_1 (ix2 (row t p) k) := by
  obtain ⟨-, -, e0, e1, -⟩ := rows_index t
  show V c main_v2_1 (((cfg1.win 1).blk t).view.emb (ix2 p k)) = _
  refine congrArg (V c main_v2_1) (funext fun a => Fin.ext ?_)
  match a with
  | ⟨0, _⟩ => show win1_1.index t (0 : Fin 2) * 256 + 1 * p.val = 256 * t.val + p.val; omega
  | ⟨1, _⟩ => show win1_1.index t (1 : Fin 2) * 288 + 1 * k.val = k.val; omega

/-- The side-to-move column's block at point `t`. -/
theorem blk2_apply (c : Dev nD) (t : Fin cfg1.N) (p : Fin 256) (u : Fin 1) :
    iblk1 V c 2 t (ix2 p u) = V c main_arg0 (ix2 (row t p) u) := by
  obtain ⟨-, -, -, -, e0, e1, -⟩ := rows_index t
  show V c main_arg0 (((cfg1.win 2).blk t).view.emb (ix2 p u)) = _
  refine congrArg (V c main_arg0) (funext fun a => Fin.ext ?_)
  match a with
  | ⟨0, _⟩ => show win1_2.index t (0 : Fin 2) * 256 + 1 * p.val = 256 * t.val + p.val; omega
  | ⟨1, _⟩ => show win1_2.index t (1 : Fin 2) * 1 + 1 * u.val = u.val; omega

/-- Window 3's block is its whole array at every point. -/
theorem index3 : ∀ t : Fin cfg1.N, win1_3.index t (0 : Fin 2) = 0 ∧ win1_3.index t (1 : Fin 2) = 0 :=
  (by decide +kernel : ∀ t : Fin grid1.N, _)
theorem blk3_eq (c : Dev nD) (t : Fin cfg1.N) : iblk1 V c 3 t = V c main_arg7 := by
  obtain ⟨e0, e1⟩ := index3 t
  funext y
  show V c main_arg7 (((cfg1.win 3).blk t).view.emb y) = V c main_arg7 y
  refine congrArg (V c main_arg7) (funext fun a => Fin.ext ?_)
  match a with
  | ⟨0, _⟩ => show win1_3.index t (0 : Fin 2) * 32 + 1 * (y 0).val = (y 0).val; omega
  | ⟨1, _⟩ => show win1_3.index t (1 : Fin 2) * 576 + 1 * (y 1).val = (y 1).val; omega

/-- Window 4's block is its whole array at every point. -/
theorem index4 : ∀ t : Fin cfg1.N, win1_4.index t (0 : Fin 2) = 0 ∧ win1_4.index t (1 : Fin 2) = 0 :=
  (by decide +kernel : ∀ t : Fin grid1.N, _)
theorem blk4_eq (c : Dev nD) (t : Fin cfg1.N) : iblk1 V c 4 t = V c main_v3 := by
  obtain ⟨e0, e1⟩ := index4 t
  funext y
  show V c main_v3 (((cfg1.win 4).blk t).view.emb y) = V c main_v3 y
  refine congrArg (V c main_v3) (funext fun a => Fin.ext ?_)
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- Window 5's block is its whole array at every point. -/
theorem index5 : ∀ t : Fin cfg1.N, win1_5.index t (0 : Fin 2) = 0 ∧ win1_5.index t (1 : Fin 2) = 0 :=
  (by decide +kernel : ∀ t : Fin grid1.N, _)
theorem blk5_eq (c : Dev nD) (t : Fin cfg1.N) : iblk1 V c 5 t = V c main_arg9 := by
  obtain ⟨e0, e1⟩ := index5 t
  funext y
  show V c main_arg9 (((cfg1.win 5).blk t).view.emb y) = V c main_arg9 y
  refine congrArg (V c main_arg9) (funext fun a => Fin.ext ?_)
  match a with
  | ⟨0, _⟩ => show win1_5.index t (0 : Fin 2) * 32 + 1 * (y 0).val = (y 0).val; omega
  | ⟨1, _⟩ => show win1_5.index t (1 : Fin 2) * 32 + 1 * (y 1).val = (y 1).val; omega

/-- Window 6's block is its whole array at every point. -/
theorem index6 : ∀ t : Fin cfg1.N, win1_6.index t (0 : Fin 2) = 0 ∧ win1_6.index t (1 : Fin 2) = 0 :=
  (by decide +kernel : ∀ t : Fin grid1.N, _)
theorem blk6_eq (c : Dev nD) (t : Fin cfg1.N) : iblk1 V c 6 t = V c main_v4 := by
  obtain ⟨e0, e1⟩ := index6 t
  funext y
  show V c main_v4 (((cfg1.win 6).blk t).view.emb y) = V c main_v4 y
  refine congrArg (V c main_v4) (funext fun a => Fin.ext ?_)
  match a with
  | ⟨0, _⟩ => show win1_6.index t (0 : Fin 2) * 1 + 1 * (y 0).val = (y 0).val; omega
  | ⟨1, _⟩ => show win1_6.index t (1 : Fin 2) * 32 + 1 * (y 1).val = (y 1).val; omega

/-- Window 7's block is its whole array at every point. -/
theorem index7 : ∀ t : Fin cfg1.N, win1_7.index t (0 : Fin 2) = 0 ∧ win1_7.index t (1 : Fin 2) = 0 :=
  (by decide +kernel : ∀ t : Fin grid1.N, _)
theorem blk7_eq (c : Dev nD) (t : Fin cfg1.N) : iblk1 V c 7 t = V c main_arg11 := by
  obtain ⟨e0, e1⟩ := index7 t
  funext y
  show V c main_arg11 (((cfg1.win 7).blk t).view.emb y) = V c main_arg11 y
  refine congrArg (V c main_arg11) (funext fun a => Fin.ext ?_)
  match a with
  | ⟨0, _⟩ => show win1_7.index t (0 : Fin 2) * 1 + 1 * (y 0).val = (y 0).val; omega
  | ⟨1, _⟩ => show win1_7.index t (1 : Fin 2) * 32 + 1 * (y 1).val = (y 1).val; omega

/-- Window 8's block is its whole array at every point. -/
theorem index8 : ∀ t : Fin cfg1.N, win1_8.index t (0 : Fin 2) = 0 ∧ win1_8.index t (1 : Fin 2) = 0 :=
  (by decide +kernel : ∀ t : Fin grid1.N, _)
theorem blk8_eq (c : Dev nD) (t : Fin cfg1.N) : iblk1 V c 8 t = V c main_v5 := by
  obtain ⟨e0, e1⟩ := index8 t
  funext y
  show V c main_v5 (((cfg1.win 8).blk t).view.emb y) = V c main_v5 y
  refine congrArg (V c main_v5) (funext fun a => Fin.ext ?_)
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- Window 9's block is its whole array at every point. -/
theorem index9 : ∀ t : Fin cfg1.N, win1_9.index t (0 : Fin 2) = 0 ∧ win1_9.index t (1 : Fin 2) = 0 :=
  (by decide +kernel : ∀ t : Fin grid1.N, _)
theorem blk9_eq (c : Dev nD) (t : Fin cfg1.N) : iblk1 V c 9 t = V c main_arg13 := by
  obtain ⟨e0, e1⟩ := index9 t
  funext y
  show V c main_arg13 (((cfg1.win 9).blk t).view.emb y) = V c main_arg13 y
  refine congrArg (V c main_arg13) (funext fun a => Fin.ext ?_)
  match a with
  | ⟨0, _⟩ => show win1_9.index t (0 : Fin 2) * 144 + 1 * (y 0).val = (y 0).val; omega
  | ⟨1, _⟩ => show win1_9.index t (1 : Fin 2) * 576 + 1 * (y 1).val = (y 1).val; omega

/-- Window 10's block is its whole array at every point. -/
theorem index10 : ∀ t : Fin cfg1.N, win1_10.index t (0 : Fin 2) = 0 ∧ win1_10.index t (1 : Fin 2) = 0 :=
  (by decide +kernel : ∀ t : Fin grid1.N, _)
theorem blk10_eq (c : Dev nD) (t : Fin cfg1.N) : iblk1 V c 10 t = V c main_v6 := by
  obtain ⟨e0, e1⟩ := index10 t
  funext y
  show V c main_v6 (((cfg1.win 10).blk t).view.emb y) = V c main_v6 y
  refine congrArg (V c main_v6) (funext fun a => Fin.ext ?_)
  match a with
  | ⟨0, _⟩ => show win1_10.index t (0 : Fin 2) * 1 + 1 * (y 0).val = (y 0).val; omega
  | ⟨1, _⟩ => show win1_10.index t (1 : Fin 2) * 144 + 1 * (y 1).val = (y 1).val; omega

/-- Window 11's block is its whole array at every point. -/
theorem index11 : ∀ t : Fin cfg1.N, win1_11.index t (0 : Fin 2) = 0 ∧ win1_11.index t (1 : Fin 2) = 0 :=
  (by decide +kernel : ∀ t : Fin grid1.N, _)
theorem blk11_eq (c : Dev nD) (t : Fin cfg1.N) : iblk1 V c 11 t = V c main_arg15 := by
  obtain ⟨e0, e1⟩ := index11 t
  funext y
  show V c main_arg15 (((cfg1.win 11).blk t).view.emb y) = V c main_arg15 y
  refine congrArg (V c main_arg15) (funext fun a => Fin.ext ?_)
  match a with
  | ⟨0, _⟩ => show win1_11.index t (0 : Fin 2) * 4096 + 1 * (y 0).val = (y 0).val; omega
  | ⟨1, _⟩ => show win1_11.index t (1 : Fin 2) * 144 + 1 * (y 1).val = (y 1).val; omega

/-- Window 12's block is its whole array at every point. -/
theorem index12 : ∀ t : Fin cfg1.N, win1_12.index t (0 : Fin 2) = 0 ∧ win1_12.index t (1 : Fin 2) = 0 :=
  (by decide +kernel : ∀ t : Fin grid1.N, _)
theorem blk12_eq (c : Dev nD) (t : Fin cfg1.N) : iblk1 V c 12 t = V c main_v7 := by
  obtain ⟨e0, e1⟩ := index12 t
  funext y
  show V c main_v7 (((cfg1.win 12).blk t).view.emb y) = V c main_v7 y
  refine congrArg (V c main_v7) (funext fun a => Fin.ext ?_)
  match a with
  | ⟨0, _⟩ => show win1_12.index t (0 : Fin 2) * 1 + 1 * (y 0).val = (y 0).val; omega
  | ⟨1, _⟩ => show win1_12.index t (1 : Fin 2) * 4096 + 1 * (y 1).val = (y 1).val; omega

/-- Window 13's block is its whole array at every point. -/
theorem index13 : ∀ t : Fin cfg1.N, win1_13.index t (0 : Fin 2) = 0 ∧ win1_13.index t (1 : Fin 2) = 0 :=
  (by decide +kernel : ∀ t : Fin grid1.N, _)
theorem blk13_eq (c : Dev nD) (t : Fin cfg1.N) : iblk1 V c 13 t = V c main_arg17 := by
  obtain ⟨e0, e1⟩ := index13 t
  funext y
  show V c main_arg17 (((cfg1.win 13).blk t).view.emb y) = V c main_arg17 y
  refine congrArg (V c main_arg17) (funext fun a => Fin.ext ?_)
  match a with
  | ⟨0, _⟩ => show win1_13.index t (0 : Fin 2) * 1 + 1 * (y 0).val = (y 0).val; omega
  | ⟨1, _⟩ => show win1_13.index t (1 : Fin 2) * 576 + 1 * (y 1).val = (y 1).val; omega

/-- Window 14's block is its whole array at every point. -/
theorem index14 : ∀ t : Fin cfg1.N, win1_14.index t (0 : Fin 2) = 0 ∧ win1_14.index t (1 : Fin 2) = 0 :=
  (by decide +kernel : ∀ t : Fin grid1.N, _)
theorem blk14_eq (c : Dev nD) (t : Fin cfg1.N) : iblk1 V c 14 t = V c main_v8 := by
  obtain ⟨e0, e1⟩ := index14 t
  funext y
  show V c main_v8 (((cfg1.win 14).blk t).view.emb y) = V c main_v8 y
  refine congrArg (V c main_v8) (funext fun a => Fin.ext ?_)
  match a with
  | ⟨0, _⟩ => show win1_14.index t (0 : Fin 2) * 1 + 1 * (y 0).val = (y 0).val; omega
  | ⟨1, _⟩ => show win1_14.index t (1 : Fin 2) * 1 + 1 * (y 1).val = (y 1).val; omega

/-- Window 15's block is its whole array at every point. -/
theorem index15 : ∀ t : Fin cfg1.N, win1_15.index t (0 : Fin 2) = 0 ∧ win1_15.index t (1 : Fin 2) = 0 :=
  (by decide +kernel : ∀ t : Fin grid1.N, _)
theorem blk15_eq (c : Dev nD) (t : Fin cfg1.N) : iblk1 V c 15 t = V c main_arg19 := by
  obtain ⟨e0, e1⟩ := index15 t
  funext y
  show V c main_arg19 (((cfg1.win 15).blk t).view.emb y) = V c main_arg19 y
  refine congrArg (V c main_arg19) (funext fun a => Fin.ext ?_)
  match a with
  | ⟨0, _⟩ => show win1_15.index t (0 : Fin 2) * 4096 + 1 * (y 0).val = (y 0).val; omega
  | ⟨1, _⟩ => show win1_15.index t (1 : Fin 2) * 576 + 1 * (y 1).val = (y 1).val; omega

/-- Window 16's block is its whole array at every point. -/
theorem index16 : ∀ t : Fin cfg1.N, win1_16.index t (0 : Fin 2) = 0 ∧ win1_16.index t (1 : Fin 2) = 0 :=
  (by decide +kernel : ∀ t : Fin grid1.N, _)
theorem blk16_eq (c : Dev nD) (t : Fin cfg1.N) : iblk1 V c 16 t = V c main_v9 := by
  obtain ⟨e0, e1⟩ := index16 t
  funext y
  show V c main_v9 (((cfg1.win 16).blk t).view.emb y) = V c main_v9 y
  refine congrArg (V c main_v9) (funext fun a => Fin.ext ?_)
  match a with
  | ⟨0, _⟩ => show win1_16.index t (0 : Fin 2) * 1 + 1 * (y 0).val = (y 0).val; omega
  | ⟨1, _⟩ => show win1_16.index t (1 : Fin 2) * 4096 + 1 * (y 1).val = (y 1).val; omega

/-! ## The two results as whole arrays -/

/-- The blended base rows of the arrays the region finds. -/
def baseOf (c : Dev nD) : Fin 2048 → Fin 576 → EReal := fun i =>
  Spec.base (V c main_arg0 (ix2 i (0 : Fin 1))) (SpecArr.mat (V c main_v2_0) i) (SpecArr.mat (V c main_v2_1) i)

/-- The base row of row `p` of point `t`, over the point's blocks, is the base row `256 t + p` of the arrays. -/
theorem base_rows (c : Dev nD) (t : Fin cfg1.N) (p : Fin 256) :
    Spec.base (iblk1 V c 2 t (ix2 p (0 : Fin 1))) (SpecArr.mat (iblk1 V c 0 t) p) (SpecArr.mat (iblk1 V c 1 t) p)
      = baseOf V c (row t p) := by
  unfold baseOf
  rw [blk2_apply V c t p 0,
    show SpecArr.mat (iblk1 V c 0 t) p = SpecArr.mat (V c main_v2_0) (row t p) from funext fun k => blk0_apply V c t p k,
    show SpecArr.mat (iblk1 V c 1 t) p = SpecArr.mat (V c main_v2_1) (row t p) from funext fun k => blk1_apply V c t p k]

/-- The value result: the value head of every base row. -/
def valArr (c : Dev nD) : SpecArr.A2 2048 1 :=
  SpecArr.of2 fun i _ => Spec.valHead (baseOf V c i) (SpecArr.mat (V c main_arg7)) (SpecArr.mat (V c main_v3) 0)
    (SpecArr.mat (V c main_arg9)) (SpecArr.mat (V c main_v4) 0) (SpecArr.mat (V c main_arg11) 0)
    (V c main_v5 (ix2 (0 : Fin 1) (0 : Fin 1))) (SpecArr.mat (V c main_arg17) 0) (V c main_v8 (ix2 (0 : Fin 1) (0 : Fin 1)))

/-- The action result: the action head of every base row. -/
def actArr (c : Dev nD) : SpecArr.A2 2048 4096 :=
  SpecArr.of2 fun i j => Spec.actHead (baseOf V c i) (SpecArr.mat (V c main_arg13)) (SpecArr.mat (V c main_v6) 0)
    (SpecArr.mat (V c main_arg15)) (SpecArr.mat (V c main_v7) 0) (SpecArr.mat (V c main_arg19)) (SpecArr.mat (V c main_v9) 0) j

/-! ## What each point writes back -/

/-- Point `t` writes back block `t` of the value result. -/
theorem value_written_back (c : Dev nD) (t : Fin cfg1.N) :
    (dat1 V c).flushed 17 t = ((cfg1.win 17).blk t).view.read (Elt Ideal) (valArr V c) := by
  obtain ⟨-, -, -, -, -, -, e0, e1, -⟩ := rows_index t
  show (cfg1.win 17).cut (grid1.coords t) ((dat1 V c).after 17 t) = _
  rw [after1_17, outAt1_17_eq]
  funext y
  obtain ⟨p, u, rfl⟩ : ∃ (p : Fin 256) (u : Fin 1), y = ix2 p u := ⟨_, _, eq_ix2 y⟩
  have hemb : ((cfg1.win 17).blk t).view.emb (ix2 p u) = ix2 (row t p) (0 : Fin 1) := by
    funext a; apply Fin.ext
    match a with
    | ⟨0, _⟩ => show win1_17.index t (0 : Fin 2) * 256 + 1 * p.val = 256 * t.val + p.val; omega
    | ⟨1, _⟩ => show win1_17.index t (1 : Fin 2) * 1 + 1 * u.val = 0; omega
  show k1_pay4 (F := Ideal) _ _ _ _ _ _ (ix2 p u) = valArr V c (((cfg1.win 17).blk t).view.emb (ix2 p u))
  rw [hemb, Cert.Pay.k1_pay4_valHead, base_rows, blk3_eq, blk4_eq, blk5_eq, blk6_eq, blk7_eq, blk8_eq, blk13_eq, blk14_eq]
  rfl

/-- Point `t` writes back block `t` of the action result. -/
theorem action_written_back (c : Dev nD) (t : Fin cfg1.N) :
    (dat1 V c).flushed 18 t = ((cfg1.win 18).blk t).view.read (Elt Ideal) (actArr V c) := by
  obtain ⟨-, -, -, -, -, -, -, -, e0, e1⟩ := rows_index t
  show (cfg1.win 18).cut (grid1.coords t) ((dat1 V c).after 18 t) = _
  rw [after1_18, outAt1_18_eq]
  funext y
  obtain ⟨p, j, rfl⟩ : ∃ (p : Fin 256) (j : Fin 4096), y = ix2 p j := ⟨_, _, eq_ix2 y⟩
  have hemb : ((cfg1.win 18).blk t).view.emb (ix2 p j) = ix2 (row t p) j := by
    funext a; apply Fin.ext
    match a with
    | ⟨0, _⟩ => show win1_18.index t (0 : Fin 2) * 256 + 1 * p.val = 256 * t.val + p.val; omega
    | ⟨1, _⟩ => show win1_18.index t (1 : Fin 2) * 4096 + 1 * j.val = j.val; omega
  show k1_pay1 (F := Ideal) _ _ _ _ (ix2 p j) = actArr V c (((cfg1.win 18).blk t).view.emb (ix2 p j))
  rw [hemb, Cert.Pay.k1_pay1_actHead,
    show SpecArr.mat (k1_pay2 (F := Ideal) (iblk1 V c 2 t) (iblk1 V c 0 t) (iblk1 V c 1 t)) p = baseOf V c (row t p) from
      (funext fun q => Cert.Pay.k1_pay2_apply _ _ _ p q).trans (base_rows V c t p),
    blk9_eq, blk10_eq, blk11_eq, blk12_eq, blk15_eq, blk16_eq]
  rfl

/-! ## The blocks tile the arrays -/

/-- An index of the value array is in point `t`'s block iff each coordinate is in the block's range. -/
theorem mem_value_block (t : Fin cfg1.N) (i : S2048x1.Idx) :
    i ∈ ((cfg1.win 17).blk t).view.set ↔ ∀ a : Fin 2, win1_17.index t a * S256x1.size a ≤ (i a).val ∧ (i a).val < win1_17.index t a * S256x1.size a + S256x1.size a := by
  show i ∈ ((View.whole main_v10_0).slice (win1_17.rect t)).set ↔ _
  rw [View.set_slice_whole, Rect.mem_set_unit]
  exact Iff.rfl

/-- An index of the action array is in point `t`'s block iff each coordinate is in the block's range. -/
theorem mem_action_block (t : Fin cfg1.N) (i : S2048x4096.Idx) :
    i ∈ ((cfg1.win 18).blk t).view.set ↔ ∀ a : Fin 2, win1_18.index t a * S256x4096.size a ≤ (i a).val ∧ (i a).val < win1_18.index t a * S256x4096.size a + S256x4096.size a := by
  show i ∈ ((View.whole main_v10_1).slice (win1_18.rect t)).set ↔ _
  rw [View.set_slice_whole, Rect.mem_set_unit]
  exact Iff.rfl

/-- Row `r` of the value array is written back by point `r / 256`. -/
theorem value_rows_covered (i : S2048x1.Idx) : ∃ t : Fin cfg1.N, (cfg1.win 17).flush t = true ∧ i ∈ ((cfg1.win 17).blk t).view.set := by
  have hi0 : (i 0).val < 2048 := (i 0).isLt
  have hi1 : (i 1).val < 1 := (i 1).isLt
  let t : Fin cfg1.N := ⟨(i 0).val / 256, lt_of_lt_of_eq (by omega) N_1.symm⟩
  obtain ⟨-, -, -, -, -, -, e0, e1, -⟩ := rows_index t
  have ht : t.val = (i 0).val / 256 := rfl
  refine ⟨t, flush1_17 t, ?_⟩
  rw [mem_value_block]
  intro a
  match a with
  | ⟨0, _⟩ => show win1_17.index t (0 : Fin 2) * 256 ≤ (i 0).val ∧ (i 0).val < win1_17.index t (0 : Fin 2) * 256 + 256; omega
  | ⟨1, _⟩ => show win1_17.index t (1 : Fin 2) * 1 ≤ (i 1).val ∧ (i 1).val < win1_17.index t (1 : Fin 2) * 1 + 1; omega

/-- Row `r` of the action array is written back by point `r / 256`. -/
theorem action_rows_covered (i : S2048x4096.Idx) : ∃ t : Fin cfg1.N, (cfg1.win 18).flush t = true ∧ i ∈ ((cfg1.win 18).blk t).view.set := by
  have hi0 : (i 0).val < 2048 := (i 0).isLt
  have hi1 : (i 1).val < 4096 := (i 1).isLt
  let t : Fin cfg1.N := ⟨(i 0).val / 256, lt_of_lt_of_eq (by omega) N_1.symm⟩
  obtain ⟨-, -, -, -, -, -, -, -, e0, e1⟩ := rows_index t
  have ht : t.val = (i 0).val / 256 := rfl
  refine ⟨t, flush1_18 t, ?_⟩
  rw [mem_action_block]
  intro a
  match a with
  | ⟨0, _⟩ => show win1_18.index t (0 : Fin 2) * 256 ≤ (i 0).val ∧ (i 0).val < win1_18.index t (0 : Fin 2) * 256 + 256; omega
  | ⟨1, _⟩ => show win1_18.index t (1 : Fin 2) * 4096 ≤ (i 1).val ∧ (i 1).val < win1_18.index t (1 : Fin 2) * 4096 + 4096; omega

/-! ## The arrays after the region -/

/-- THE VALUE ARRAY after the region: the value head of every base row. -/
theorem final17 (c : Dev nD) : (dat1 V c).arrAt 17 cfg1.N
    = SpecArr.of2 fun i _ => Spec.valHead (baseOf V c i) (SpecArr.mat (V c main_arg7)) (SpecArr.mat (V c main_v3) 0)
        (SpecArr.mat (V c main_arg9)) (SpecArr.mat (V c main_v4) 0) (SpecArr.mat (V c main_arg11) 0)
        (V c main_v5 (ix2 (0 : Fin 1) (0 : Fin 1))) (SpecArr.mat (V c main_arg17) 0) (V c main_v8 (ix2 (0 : Fin 1) (0 : Fin 1))) :=
  (dat1 V c).arrAt_eq_of_cover 17 (valArr V c) (fun t _ => value_written_back V c t) (fun i => value_rows_covered i)

/-- THE ACTION ARRAY after the region: the action head of every base row. -/
theorem final18 (c : Dev nD) : (dat1 V c).arrAt 18 cfg1.N
    = SpecArr.of2 fun i j => Spec.actHead (baseOf V c i) (SpecArr.mat (V c main_arg13)) (SpecArr.mat (V c main_v6) 0)
        (SpecArr.mat (V c main_arg15)) (SpecArr.mat (V c main_v7) 0) (SpecArr.mat (V c main_arg19)) (SpecArr.mat (V c main_v9) 0) j :=
  (dat1 V c).arrAt_eq_of_cover 18 (actArr V c) (fun t _ => action_written_back V c t) (fun i => action_rows_covered i)

end Cert.KernelIdeal.V1

end
-- ==== Proof.KI.KernelSpec.lean ====
/-
  The kernel program's two results as the shared specification's functions of the launched argument arrays: the
  second region's outputs are the specification's heads of its base rows; its base rows are the blend of the first
  region's two outputs, which are the two affine accumulators; and every weight, bias and input array the regions read
  is the launched one (a bias through its re-layout as a one-row matrix). The action result is the re-layout of the
  head's array.
-/
import proofs.«171732_j7748121002128_2_alg».proof.Proof.KI.Folds
import proofs.«171732_j7748121002128_2_alg».proof.Proof.KI.V0
import proofs.«171732_j7748121002128_2_alg».proof.Proof.KI.V1
import proofs.«171732_j7748121002128_2_alg».proof.Proof.SpecArr

set_option maxRecDepth 16384

noncomputable section

namespace Cert.KernelIdeal.KernelSpec

open Cert Cert.KernelIdeal Cert.KernelIdeal.Gen Cert.KernelIdeal.Run Cert.KernelIdeal.Folds Cert.SpecArr
open Idealize.ShloMosaic Idealize.ShloMosaic.TcCoe Idealize.ShloMosaic.ValueIdx Idealize.SL.Sem

variable (m : (ℓ : Loc nD τ sig) → Buf (Elt Ideal) ℓ)

/-! ## The base rows -/

/-- The first region's first output, read by rows at the second region's entry, is the first accumulator. -/
theorem acc6 (c : Dev nD) (i : Fin 2048) :
    mat (Run.U3 m c main_v2_0) i = accum (m ((c : Thread nD τ).loc main_arg1)) (m ((c : Thread nD τ).loc main_arg3)) (m ((c : Thread nD τ).loc main_arg4)) i := by
  rw [U3_v2_0, V0.final6]
  funext j
  show Spec.lin (mat (Run.U1 m c main_arg1) i) (mat (Run.U1 m c main_arg3) j) (Run.U1 m c main_v0 (ix2 (0 : Fin 1) j)) = _
  rw [U1_arg1, U1_arg3, U1_v0]
  rfl

/-- Its second output is the second accumulator. -/
theorem acc7 (c : Dev nD) (i : Fin 2048) :
    mat (Run.U3 m c main_v2_1) i = accum (m ((c : Thread nD τ).loc main_arg2)) (m ((c : Thread nD τ).loc main_arg5)) (m ((c : Thread nD τ).loc main_arg6)) i := by
  rw [U3_v2_1, V0.final7]
  funext j
  show Spec.lin (mat (Run.U1 m c main_arg2) i) (mat (Run.U1 m c main_arg5) j) (Run.U1 m c main_v1 (ix2 (0 : Fin 1) j)) = _
  rw [U1_arg2, U1_arg5, U1_v1]
  rfl

/-- The second region's base row is the specification's, of the launched arrays. -/
theorem base_eq (c : Dev nD) (i : Fin 2048) :
    V1.baseOf (Run.U3 m) c i = baseRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  unfold V1.baseOf baseRows
  rw [U3_arg0, acc6, acc7]

/-! ## The re-laid biases by rows -/

theorem row_v3 (c : Dev nD) : mat (Run.U3 m c main_v3) (0 : Fin 1) = vec (m ((c : Thread nD τ).loc main_arg8)) :=
  funext fun j => U3_v3 m c j
theorem row_v4 (c : Dev nD) : mat (Run.U3 m c main_v4) (0 : Fin 1) = vec (m ((c : Thread nD τ).loc main_arg10)) :=
  funext fun j => U3_v4 m c j
theorem row_v6 (c : Dev nD) : mat (Run.U3 m c main_v6) (0 : Fin 1) = vec (m ((c : Thread nD τ).loc main_arg14)) :=
  funext fun j => U3_v6 m c j
theorem row_v7 (c : Dev nD) : mat (Run.U3 m c main_v7) (0 : Fin 1) = vec (m ((c : Thread nD τ).loc main_arg16)) :=
  funext fun j => U3_v7 m c j
theorem row_v9 (c : Dev nD) : mat (Run.U3 m c main_v9) (0 : Fin 1) = vec (m ((c : Thread nD τ).loc main_arg20)) :=
  funext fun j => U3_v9 m c j

/-! ## The two results -/

/-- The value result is the specification's value head of every base row. -/
theorem val_eq (c : Dev nD) :
    Run.W5 m c (Proc.devRef .tc main_v10_0)
      = valOf (baseRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) := by
  rw [W5_v10_0, V1.final17]
  unfold valOf
  refine congrArg (of2 (a := 2048) (b := 1)) (funext fun i => funext fun _ => ?_)
  rw [base_eq, U3_arg7, U3_arg9, U3_arg11, U3_arg17, row_v3, row_v4, U3_v5, U3_v8]
  rfl

/-- The action result is the re-layout of the specification's action head of every base row. -/
theorem act_eq (c : Dev nD) :
    Run.W5 m c (Proc.devRef .tc main_v11)
      = shapeCast S2048x64x64 (actOf (baseRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20)))
          shapeCasts_S2048x4096_S2048x64x64 := by
  rw [W5_v11]
  refine congrArg (fun x : S2048x4096.Idx → Elt Ideal .f32 => shapeCast S2048x64x64 x shapeCasts_S2048x4096_S2048x64x64) ?_
  rw [V1.final18]
  unfold actOf
  refine congrArg (of2 (a := 2048) (b := 4096)) (funext fun i => funext fun j => ?_)
  rw [base_eq, U3_arg13, U3_arg15, U3_arg19, row_v6, row_v7, row_v9]

end Cert.KernelIdeal.KernelSpec

end
-- ==== Proof.Ref.Base.lean ====
/-
  The reference's first stages at an index: the two affine accumulators, their two side-by-side joins, and the blended
  base rows, each read as the specification's row function.
-/
import proofs.«171732_j7748121002128_2_alg».proof.Proof.Gen.ReferenceIdeal.Read
import proofs.«171732_j7748121002128_2_alg».proof.Proof.SpecArr

noncomputable section

namespace Cert.RefSpec

open Cert.ReferenceIdeal Cert.ReferenceIdeal.Gen Cert.ReferenceIdeal.Read Idealize.ShloMosaic Idealize.ShloMosaic.ValueIdx Cert.SpecArr

variable (x0 : (⟨S2048x1, .f32⟩ : BufTy).Contents (Elt Ideal))
variable (x1 : (⟨S2048x40960, .f32⟩ : BufTy).Contents (Elt Ideal))
variable (x2 : (⟨S2048x40960, .f32⟩ : BufTy).Contents (Elt Ideal))
variable (x3 : (⟨S288x40960, .f32⟩ : BufTy).Contents (Elt Ideal))
variable (x4 : (⟨S288, .f32⟩ : BufTy).Contents (Elt Ideal))
variable (x5 : (⟨S288x40960, .f32⟩ : BufTy).Contents (Elt Ideal))
variable (x6 : (⟨S288, .f32⟩ : BufTy).Contents (Elt Ideal))
variable (x7 : (⟨S32x576, .f32⟩ : BufTy).Contents (Elt Ideal))
variable (x8 : (⟨S32, .f32⟩ : BufTy).Contents (Elt Ideal))
variable (x9 : (⟨S32x32, .f32⟩ : BufTy).Contents (Elt Ideal))
variable (x10 : (⟨S32, .f32⟩ : BufTy).Contents (Elt Ideal))
variable (x11 : (⟨S1x32, .f32⟩ : BufTy).Contents (Elt Ideal))
variable (x12 : (⟨S1, .f32⟩ : BufTy).Contents (Elt Ideal))
variable (x13 : (⟨S144x576, .f32⟩ : BufTy).Contents (Elt Ideal))
variable (x14 : (⟨S144, .f32⟩ : BufTy).Contents (Elt Ideal))
variable (x15 : (⟨S4096x144, .f32⟩ : BufTy).Contents (Elt Ideal))
variable (x16 : (⟨S4096, .f32⟩ : BufTy).Contents (Elt Ideal))
variable (x17 : (⟨S1x576, .f32⟩ : BufTy).Contents (Elt Ideal))
variable (x18 : (⟨S1, .f32⟩ : BufTy).Contents (Elt Ideal))
variable (x19 : (⟨S4096x576, .f32⟩ : BufTy).Contents (Elt Ideal))
variable (x20 : (⟨S4096, .f32⟩ : BufTy).Contents (Elt Ideal))

/-! ## Index equations: the stage's operand indices at `(i, j)` are the expected coordinate pairs. -/

theorem lidx1 (i : Fin 2048) (j : Fin 288) (k : Fin 40960) : lidx_main_v1 (ix2 i j) k = ix2 i k :=
  funext fun a => match a with
    | ⟨0, _⟩ => rfl
    | ⟨1, _⟩ => rfl
theorem ridx1 (i : Fin 2048) (j : Fin 288) (k : Fin 40960) : ridx_main_v1 (ix2 i j) k = ix2 k j :=
  funext fun a => match a with
    | ⟨0, _⟩ => rfl
    | ⟨1, _⟩ => rfl
theorem idx0 (k : Fin 40960) (j : Fin 288) : idx_main_v0 (ix2 k j) = ix2 j k :=
  funext fun a => match a with
    | ⟨0, _⟩ => rfl
    | ⟨1, _⟩ => rfl
theorem idx3 (i : Fin 2048) (j : Fin 288) : idx_main_v3 (ix2 i j) = ix2 (0 : Fin 1) j :=
  funext fun a => match a with
    | ⟨0, _⟩ => rfl
    | ⟨1, _⟩ => rfl
theorem idx2 (u : Fin 1) (j : Fin 288) : idx_main_v2 (ix2 u j) = ix1 j :=
  funext fun a => match a with
    | ⟨0, _⟩ => rfl
theorem lidx6 (i : Fin 2048) (j : Fin 288) (k : Fin 40960) : lidx_main_v6 (ix2 i j) k = ix2 i k :=
  funext fun a => match a with
    | ⟨0, _⟩ => rfl
    | ⟨1, _⟩ => rfl
theorem ridx6 (i : Fin 2048) (j : Fin 288) (k : Fin 40960) : ridx_main_v6 (ix2 i j) k = ix2 k j :=
  funext fun a => match a with
    | ⟨0, _⟩ => rfl
    | ⟨1, _⟩ => rfl
theorem idx5 (k : Fin 40960) (j : Fin 288) : idx_main_v5 (ix2 k j) = ix2 j k :=
  funext fun a => match a with
    | ⟨0, _⟩ => rfl
    | ⟨1, _⟩ => rfl
theorem idx8 (i : Fin 2048) (j : Fin 288) : idx_main_v8 (ix2 i j) = ix2 (0 : Fin 1) j :=
  funext fun a => match a with
    | ⟨0, _⟩ => rfl
    | ⟨1, _⟩ => rfl
theorem idx7 (u : Fin 1) (j : Fin 288) : idx_main_v7 (ix2 u j) = ix1 j :=
  funext fun a => match a with
    | ⟨0, _⟩ => rfl
theorem idx12 (i : Fin 2048) (j : Fin 576) : idx_main_v12 (ix2 i j) = ix2 i (0 : Fin 1) :=
  funext fun a => match a with
    | ⟨0, _⟩ => rfl
    | ⟨1, _⟩ => rfl
theorem idx16 (i : Fin 2048) (j : Fin 576) : idx_main_v16 (ix2 i j) = ix2 i (0 : Fin 1) :=
  funext fun a => match a with
    | ⟨0, _⟩ => rfl
    | ⟨1, _⟩ => rfl

/-! ## The accumulators -/

/-- The first accumulator at `(i, j)`: the affine read-out of row `i` against weight row `j`. -/
theorem v4_ix (i : Fin 2048) (j : Fin 288) :
    val_main_v4 (F := Ideal) x1 x3 x4 (ix2 i j) = accum x1 x3 x4 i j := by
  rw [val_main_v4_apply, val_main_v1_apply, val_main_v3_apply, val_main_v2_apply]
  simp only [val_main_v0_apply, lidx1, ridx1, idx0, idx3, idx2]
  rfl

/-- The second accumulator likewise. -/
theorem v9_ix (i : Fin 2048) (j : Fin 288) :
    val_main_v9 (F := Ideal) x2 x5 x6 (ix2 i j) = accum x2 x5 x6 i j := by
  rw [val_main_v9_apply, val_main_v6_apply, val_main_v8_apply, val_main_v7_apply]
  simp only [val_main_v5_apply, lidx6, ridx6, idx5, idx8, idx7]
  rfl

/-! ## The two joins -/

/-- Two `[2048, 288]` arrays joined along the second axis, at `(i, j)`: the join of the two rows `i` at `j`. -/
theorem cat_ix (A B : (⟨S2048x288, .f32⟩ : BufTy).Contents (Elt Ideal)) (i : Fin 2048) (j : Fin 576) :
    concatenate S2048x576 1 [⟨S2048x288, A⟩, ⟨S2048x288, B⟩] concatenates_S2048x288_S2048x288_S2048x576_d1 (ix2 i j)
      = Spec.cat (fun k => A (ix2 i k)) (fun k => B (ix2 i k)) j := by
  unfold Spec.cat
  by_cases h : j.val < 288
  · rw [dif_pos h]
    exact concatenate_pair_apply_left 1 A B concatenates_S2048x288_S2048x288_S2048x576_d1 (ix2 i j) rfl (ix2 i ⟨j.val, h⟩)
      (fun b => match b with
        | ⟨0, _⟩ => rfl
        | ⟨1, _⟩ => rfl)
  · rw [dif_neg h]
    exact concatenate_pair_apply_right 1 A B concatenates_S2048x288_S2048x288_S2048x576_d1 (ix2 i j) rfl rfl
      (ix2 i ⟨j.val - 288, by have := j.isLt; omega⟩)
      (fun b hb => match b, hb with
        | ⟨0, _⟩, _ => rfl
        | ⟨1, _⟩, hb => absurd rfl hb)
      (by show (j.val - 288) + 288 = j.val; omega)

/-- The first join: the first accumulator's row beside the second's. -/
theorem v10_ix (i : Fin 2048) (j : Fin 576) :
    val_main_v10 (F := Ideal) x1 x2 x3 x4 x5 x6 (ix2 i j) = Spec.cat (accum x1 x3 x4 i) (accum x2 x5 x6 i) j := by
  unfold val_main_v10
  rw [cat_ix]
  simp only [v4_ix, v9_ix]

/-- The second join: the second accumulator's row beside the first's. -/
theorem v11_ix (i : Fin 2048) (j : Fin 576) :
    val_main_v11 (F := Ideal) x1 x2 x3 x4 x5 x6 (ix2 i j) = Spec.cat (accum x2 x5 x6 i) (accum x1 x3 x4 i) j := by
  unfold val_main_v11
  rw [cat_ix]
  simp only [v4_ix, v9_ix]

/-! ## The base rows -/

/-- The word of the literal one is the extended real one. -/
theorem ofBits_one_f32 : Ideal.ofBits .f32 0x3F800000#32 = 1 := by
  simp [Ideal.ofBits, Ideal.ieee, -EReal.coe_mul]; norm_num

/-- The blended base at `(i, j)`. -/
theorem v19_ix (i : Fin 2048) (j : Fin 576) :
    val_main_v19 (F := Ideal) x0 x1 x2 x3 x4 x5 x6 (ix2 i j) = baseRows x0 x1 x2 x3 x4 x5 x6 i j := by
  rw [val_main_v19_apply, val_main_v18_apply, val_main_v13_apply, val_main_v17_apply, val_main_v12_apply,
    val_main_v16_apply, val_main_v15_apply, val_main_v14_apply, val_main_cst_apply, val_main_call0_v0_apply,
    val_main_call0_cst_apply, v10_ix, v11_ix, idx12, idx16]
  show max (x0 (ix2 i 0) * _ + (Ideal.ofBits .f32 0x3F800000#32 - x0 (ix2 i 0)) * _) (Ideal.ofBits .f32 0x00000000#32) = _
  rw [ofBits_one_f32, Ideal.ofBits_zero_f32]
  rfl

end Cert.RefSpec

end
-- ==== Proof.Ref.Val.lean ====
/-
  The reference's value head at an index: two hidden affine layers with their positive parts, the affine read-out, the
  affine skip from the base rows, and their sum, each read as the specification's row function of the base row.
-/
import proofs.«171732_j7748121002128_2_alg».proof.Proof.Ref.Base

noncomputable section

namespace Cert.RefSpec

open Cert.ReferenceIdeal Cert.ReferenceIdeal.Gen Cert.ReferenceIdeal.Read Idealize.ShloMosaic Idealize.ShloMosaic.ValueIdx Cert.SpecArr

variable (x0 : (⟨S2048x1, .f32⟩ : BufTy).Contents (Elt Ideal))
variable (x1 : (⟨S2048x40960, .f32⟩ : BufTy).Contents (Elt Ideal))
variable (x2 : (⟨S2048x40960, .f32⟩ : BufTy).Contents (Elt Ideal))
variable (x3 : (⟨S288x40960, .f32⟩ : BufTy).Contents (Elt Ideal))
variable (x4 : (⟨S288, .f32⟩ : BufTy).Contents (Elt Ideal))
variable (x5 : (⟨S288x40960, .f32⟩ : BufTy).Contents (Elt Ideal))
variable (x6 : (⟨S288, .f32⟩ : BufTy).Contents (Elt Ideal))
variable (x7 : (⟨S32x576, .f32⟩ : BufTy).Contents (Elt Ideal))
variable (x8 : (⟨S32, .f32⟩ : BufTy).Contents (Elt Ideal))
variable (x9 : (⟨S32x32, .f32⟩ : BufTy).Contents (Elt Ideal))
variable (x10 : (⟨S32, .f32⟩ : BufTy).Contents (Elt Ideal))
variable (x11 : (⟨S1x32, .f32⟩ : BufTy).Contents (Elt Ideal))
variable (x12 : (⟨S1, .f32⟩ : BufTy).Contents (Elt Ideal))
variable (x13 : (⟨S144x576, .f32⟩ : BufTy).Contents (Elt Ideal))
variable (x14 : (⟨S144, .f32⟩ : BufTy).Contents (Elt Ideal))
variable (x15 : (⟨S4096x144, .f32⟩ : BufTy).Contents (Elt Ideal))
variable (x16 : (⟨S4096, .f32⟩ : BufTy).Contents (Elt Ideal))
variable (x17 : (⟨S1x576, .f32⟩ : BufTy).Contents (Elt Ideal))
variable (x18 : (⟨S1, .f32⟩ : BufTy).Contents (Elt Ideal))
variable (x19 : (⟨S4096x576, .f32⟩ : BufTy).Contents (Elt Ideal))
variable (x20 : (⟨S4096, .f32⟩ : BufTy).Contents (Elt Ideal))

/-! ## Index equations -/

theorem lidx21 (i : Fin 2048) (j : Fin 32) (k : Fin 576) : lidx_main_v21 (ix2 i j) k = ix2 i k :=
  funext fun a => match a with
    | ⟨0, _⟩ => rfl
    | ⟨1, _⟩ => rfl
theorem ridx21 (i : Fin 2048) (j : Fin 32) (k : Fin 576) : ridx_main_v21 (ix2 i j) k = ix2 k j :=
  funext fun a => match a with
    | ⟨0, _⟩ => rfl
    | ⟨1, _⟩ => rfl
theorem idx20 (k : Fin 576) (j : Fin 32) : idx_main_v20 (ix2 k j) = ix2 j k :=
  funext fun a => match a with
    | ⟨0, _⟩ => rfl
    | ⟨1, _⟩ => rfl
theorem idx23 (i : Fin 2048) (j : Fin 32) : idx_main_v23 (ix2 i j) = ix2 (0 : Fin 1) j :=
  funext fun a => match a with
    | ⟨0, _⟩ => rfl
    | ⟨1, _⟩ => rfl
theorem idx22 (u : Fin 1) (j : Fin 32) : idx_main_v22 (ix2 u j) = ix1 j :=
  funext fun a => match a with
    | ⟨0, _⟩ => rfl

theorem lidx27 (i : Fin 2048) (j : Fin 32) (k : Fin 32) : lidx_main_v27 (ix2 i j) k = ix2 i k :=
  funext fun a => match a with
    | ⟨0, _⟩ => rfl
    | ⟨1, _⟩ => rfl
theorem ridx27 (i : Fin 2048) (j : Fin 32) (k : Fin 32) : ridx_main_v27 (ix2 i j) k = ix2 k j :=
  funext fun a => match a with
    | ⟨0, _⟩ => rfl
    | ⟨1, _⟩ => rfl
theorem idx26 (k : Fin 32) (j : Fin 32) : idx_main_v26 (ix2 k j) = ix2 j k :=
  funext fun a => match a with
    | ⟨0, _⟩ => rfl
    | ⟨1, _⟩ => rfl
theorem idx29 (i : Fin 2048) (j : Fin 32) : idx_main_v29 (ix2 i j) = ix2 (0 : Fin 1) j :=
  funext fun a => match a with
    | ⟨0, _⟩ => rfl
    | ⟨1, _⟩ => rfl
theorem idx28 (u : Fin 1) (j : Fin 32) : idx_main_v28 (ix2 u j) = ix1 j :=
  funext fun a => match a with
    | ⟨0, _⟩ => rfl

theorem lidx33 (i : Fin 2048) (k : Fin 32) : lidx_main_v33 (ix2 i (0 : Fin 1)) k = ix2 i k :=
  funext fun a => match a with
    | ⟨0, _⟩ => rfl
    | ⟨1, _⟩ => rfl
theorem ridx33 (i : Fin 2048) (k : Fin 32) : ridx_main_v33 (ix2 i (0 : Fin 1)) k = ix2 k (0 : Fin 1) :=
  funext fun a => match a with
    | ⟨0, _⟩ => rfl
    | ⟨1, _⟩ => rfl
theorem idx32 (k : Fin 32) : idx_main_v32 (ix2 k (0 : Fin 1)) = ix2 (0 : Fin 1) k :=
  funext fun a => match a with
    | ⟨0, _⟩ => rfl
    | ⟨1, _⟩ => rfl
theorem idx35 (i : Fin 2048) : idx_main_v35 (ix2 i (0 : Fin 1)) = ix2 (0 : Fin 1) (0 : Fin 1) :=
  funext fun a => match a with
    | ⟨0, _⟩ => rfl
    | ⟨1, _⟩ => rfl
theorem idx34 (u : Fin 1) : idx_main_v34 (ix2 u (0 : Fin 1)) = ix1 (0 : Fin 1) :=
  funext fun a => match a with
    | ⟨0, _⟩ => rfl

theorem lidx38 (i : Fin 2048) (k : Fin 576) : lidx_main_v38 (ix2 i (0 : Fin 1)) k = ix2 i k :=
  funext fun a => match a with
    | ⟨0, _⟩ => rfl
    | ⟨1, _⟩ => rfl
theorem ridx38 (i : Fin 2048) (k : Fin 576) : ridx_main_v38 (ix2 i (0 : Fin 1)) k = ix2 k (0 : Fin 1) :=
  funext fun a => match a with
    | ⟨0, _⟩ => rfl
    | ⟨1, _⟩ => rfl
theorem idx37 (k : Fin 576) : idx_main_v37 (ix2 k (0 : Fin 1)) = ix2 (0 : Fin 1) k :=
  funext fun a => match a with
    | ⟨0, _⟩ => rfl
    | ⟨1, _⟩ => rfl
theorem idx40 (i : Fin 2048) : idx_main_v40 (ix2 i (0 : Fin 1)) = ix2 (0 : Fin 1) (0 : Fin 1) :=
  funext fun a => match a with
    | ⟨0, _⟩ => rfl
    | ⟨1, _⟩ => rfl
theorem idx39 (u : Fin 1) : idx_main_v39 (ix2 u (0 : Fin 1)) = ix1 (0 : Fin 1) :=
  funext fun a => match a with
    | ⟨0, _⟩ => rfl

/-! ## The stages -/

/-- The first hidden layer before its positive part. -/
theorem v24_ix (i : Fin 2048) (j : Fin 32) :
    val_main_v24 (F := Ideal) x0 x1 x2 x3 x4 x5 x6 x7 x8 (ix2 i j) = Spec.layer (baseRows x0 x1 x2 x3 x4 x5 x6 i) (mat x7) (vec x8) j := by
  rw [val_main_v24_apply, val_main_v21_apply, val_main_v23_apply, val_main_v22_apply]
  simp only [val_main_v20_apply, lidx21, ridx21, idx20, idx23, idx22, v19_ix]
  rfl

/-- The first hidden layer. -/
theorem v25_ix (i : Fin 2048) (j : Fin 32) :
    val_main_v25 (F := Ideal) x0 x1 x2 x3 x4 x5 x6 x7 x8 (ix2 i j) = Spec.reluLayer (baseRows x0 x1 x2 x3 x4 x5 x6 i) (mat x7) (vec x8) j := by
  rw [val_main_v25_apply, v24_ix, val_main_call1_v0_apply, val_main_call1_cst_apply]
  show max _ (Ideal.ofBits .f32 0x00000000#32) = _
  rw [Ideal.ofBits_zero_f32]
  rfl

/-- The second hidden layer before its positive part. -/
theorem v30_ix (i : Fin 2048) (j : Fin 32) :
    val_main_v30 (F := Ideal) x0 x1 x2 x3 x4 x5 x6 x7 x8 x9 x10 (ix2 i j)
      = Spec.layer (Spec.reluLayer (baseRows x0 x1 x2 x3 x4 x5 x6 i) (mat x7) (vec x8)) (mat x9) (vec x10) j := by
  rw [val_main_v30_apply, val_main_v27_apply, val_main_v29_apply, val_main_v28_apply]
  simp only [val_main_v26_apply, lidx27, ridx27, idx26, idx29, idx28, v25_ix]
  rfl

/-- The second hidden layer. -/
theorem v31_ix (i : Fin 2048) (j : Fin 32) :
    val_main_v31 (F := Ideal) x0 x1 x2 x3 x4 x5 x6 x7 x8 x9 x10 (ix2 i j)
      = Spec.reluLayer (Spec.reluLayer (baseRows x0 x1 x2 x3 x4 x5 x6 i) (mat x7) (vec x8)) (mat x9) (vec x10) j := by
  rw [val_main_v31_apply, v30_ix, val_main_call2_v0_apply, val_main_call2_cst_apply]
  show max _ (Ideal.ofBits .f32 0x00000000#32) = _
  rw [Ideal.ofBits_zero_f32]
  rfl

/-- The read-out of the second hidden layer. -/
theorem v36_ix (i : Fin 2048) :
    val_main_v36 (F := Ideal) x0 x1 x2 x3 x4 x5 x6 x7 x8 x9 x10 x11 x12 (ix2 i (0 : Fin 1))
      = Spec.lin (Spec.reluLayer (Spec.reluLayer (baseRows x0 x1 x2 x3 x4 x5 x6 i) (mat x7) (vec x8)) (mat x9) (vec x10)) (mat x11 0) (vec x12 0) := by
  rw [val_main_v36_apply, val_main_v33_apply, val_main_v35_apply, val_main_v34_apply]
  simp only [val_main_v32_apply, lidx33, ridx33, idx32, idx35, idx34, v31_ix]
  rfl

/-- The skip read-out of the base row. -/
theorem v41_ix (i : Fin 2048) :
    val_main_v41 (F := Ideal) x0 x1 x2 x3 x4 x5 x6 x17 x18 (ix2 i (0 : Fin 1))
      = Spec.lin (baseRows x0 x1 x2 x3 x4 x5 x6 i) (mat x17 0) (vec x18 0) := by
  rw [val_main_v41_apply, val_main_v38_apply, val_main_v40_apply, val_main_v39_apply]
  simp only [val_main_v37_apply, lidx38, ridx38, idx37, idx40, idx39, v19_ix]
  rfl

/-- The value result at row `i`. -/
theorem v42_ix (i : Fin 2048) :
    val_main_v42 (F := Ideal) x0 x1 x2 x3 x4 x5 x6 x7 x8 x9 x10 x11 x12 x17 x18 (ix2 i (0 : Fin 1))
      = Spec.valHead (baseRows x0 x1 x2 x3 x4 x5 x6 i) (mat x7) (vec x8) (mat x9) (vec x10) (mat x11 0) (vec x12 0) (mat x17 0) (vec x18 0) := by
  rw [val_main_v42_apply, v36_ix, v41_ix]
  rfl

end Cert.RefSpec

end
-- ==== Proof.Ref.Act.lean ====
/-
  The reference's action head at an index: one hidden affine layer with its positive part, the affine read-out, the
  affine skip from the base rows, and their sum, each read as the specification's row function of the base row.
-/
import proofs.«171732_j7748121002128_2_alg».proof.Proof.Ref.Base

noncomputable section

namespace Cert.RefSpec

open Cert.ReferenceIdeal Cert.ReferenceIdeal.Gen Cert.ReferenceIdeal.Read Idealize.ShloMosaic Idealize.ShloMosaic.ValueIdx Cert.SpecArr

variable (x0 : (⟨S2048x1, .f32⟩ : BufTy).Contents (Elt Ideal))
variable (x1 : (⟨S2048x40960, .f32⟩ : BufTy).Contents (Elt Ideal))
variable (x2 : (⟨S2048x40960, .f32⟩ : BufTy).Contents (Elt Ideal))
variable (x3 : (⟨S288x40960, .f32⟩ : BufTy).Contents (Elt Ideal))
variable (x4 : (⟨S288, .f32⟩ : BufTy).Contents (Elt Ideal))
variable (x5 : (⟨S288x40960, .f32⟩ : BufTy).Contents (Elt Ideal))
variable (x6 : (⟨S288, .f32⟩ : BufTy).Contents (Elt Ideal))
variable (x7 : (⟨S32x576, .f32⟩ : BufTy).Contents (Elt Ideal))
variable (x8 : (⟨S32, .f32⟩ : BufTy).Contents (Elt Ideal))
variable (x9 : (⟨S32x32, .f32⟩ : BufTy).Contents (Elt Ideal))
variable (x10 : (⟨S32, .f32⟩ : BufTy).Contents (Elt Ideal))
variable (x11 : (⟨S1x32, .f32⟩ : BufTy).Contents (Elt Ideal))
variable (x12 : (⟨S1, .f32⟩ : BufTy).Contents (Elt Ideal))
variable (x13 : (⟨S144x576, .f32⟩ : BufTy).Contents (Elt Ideal))
variable (x14 : (⟨S144, .f32⟩ : BufTy).Contents (Elt Ideal))
variable (x15 : (⟨S4096x144, .f32⟩ : BufTy).Contents (Elt Ideal))
variable (x16 : (⟨S4096, .f32⟩ : BufTy).Contents (Elt Ideal))
variable (x17 : (⟨S1x576, .f32⟩ : BufTy).Contents (Elt Ideal))
variable (x18 : (⟨S1, .f32⟩ : BufTy).Contents (Elt Ideal))
variable (x19 : (⟨S4096x576, .f32⟩ : BufTy).Contents (Elt Ideal))
variable (x20 : (⟨S4096, .f32⟩ : BufTy).Contents (Elt Ideal))

/-! ## Index equations -/

theorem lidx44 (i : Fin 2048) (j : Fin 144) (k : Fin 576) : lidx_main_v44 (ix2 i j) k = ix2 i k :=
  funext fun a => match a with
    | ⟨0, _⟩ => rfl
    | ⟨1, _⟩ => rfl
theorem ridx44 (i : Fin 2048) (j : Fin 144) (k : Fin 576) : ridx_main_v44 (ix2 i j) k = ix2 k j :=
  funext fun a => match a with
    | ⟨0, _⟩ => rfl
    | ⟨1, _⟩ => rfl
theorem idx43 (k : Fin 576) (j : Fin 144) : idx_main_v43 (ix2 k j) = ix2 j k :=
  funext fun a => match a with
    | ⟨0, _⟩ => rfl
    | ⟨1, _⟩ => rfl
theorem idx46 (i : Fin 2048) (j : Fin 144) : idx_main_v46 (ix2 i j) = ix2 (0 : Fin 1) j :=
  funext fun a => match a with
    | ⟨0, _⟩ => rfl
    | ⟨1, _⟩ => rfl
theorem idx45 (u : Fin 1) (j : Fin 144) : idx_main_v45 (ix2 u j) = ix1 j :=
  funext fun a => match a with
    | ⟨0, _⟩ => rfl

theorem lidx50 (i : Fin 2048) (j : Fin 4096) (k : Fin 144) : lidx_main_v50 (ix2 i j) k = ix2 i k :=
  funext fun a => match a with
    | ⟨0, _⟩ => rfl
    | ⟨1, _⟩ => rfl
theorem ridx50 (i : Fin 2048) (j : Fin 4096) (k : Fin 144) : ridx_main_v50 (ix2 i j) k = ix2 k j :=
  funext fun a => match a with
    | ⟨0, _⟩ => rfl
    | ⟨1, _⟩ => rfl
theorem idx49 (k : Fin 144) (j : Fin 4096) : idx_main_v49 (ix2 k j) = ix2 j k :=
  funext fun a => match a with
    | ⟨0, _⟩ => rfl
    | ⟨1, _⟩ => rfl
theorem idx52 (i : Fin 2048) (j : Fin 4096) : idx_main_v52 (ix2 i j) = ix2 (0 : Fin 1) j :=
  funext fun a => match a with
    | ⟨0, _⟩ => rfl
    | ⟨1, _⟩ => rfl
theorem idx51 (u : Fin 1) (j : Fin 4096) : idx_main_v51 (ix2 u j) = ix1 j :=
  funext fun a => match a with
    | ⟨0, _⟩ => rfl

theorem lidx55 (i : Fin 2048) (j : Fin 4096) (k : Fin 576) : lidx_main_v55 (ix2 i j) k = ix2 i k :=
  funext fun a => match a with
    | ⟨0, _⟩ => rfl
    | ⟨1, _⟩ => rfl
theorem ridx55 (i : Fin 2048) (j : Fin 4096) (k : Fin 576) : ridx_main_v55 (ix2 i j) k = ix2 k j :=
  funext fun a => match a with
    | ⟨0, _⟩ => rfl
    | ⟨1, _⟩ => rfl
theorem idx54 (k : Fin 576) (j : Fin 4096) : idx_main_v54 (ix2 k j) = ix2 j k :=
  funext fun a => match a with
    | ⟨0, _⟩ => rfl
    | ⟨1, _⟩ => rfl
theorem idx57 (i : Fin 2048) (j : Fin 4096) : idx_main_v57 (ix2 i j) = ix2 (0 : Fin 1) j :=
  funext fun a => match a with
    | ⟨0, _⟩ => rfl
    | ⟨1, _⟩ => rfl
theorem idx56 (u : Fin 1) (j : Fin 4096) : idx_main_v56 (ix2 u j) = ix1 j :=
  funext fun a => match a with
    | ⟨0, _⟩ => rfl

/-! ## The stages -/

/-- The hidden layer before its positive part. -/
theorem v47_ix (i : Fin 2048) (j : Fin 144) :
    val_main_v47 (F := Ideal) x0 x1 x2 x3 x4 x5 x6 x13 x14 (ix2 i j) = Spec.layer (baseRows x0 x1 x2 x3 x4 x5 x6 i) (mat x13) (vec x14) j := by
  rw [val_main_v47_apply, val_main_v44_apply, val_main_v46_apply, val_main_v45_apply]
  simp only [val_main_v43_apply, lidx44, ridx44, idx43, idx46, idx45, v19_ix]
  rfl

/-- The hidden layer. -/
theorem v48_ix (i : Fin 2048) (j : Fin 144) :
    val_main_v48 (F := Ideal) x0 x1 x2 x3 x4 x5 x6 x13 x14 (ix2 i j) = Spec.reluLayer (baseRows x0 x1 x2 x3 x4 x5 x6 i) (mat x13) (vec x14) j := by
  rw [val_main_v48_apply, v47_ix, val_main_call3_v0_apply, val_main_call3_cst_apply]
  show max _ (Ideal.ofBits .f32 0x00000000#32) = _
  rw [Ideal.ofBits_zero_f32]
  rfl

/-- The read-out of the hidden layer. -/
theorem v53_ix (i : Fin 2048) (j : Fin 4096) :
    val_main_v53 (F := Ideal) x0 x1 x2 x3 x4 x5 x6 x13 x14 x15 x16 (ix2 i j)
      = Spec.lin (Spec.reluLayer (baseRows x0 x1 x2 x3 x4 x5 x6 i) (mat x13) (vec x14)) (mat x15 j) (vec x16 j) := by
  rw [val_main_v53_apply, val_main_v50_apply, val_main_v52_apply, val_main_v51_apply]
  simp only [val_main_v49_apply, lidx50, ridx50, idx49, idx52, idx51, v48_ix]
  rfl

/-- The skip read-out of the base row. -/
theorem v58_ix (i : Fin 2048) (j : Fin 4096) :
    val_main_v58 (F := Ideal) x0 x1 x2 x3 x4 x5 x6 x19 x20 (ix2 i j) = Spec.lin (baseRows x0 x1 x2 x3 x4 x5 x6 i) (mat x19 j) (vec x20 j) := by
  rw [val_main_v58_apply, val_main_v55_apply, val_main_v57_apply, val_main_v56_apply]
  simp only [val_main_v54_apply, lidx55, ridx55, idx54, idx57, idx56, v19_ix]
  rfl

/-- The action result at `(i, j)`. -/
theorem v59_ix (i : Fin 2048) (j : Fin 4096) :
    val_main_v59 (F := Ideal) x0 x1 x2 x3 x4 x5 x6 x13 x14 x15 x16 x19 x20 (ix2 i j)
      = Spec.actHead (baseRows x0 x1 x2 x3 x4 x5 x6 i) (mat x13) (vec x14) (mat x15) (vec x16) (mat x19) (vec x20) j := by
  rw [val_main_v59_apply, v53_ix, v58_ix]
  rfl

end Cert.RefSpec

end
-- ==== Proof.Ref.RefSpec.lean ====
/-
  The reference's two results, read as the shared specification's functions of the argument arrays.
-/
import proofs.«171732_j7748121002128_2_alg».proof.Proof.Ref.Val
import proofs.«171732_j7748121002128_2_alg».proof.Proof.Ref.Act

noncomputable section

namespace Cert.RefSpec

open Cert.ReferenceIdeal Cert.ReferenceIdeal.Gen Cert.ReferenceIdeal.Read Idealize.ShloMosaic Idealize.ShloMosaic.ValueIdx Cert.SpecArr

variable (x0 : (⟨S2048x1, .f32⟩ : BufTy).Contents (Elt Ideal))
variable (x1 : (⟨S2048x40960, .f32⟩ : BufTy).Contents (Elt Ideal))
variable (x2 : (⟨S2048x40960, .f32⟩ : BufTy).Contents (Elt Ideal))
variable (x3 : (⟨S288x40960, .f32⟩ : BufTy).Contents (Elt Ideal))
variable (x4 : (⟨S288, .f32⟩ : BufTy).Contents (Elt Ideal))
variable (x5 : (⟨S288x40960, .f32⟩ : BufTy).Contents (Elt Ideal))
variable (x6 : (⟨S288, .f32⟩ : BufTy).Contents (Elt Ideal))
variable (x7 : (⟨S32x576, .f32⟩ : BufTy).Contents (Elt Ideal))
variable (x8 : (⟨S32, .f32⟩ : BufTy).Contents (Elt Ideal))
variable (x9 : (⟨S32x32, .f32⟩ : BufTy).Contents (Elt Ideal))
variable (x10 : (⟨S32, .f32⟩ : BufTy).Contents (Elt Ideal))
variable (x11 : (⟨S1x32, .f32⟩ : BufTy).Contents (Elt Ideal))
variable (x12 : (⟨S1, .f32⟩ : BufTy).Contents (Elt Ideal))
variable (x13 : (⟨S144x576, .f32⟩ : BufTy).Contents (Elt Ideal))
variable (x14 : (⟨S144, .f32⟩ : BufTy).Contents (Elt Ideal))
variable (x15 : (⟨S4096x144, .f32⟩ : BufTy).Contents (Elt Ideal))
variable (x16 : (⟨S4096, .f32⟩ : BufTy).Contents (Elt Ideal))
variable (x17 : (⟨S1x576, .f32⟩ : BufTy).Contents (Elt Ideal))
variable (x18 : (⟨S1, .f32⟩ : BufTy).Contents (Elt Ideal))
variable (x19 : (⟨S4096x576, .f32⟩ : BufTy).Contents (Elt Ideal))
variable (x20 : (⟨S4096, .f32⟩ : BufTy).Contents (Elt Ideal))

/-- The value result `[2048, 1]` is the specification's value head of every base row. -/
theorem val42_eq :
    val_main_v42 (F := Ideal) x0 x1 x2 x3 x4 x5 x6 x7 x8 x9 x10 x11 x12 x17 x18
      = valOf (baseRows x0 x1 x2 x3 x4 x5 x6) x7 x8 x9 x10 x11 x12 x17 x18 := by
  unfold valOf
  refine of2_ext _ _ fun i k => ?_
  have hk : k = 0 := Subsingleton.elim k 0
  subst hk
  exact v42_ix x0 x1 x2 x3 x4 x5 x6 x7 x8 x9 x10 x11 x12 x17 x18 i

/-- The action result `[2048, 4096]` (before its final re-layout) is the specification's action head of every base row. -/
theorem val59_eq :
    val_main_v59 (F := Ideal) x0 x1 x2 x3 x4 x5 x6 x13 x14 x15 x16 x19 x20
      = actOf (baseRows x0 x1 x2 x3 x4 x5 x6) x13 x14 x15 x16 x19 x20 := by
  unfold actOf
  exact of2_ext _ _ fun i j => v59_ix x0 x1 x2 x3 x4 x5 x6 x13 x14 x15 x16 x19 x20 i j

end Cert.RefSpec

end
-- ==== Proof.lean ====
/-
  Two programs compute a two-headed network over sparse board features: a Pallas program of two kernels and the
  plain jnp reference. Per input row, two affine accumulators over the 40960 features (white and black, width 288)
  are blended by the side to move into one base row of width 576 (a positive part of a weighted sum of the two
  concatenations), from which a value head (two hidden layers of width 32 and a read-out, plus a skip) and an action
  head (one hidden layer of width 144 and a read-out of width 4096, plus a skip) are read.

  The kernel program accumulates the two matrix products slice by slice over 80 grid points of 512 features each,
  in two scratch accumulators zeroed at the first point, and adds the bias at the last; its second kernel computes
  both heads for 256 rows per grid point, the two one-column read-outs as row sums of products. On the extended
  reals a sum may be split into slices and regrouped freely (addition is commutative and associative there), a
  product with a one-row matrix is that row sum, and the changes of float format are the identity, so both programs
  compute the function `Cert.SpecArr.valOf`, `actOf` of the 21 argument arrays, index by index; no distributive law
  and no finiteness of the inputs is used.

  The frames: each program terminates from any memory, faults nowhere and leaves its arguments as launched — for the
  kernel program by running its five items (reshapes, the accumulation kernel, reshapes, the heads kernel, a
  reshape) over one thread state, for the reference by its straight-line run.
-/
import proofs.«171732_j7748121002128_2_alg».proof.Defs
import proofs.«171732_j7748121002128_2_alg».proof.Proof.Gen.Kernel
import proofs.«171732_j7748121002128_2_alg».proof.Proof.Gen.KernelIdeal
import proofs.«171732_j7748121002128_2_alg».proof.Proof.Gen.ReferenceIdeal
import proofs.«171732_j7748121002128_2_alg».proof.Proof.Gen.Pre_finite_inputs
import proofs.«171732_j7748121002128_2_alg».proof.Proof.Gen.ReferenceIdeal.Run
import proofs.«171732_j7748121002128_2_alg».proof.Proof.Gen.ReferenceIdeal.Read
import proofs.«171732_j7748121002128_2_alg».proof.Proof.K.Run
import proofs.«171732_j7748121002128_2_alg».proof.Proof.KI.Run
import proofs.«171732_j7748121002128_2_alg».proof.Proof.KI.KernelSpec
import proofs.«171732_j7748121002128_2_alg».proof.Proof.Ref.RefSpec
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : @Cert.frame_Kernel Cert.Kernel.Gen.facts Cert.Pre_finite_inputs.Gen.facts :=
  fun m ρ _ => Cert.Kernel.Run.frame m ρ

/-- The idealized kernel program runs and keeps its arguments. -/
theorem frame_ki : @Cert.frame_KernelIdeal Cert.KernelIdeal.Gen.facts Cert.Pre_finite_inputs.Gen.facts :=
  fun m ρ _ => Cert.KernelIdeal.Run.frame m ρ

/-- The idealized reference runs and keeps its arguments: its straight-line run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- At the end of the kernel program's run every argument array holds its launch contents. -/
theorem ki_kept (m : (ℓ : Loc Cert.KernelIdeal.nD Cert.KernelIdeal.τ Cert.KernelIdeal.sig) → Buf (Elt Ideal) ℓ) (s : MemSt Cert.KernelIdeal.nD Cert.KernelIdeal.τ Cert.KernelIdeal.sig (Elt Ideal))
    (h : ∀ c : Dev Cert.KernelIdeal.nD, ∀ b ∈ Pipeline.ucRefs Cert.KernelIdeal.τ Cert.KernelIdeal.sig, s.mem (((c : Thread Cert.KernelIdeal.nD Cert.KernelIdeal.τ)).1, b) = Cert.KernelIdeal.Run.W5 m c b)
    (c : Dev Cert.KernelIdeal.nD) :
      s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ s.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ s.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ s.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ s.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ s.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ s.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ s.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ s.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ s.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ s.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ s.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ s.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ s.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ s.mem ((c.tc : Thread Cert.KernelIdeal.nD Cert.KernelIdeal.τ).loc Cert.KernelIdeal.main_arg20) = m ((c.tc : Thread Cert.KernelIdeal.nD Cert.KernelIdeal.τ).loc Cert.KernelIdeal.main_arg20) :=
  ⟨(h c _ (Cert.KernelIdeal.Run.mem_uc Cert.KernelIdeal.main_arg0 (by decide))).trans (Cert.KernelIdeal.Run.W5_keep m c Cert.KernelIdeal.main_arg0 (by decide) (by decide) (by decide) (by decide) (by decide)),
    (h c _ (Cert.KernelIdeal.Run.mem_uc Cert.KernelIdeal.main_arg1 (by decide))).trans (Cert.KernelIdeal.Run.W5_keep m c Cert.KernelIdeal.main_arg1 (by decide) (by decide) (by decide) (by decide) (by decide)),
    (h c _ (Cert.KernelIdeal.Run.mem_uc Cert.KernelIdeal.main_arg2 (by decide))).trans (Cert.KernelIdeal.Run.W5_keep m c Cert.KernelIdeal.main_arg2 (by decide) (by decide) (by decide) (by decide) (by decide)),
    (h c _ (Cert.KernelIdeal.Run.mem_uc Cert.KernelIdeal.main_arg3 (by decide))).trans (Cert.KernelIdeal.Run.W5_keep m c Cert.KernelIdeal.main_arg3 (by decide) (by decide) (by decide) (by decide) (by decide)),
    (h c _ (Cert.KernelIdeal.Run.mem_uc Cert.KernelIdeal.main_arg4 (by decide))).trans (Cert.KernelIdeal.Run.W5_keep m c Cert.KernelIdeal.main_arg4 (by decide) (by decide) (by decide) (by decide) (by decide)),
    (h c _ (Cert.KernelIdeal.Run.mem_uc Cert.KernelIdeal.main_arg5 (by decide))).trans (Cert.KernelIdeal.Run.W5_keep m c Cert.KernelIdeal.main_arg5 (by decide) (by decide) (by decide) (by decide) (by decide)),
    (h c _ (Cert.KernelIdeal.Run.mem_uc Cert.KernelIdeal.main_arg6 (by decide))).trans (Cert.KernelIdeal.Run.W5_keep m c Cert.KernelIdeal.main_arg6 (by decide) (by decide) (by decide) (by decide) (by decide)),
    (h c _ (Cert.KernelIdeal.Run.mem_uc Cert.KernelIdeal.main_arg7 (by decide))).trans (Cert.KernelIdeal.Run.W5_keep m c Cert.KernelIdeal.main_arg7 (by decide) (by decide) (by decide) (by decide) (by decide)),
    (h c _ (Cert.KernelIdeal.Run.mem_uc Cert.KernelIdeal.main_arg8 (by decide))).trans (Cert.KernelIdeal.Run.W5_keep m c Cert.KernelIdeal.main_arg8 (by decide) (by decide) (by decide) (by decide) (by decide)),
    (h c _ (Cert.KernelIdeal.Run.mem_uc Cert.KernelIdeal.main_arg9 (by decide))).trans (Cert.KernelIdeal.Run.W5_keep m c Cert.KernelIdeal.main_arg9 (by decide) (by decide) (by decide) (by decide) (by decide)),
    (h c _ (Cert.KernelIdeal.Run.mem_uc Cert.KernelIdeal.main_arg10 (by decide))).trans (Cert.KernelIdeal.Run.W5_keep m c Cert.KernelIdeal.main_arg10 (by decide) (by decide) (by decide) (by decide) (by decide)),
    (h c _ (Cert.KernelIdeal.Run.mem_uc Cert.KernelIdeal.main_arg11 (by decide))).trans (Cert.KernelIdeal.Run.W5_keep m c Cert.KernelIdeal.main_arg11 (by decide) (by decide) (by decide) (by decide) (by decide)),
    (h c _ (Cert.KernelIdeal.Run.mem_uc Cert.KernelIdeal.main_arg12 (by decide))).trans (Cert.KernelIdeal.Run.W5_keep m c Cert.KernelIdeal.main_arg12 (by decide) (by decide) (by decide) (by decide) (by decide)),
    (h c _ (Cert.KernelIdeal.Run.mem_uc Cert.KernelIdeal.main_arg13 (by decide))).trans (Cert.KernelIdeal.Run.W5_keep m c Cert.KernelIdeal.main_arg13 (by decide) (by decide) (by decide) (by decide) (by decide)),
    (h c _ (Cert.KernelIdeal.Run.mem_uc Cert.KernelIdeal.main_arg14 (by decide))).trans (Cert.KernelIdeal.Run.W5_keep m c Cert.KernelIdeal.main_arg14 (by decide) (by decide) (by decide) (by decide) (by decide)),
    (h c _ (Cert.KernelIdeal.Run.mem_uc Cert.KernelIdeal.main_arg15 (by decide))).trans (Cert.KernelIdeal.Run.W5_keep m c Cert.KernelIdeal.main_arg15 (by decide) (by decide) (by decide) (by decide) (by decide)),
    (h c _ (Cert.KernelIdeal.Run.mem_uc Cert.KernelIdeal.main_arg16 (by decide))).trans (Cert.KernelIdeal.Run.W5_keep m c Cert.KernelIdeal.main_arg16 (by decide) (by decide) (by decide) (by decide) (by decide)),
    (h c _ (Cert.KernelIdeal.Run.mem_uc Cert.KernelIdeal.main_arg17 (by decide))).trans (Cert.KernelIdeal.Run.W5_keep m c Cert.KernelIdeal.main_arg17 (by decide) (by decide) (by decide) (by decide) (by decide)),
    (h c _ (Cert.KernelIdeal.Run.mem_uc Cert.KernelIdeal.main_arg18 (by decide))).trans (Cert.KernelIdeal.Run.W5_keep m c Cert.KernelIdeal.main_arg18 (by decide) (by decide) (by decide) (by decide) (by decide)),
    (h c _ (Cert.KernelIdeal.Run.mem_uc Cert.KernelIdeal.main_arg19 (by decide))).trans (Cert.KernelIdeal.Run.W5_keep m c Cert.KernelIdeal.main_arg19 (by decide) (by decide) (by decide) (by decide) (by decide)),
    (h c _ (Cert.KernelIdeal.Run.mem_uc Cert.KernelIdeal.main_arg20 (by decide))).trans (Cert.KernelIdeal.Run.W5_keep m c Cert.KernelIdeal.main_arg20 (by decide) (by decide) (by decide) (by decide) (by decide))⟩

/-- The value specification respects equality of its arguments. -/
theorem valOf_congr {x0 y0 : Cert.SpecArr.A2 2048 1} {x1 y1 : Cert.SpecArr.A2 2048 40960} {x2 y2 : Cert.SpecArr.A2 2048 40960} {x3 y3 : Cert.SpecArr.A2 288 40960} {x4 y4 : Cert.SpecArr.A1 288} {x5 y5 : Cert.SpecArr.A2 288 40960} {x6 y6 : Cert.SpecArr.A1 288} {x7 y7 : Cert.SpecArr.A2 32 576} {x8 y8 : Cert.SpecArr.A1 32} {x9 y9 : Cert.SpecArr.A2 32 32} {x10 y10 : Cert.SpecArr.A1 32} {x11 y11 : Cert.SpecArr.A2 1 32} {x12 y12 : Cert.SpecArr.A1 1} {x17 y17 : Cert.SpecArr.A2 1 576} {x18 y18 : Cert.SpecArr.A1 1}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h17 : x17 = y17) (h18 : x18 = y18) :
    Cert.SpecArr.valOf (Cert.SpecArr.baseRows x0 x1 x2 x3 x4 x5 x6) x7 x8 x9 x10 x11 x12 x17 x18
      = Cert.SpecArr.valOf (Cert.SpecArr.baseRows y0 y1 y2 y3 y4 y5 y6) y7 y8 y9 y10 y11 y12 y17 y18 := by
  subst_vars; rfl

/-- The action specification respects equality of its arguments. -/
theorem actOf_congr {x0 y0 : Cert.SpecArr.A2 2048 1} {x1 y1 : Cert.SpecArr.A2 2048 40960} {x2 y2 : Cert.SpecArr.A2 2048 40960} {x3 y3 : Cert.SpecArr.A2 288 40960} {x4 y4 : Cert.SpecArr.A1 288} {x5 y5 : Cert.SpecArr.A2 288 40960} {x6 y6 : Cert.SpecArr.A1 288} {x13 y13 : Cert.SpecArr.A2 144 576} {x14 y14 : Cert.SpecArr.A1 144} {x15 y15 : Cert.SpecArr.A2 4096 144} {x16 y16 : Cert.SpecArr.A1 4096} {x19 y19 : Cert.SpecArr.A2 4096 576} {x20 y20 : Cert.SpecArr.A1 4096}
    (h0 : x0 = y0) (h1 : x1 = y1) (h2 : x2 = y2) (h3 : x3 = y3) (h4 : x4 = y4) (h5 : x5 = y5) (h6 : x6 = y6) (h13 : x13 = y13) (h14 : x14 = y14) (h15 : x15 = y15) (h16 : x16 = y16) (h19 : x19 = y19) (h20 : x20 = y20) :
    Cert.SpecArr.actOf (Cert.SpecArr.baseRows x0 x1 x2 x3 x4 x5 x6) x13 x14 x15 x16 x19 x20
      = Cert.SpecArr.actOf (Cert.SpecArr.baseRows y0 y1 y2 y3 y4 y5 y6) y13 y14 y15 y16 y19 y20 := by
  subst_vars; rfl

/-- At the extended reals both programs end with the specification's two arrays of their (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.SpecArr.valOf (Cert.SpecArr.baseRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => shapeCast Cert.KernelIdeal.S2048x64x64 (Cert.SpecArr.actOf (Cert.SpecArr.baseRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) Cert.KernelIdeal.Gen.shapeCasts_S2048x4096_S2048x64x64,
    ?_, ?_⟩
  · exact (θ_run Cert.KernelIdeal.defs _ _).mono (fun r h c =>
      ⟨(h c _ (Cert.KernelIdeal.Run.mem_uc Cert.KernelIdeal.main_v10_0 (by decide))).trans (Cert.KernelIdeal.KernelSpec.val_eq m c),
        (h c _ (Cert.KernelIdeal.Run.mem_uc Cert.KernelIdeal.main_v11 (by decide))).trans (Cert.KernelIdeal.KernelSpec.act_eq m c),
        ki_kept m r.2 h c⟩) (Cert.KernelIdeal.Run.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15, e16, e17, e18, e19, e20⟩ := hagree c
      have hval : Cert.SpecArr.valOf (Cert.SpecArr.baseRows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
          = Cert.SpecArr.valOf (Cert.SpecArr.baseRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) :=
        valOf_congr e0 e1 e2 e3 e4 e5 e6 e7 e8 e9 e10 e11 e12 e17 e18
      rw [Cert.ReferenceIdeal.Read.val_main_v42_eq, Cert.RefSpec.val42_eq]
      exact hval
    · obtain ⟨e0, e1, e2, e3, e4, e5, e6, e7, e8, e9, e10, e11, e12, e13, e14, e15, e16, e17, e18, e19, e20⟩ := hagree c
      have hact : Cert.SpecArr.actOf (Cert.SpecArr.baseRows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
          = Cert.SpecArr.actOf (Cert.SpecArr.baseRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) :=
        actOf_congr e0 e1 e2 e3 e4 e5 e6 e13 e14 e15 e16 e19 e20
      rw [Cert.ReferenceIdeal.Read.val_main_v60_eq]
      unfold Cert.ReferenceIdeal.Read.val_main_v60
      rw [Cert.RefSpec.val59_eq]
      exact congrArg (fun A => shapeCast Cert.ReferenceIdeal.S2048x64x64 A Cert.ReferenceIdeal.Gen.shapeCasts_S2048x4096_S2048x64x64) hact

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
